-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128x64 .f32) (main_arg12 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x64 .f32) (main_arg12 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x64 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S5000 : Shape := ⟨1, ![5000]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 93
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S100000x1, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S100000x1, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x128, .f32⟩
  | .hbm, ⟨86, _⟩ => ⟨S_, .f32⟩
  | .hbm, ⟨87, _⟩ => ⟨S100000x128, .f32⟩
  | .hbm, ⟨88, _⟩ => ⟨S1600000x1, .i32⟩
  | .hbm, ⟨89, _⟩ => ⟨S100000x128, .f32⟩
  | .hbm, ⟨90, _⟩ => ⟨S100000x1, .f32⟩
  | .hbm, ⟨91, _⟩ => ⟨S1x64, .f32⟩
  | .hbm, ⟨92, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x1, .f32⟩
  | .local _ .vmem, ⟨15, _⟩ => ⟨S5000x1, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S128x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S5000x1, .f32⟩
  | .local _ .vmem, ⟨29, _⟩ => ⟨S5000x1, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x1, .f32⟩
  | .local _ .vmem, ⟨37, _⟩ => ⟨S5000x1, .f32⟩
  | .local _ .vmem, ⟨38, _⟩ => ⟨S128x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_cst_4 : Ref sig .tc := ⟨.hbm, 29, rfl⟩
abbrev main_v11 : Ref sig .tc := ⟨.hbm, 30, rfl⟩
abbrev main_v12 : Ref sig .tc := ⟨.hbm, 31, rfl⟩
abbrev main_cst_5 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_7 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32_0 : Ref sig .tc := ⟨.hbm, 55, rfl⟩
abbrev main_v32_1 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_c_9 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_10 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48_0 : Ref sig .tc := ⟨.hbm, 75, rfl⟩
abbrev main_v48_1 : Ref sig .tc := ⟨.hbm, 76, rfl⟩
abbrev main_c_11 : Ref sig .tc := ⟨.hbm, 77, rfl⟩
abbrev main_v49 : Ref sig .tc := ⟨.hbm, 78, rfl⟩
abbrev main_v50 : Ref sig .tc := ⟨.hbm, 79, rfl⟩
abbrev main_c_12 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_13 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg8_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg4_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem7_1 : DmaSem sig := 17
abbrev cc1_sem8_0 : DmaSem sig := 18
abbrev cc1_sem8_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem7_1 : DmaSem sig := 31
abbrev cc2_sem8_0 : DmaSem sig := 32
abbrev cc2_sem8_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39
abbrev cc3_sem4_0 : DmaSem sig := 40
abbrev cc3_sem4_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  shapeCasts_S64_S1x64 : S64.ShapeCasts S1x64
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x1.size a ≤ S100000x1.size a
  hwx1_6 : ∀ i : grid1.Coords, EltTy.bits .f32 = 32 ∨ (Rect.block (s := S100000x1) S5000x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S100000x128.size a
  hwx1_8 : ∀ i : grid1.Coords, EltTy.bits .f32 = 32 ∨ (Rect.block (s := S100000x128) S5000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x1.size a ≤ S100000x1.size a
  hwx2_6 : ∀ i : grid2.Coords, EltTy.bits .f32 = 32 ∨ (Rect.block (s := S100000x1) S5000x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S100000x128.size a
  hwx2_8 : ∀ i : grid2.Coords, EltTy.bits .f32 = 32 ∨ (Rect.block (s := S100000x128) S5000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S5000x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v32_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v32_1) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S5000x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v48_0) S5000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v48_1) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 198
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x64, .f32⟩
  | 12 => ⟨S64, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S_, .f32⟩
  | 33 => ⟨S100000, .f32⟩
  | 34 => ⟨S100000, .f32⟩
  | 35 => ⟨S100000x1, .f32⟩
  | 36 => ⟨S100000x128, .f32⟩
  | 37 => ⟨S100000x128, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x128, .f32⟩
  | 47 => ⟨S_, .f32⟩
  | 48 => ⟨S100000x128, .f32⟩
  | 49 => ⟨S1600000x1, .i32⟩
  | 50 => ⟨S100000x128, .f32⟩
  | 51 => ⟨S100000x1, .f32⟩
  | 52 => ⟨S100000x128, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S_, .f32⟩
  | 59 => ⟨S100000, .f32⟩
  | 60 => ⟨S100000x1, .f32⟩
  | 61 => ⟨S_, .f32⟩
  | 62 => ⟨S100000x1, .f32⟩
  | 63 => ⟨S100000x1, .f32⟩
  | 64 => ⟨S_, .i32⟩
  | 65 => ⟨S_, .f32⟩
  | 66 => ⟨S100000, .f32⟩
  | 67 => ⟨S100000x1, .f32⟩
  | 68 => ⟨S_, .f32⟩
  | 69 => ⟨S100000x1, .f32⟩
  | 70 => ⟨S100000x1, .f32⟩
  | 71 => ⟨S100000x128, .f32⟩
  | 72 => ⟨S100000x128, .f32⟩
  | 73 => ⟨S100000x128, .f32⟩
  | 74 => ⟨S_, .f32⟩
  | 75 => ⟨S_, .f32⟩
  | 76 => ⟨S_, .f32⟩
  | 77 => ⟨S_, .f32⟩
  | 78 => ⟨S100000, .f32⟩
  | 79 => ⟨S100000x1, .f32⟩
  | 80 => ⟨S100000x1, .f32⟩
  | 81 => ⟨S100000x1, .f32⟩
  | 82 => ⟨S_, .f32⟩
  | 83 => ⟨S_, .i1⟩
  | 84 => ⟨S_, .f32⟩
  | 85 => ⟨S_, .f32⟩
  | 86 => ⟨S100000x1, .f32⟩
  | 87 => ⟨S100000x1, .f32⟩
  | 88 => ⟨S100000x128, .f32⟩
  | 89 => ⟨S100000x128, .f32⟩
  | 90 => ⟨S_, .f32⟩
  | 91 => ⟨S100000x1, .f32⟩
  | 92 => ⟨S100000x1, .f32⟩
  | 93 => ⟨S100000x1, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S100000x1, .f32⟩
  | 106 => ⟨S100000x128, .f32⟩
  | 107 => ⟨S100000x128, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x128, .f32⟩
  | 117 => ⟨S_, .f32⟩
  | 118 => ⟨S100000x128, .f32⟩
  | 119 => ⟨S1600000x1, .i32⟩
  | 120 => ⟨S100000x128, .f32⟩
  | 121 => ⟨S100000x1, .f32⟩
  | 122 => ⟨S100000x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000, .f32⟩
  | 2 => ⟨S100000x1, .f32⟩
  | 3 => ⟨S_, .f32⟩
  | 4 => ⟨S100000x1, .f32⟩
  | 5 => ⟨S100000x1, .f32⟩
  | 6 => ⟨S_, .i32⟩
  | 7 => ⟨S_, .f32⟩
  | 8 => ⟨S100000, .f32⟩
  | 9 => ⟨S100000x1, .f32⟩
  | 10 => ⟨S_, .f32⟩
  | 11 => ⟨S100000x1, .f32⟩
  | 12 => ⟨S100000x1, .f32⟩
  | 13 => ⟨S100000x128, .f32⟩
  | 14 => ⟨S100000x128, .f32⟩
  | 15 => ⟨S100000x128, .f32⟩
  | 16 => ⟨S_, .f32⟩
  | 17 => ⟨S_, .f32⟩
  | 18 => ⟨S_, .f32⟩
  | 19 => ⟨S_, .f32⟩
  | 20 => ⟨S100000, .f32⟩
  | 21 => ⟨S100000x1, .f32⟩
  | 22 => ⟨S100000x1, .f32⟩
  | 23 => ⟨S100000x1, .f32⟩
  | 24 => ⟨S_, .f32⟩
  | 25 => ⟨S_, .i1⟩
  | 26 => ⟨S_, .f32⟩
  | 27 => ⟨S_, .f32⟩
  | 28 => ⟨S100000x1, .f32⟩
  | 29 => ⟨S100000x1, .f32⟩
  | 30 => ⟨S100000x128, .f32⟩
  | 31 => ⟨S100000x128, .f32⟩
  | 32 => ⟨S_, .f32⟩
  | 33 => ⟨S100000x1, .f32⟩
  | 34 => ⟨S100000x1, .f32⟩
  | 35 => ⟨S100000x1, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S100000x128, .f32⟩
  | 46 => ⟨S100000x128, .f32⟩
  | 47 => ⟨S100000x1, .f32⟩
  | 48 => ⟨S100000x128, .f32⟩
  | 49 => ⟨S100000x128, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000x1, .f32⟩
  | 64 => ⟨S100000x128, .f32⟩
  | 65 => ⟨S100000x128, .f32⟩
  | 66 => ⟨S100000x64, .f32⟩
  | 67 => ⟨S1x64, .f32⟩
  | 68 => ⟨S100000x64, .f32⟩
  | 69 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_cst_4 : Ref sig .tc := ⟨.hbm, 29, rfl⟩
abbrev main_v11 : Ref sig .tc := ⟨.hbm, 30, rfl⟩
abbrev main_v12 : Ref sig .tc := ⟨.hbm, 31, rfl⟩
abbrev main_cst_5 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_c_10 : Ref sig .tc := ⟨.hbm, 64, rfl⟩
abbrev main_call0_cst : Ref sig .tc := ⟨.hbm, 65, rfl⟩
abbrev main_call0_v0 : Ref sig .tc := ⟨.hbm, 66, rfl⟩
abbrev main_call0_v1 : Ref sig .tc := ⟨.hbm, 67, rfl⟩
abbrev main_call0_cst_0 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_v6 : Ref sig .tc := ⟨.hbm, 73, rfl⟩
abbrev main_call0_v7 : Ref sig .tc := ⟨.hbm, 74, rfl⟩
abbrev main_call0_cst_1 : Ref sig .tc := ⟨.hbm, 75, rfl⟩
abbrev main_call0_v8 : Ref sig .tc := ⟨.hbm, 76, rfl⟩
abbrev main_call0_cst_2 : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_call0_v12 : Ref sig .tc := ⟨.hbm, 81, rfl⟩
abbrev main_call0_cst_3 : Ref sig .tc := ⟨.hbm, 82, rfl⟩
abbrev main_call0_v13 : Ref sig .tc := ⟨.hbm, 83, rfl⟩
abbrev main_call0_cst_4 : Ref sig .tc := ⟨.hbm, 84, rfl⟩
abbrev main_call0_call0_v0 : Ref sig .tc := ⟨.hbm, 85, rfl⟩
abbrev main_call0_call0_v1 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_cst_11 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_call1_cst : Ref sig .tc := ⟨.hbm, 102, rfl⟩
abbrev main_call1_v0 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_c_12 : Ref sig .tc := ⟨.hbm, 108, rfl⟩
abbrev main_v57 : Ref sig .tc := ⟨.hbm, 109, rfl⟩
abbrev main_v58 : Ref sig .tc := ⟨.hbm, 110, rfl⟩
abbrev main_c_13 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_cst_14 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_15 : Ref sig .tc := ⟨.hbm, 128, rfl⟩
abbrev main_v74 : Ref sig .tc := ⟨.hbm, 129, rfl⟩
abbrev main_v75 : Ref sig .tc := ⟨.hbm, 130, rfl⟩
abbrev main_cst_16 : Ref sig .tc := ⟨.hbm, 131, rfl⟩
abbrev main_v76 : Ref sig .tc := ⟨.hbm, 132, rfl⟩
abbrev main_v77 : Ref sig .tc := ⟨.hbm, 133, rfl⟩
abbrev main_c_17 : Ref sig .tc := ⟨.hbm, 134, rfl⟩
abbrev main_call2_cst : Ref sig .tc := ⟨.hbm, 135, rfl⟩
abbrev main_call2_v0 : Ref sig .tc := ⟨.hbm, 136, rfl⟩
abbrev main_call2_v1 : Ref sig .tc := ⟨.hbm, 137, rfl⟩
abbrev main_call2_cst_0 : Ref sig .tc := ⟨.hbm, 138, rfl⟩
abbrev main_call2_v2 : Ref sig .tc := ⟨.hbm, 139, rfl⟩
abbrev main_call2_v3 : Ref sig .tc := ⟨.hbm, 140, rfl⟩
abbrev main_call2_v4 : Ref sig .tc := ⟨.hbm, 141, rfl⟩
abbrev main_call2_v5 : Ref sig .tc := ⟨.hbm, 142, rfl⟩
abbrev main_call2_v6 : Ref sig .tc := ⟨.hbm, 143, rfl⟩
abbrev main_call2_v7 : Ref sig .tc := ⟨.hbm, 144, rfl⟩
abbrev main_call2_cst_1 : Ref sig .tc := ⟨.hbm, 145, rfl⟩
abbrev main_call2_v8 : Ref sig .tc := ⟨.hbm, 146, rfl⟩
abbrev main_call2_cst_2 : Ref sig .tc := ⟨.hbm, 147, rfl⟩
abbrev main_call2_v9 : Ref sig .tc := ⟨.hbm, 148, rfl⟩
abbrev main_call2_v10 : Ref sig .tc := ⟨.hbm, 149, rfl⟩
abbrev main_call2_v11 : Ref sig .tc := ⟨.hbm, 150, rfl⟩
abbrev main_call2_v12 : Ref sig .tc := ⟨.hbm, 151, rfl⟩
abbrev main_call2_cst_3 : Ref sig .tc := ⟨.hbm, 152, rfl⟩
abbrev main_call2_v13 : Ref sig .tc := ⟨.hbm, 153, rfl⟩
abbrev main_call2_cst_4 : Ref sig .tc := ⟨.hbm, 154, rfl⟩
abbrev main_call2_call0_v0 : Ref sig .tc := ⟨.hbm, 155, rfl⟩
abbrev main_call2_call0_v1 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_cst_18 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_call3_cst : Ref sig .tc := ⟨.hbm, 172, rfl⟩
abbrev main_call3_v0 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_c_19 : Ref sig .tc := ⟨.hbm, 178, rfl⟩
abbrev main_v96 : Ref sig .tc := ⟨.hbm, 179, rfl⟩
abbrev main_v97 : Ref sig .tc := ⟨.hbm, 180, rfl⟩
abbrev main_c_20 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_cst_21 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
import proofs.«121135_j57578331570298_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel program's run with its result named: from any memory with zero counters every weakly fair
    execution of @main terminates, nothing faulting; the result array ends at the last boundary's contents
    `Gen.W8` (the fold of @main's host stretches and regions from the launch memory), and every argument
    array ends as launched. -/
theorem run_named : θ_run defs (onTc (τ := τ) (main (F := F))) ⟨m, fun _ => 0, ρ⟩ (fun r => ∀ c : Dev nD,
      r.2.mem ((c.tc : Thread nD τ).loc main_v61) = Gen.W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

/-! ## The arrays a region leaves, read at the run's boundaries

Each region's exit contents at the array of one of its windows are what the pipeline leaves there: the
write-backs of its grid points folded over the entry contents. -/

/-- The result array: the last region's output window. -/
theorem W8_out (c : Dev nD) :
    Gen.W8 m ρ c (Proc.devRef .tc main_v61) = (Gen.dat3 (Gen.V7 m ρ) c).arrAt 4 cfg3.N :=
  Gen.W8_arr m ρ c 4

/-- The third region's second output, which the last host stretch gathers from. -/
theorem W6_out (c : Dev nD) :
    Gen.W6 m ρ c (Proc.devRef .tc main_v48_1) = (Gen.dat2 (Gen.V5 m ρ) c).arrAt 8 cfg2.N :=
  Gen.W6_arr m ρ c 8

/-- The second region's second output, which the third host stretch gathers from. -/
theorem W4_out (c : Dev nD) :
    Gen.W4 m ρ c (Proc.devRef .tc main_v32_1) = (Gen.dat1 (Gen.V3 m ρ) c).arrAt 8 cfg1.N :=
  Gen.W4_arr m ρ c 8

/-- The first region's output (the rows scaled), which the second host stretch gathers from. -/
theorem W2_out (c : Dev nD) :
    Gen.W2 m ρ c (Proc.devRef .tc main_v16) = (Gen.dat0 (Gen.V1 m ρ) c).arrAt 2 cfg0.N :=
  Gen.W2_arr m ρ c 2

end Cert.KernelIdeal.KRun

end
-- ==== Proof.KernelHost.lean ====
import proofs.«121135_j57578331570298_1_alg».proof.Proof.Gen.KernelIdeal.Frame

set_option maxRecDepth 16384

noncomputable section

namespace Cert.KernelIdeal.KHost

open Cert.KernelIdeal Cert.KernelIdeal.Gen Idealize.ShloMosaic Idealize.ShloMosaic.TcCoe Idealize.SL.Sem
open Idealize.ShloMosaic.StableHlo (after_of_forall_not_mem)

variable {F : FTy → Type} [FloatOps F]

/-! ## The host operations between the regions, named

The program's host stretches repeat three computations: the normalisation `max(deg, 1)^(-1/2)` of a node's degree (the
number of edges whose index array names it), the wrap of a possibly negative index into `[0, 100000)`, and the
aggregation of node features along the edges (gather the source rows, scatter-add them at the destination rows). -/

/-- `max(deg, 1) ^ (-1/2)`, where `deg` adds `1` at `idx e` for every edge `e`. -/
def degNorm (idx : Vec F S1600000 .i32) : Vec F S100000 .f32 :=
  Host.powf
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 idx)
        (broadcastInDim S1600000 ![] bcast_S_S1600000 (constant S_ .f32 0x3F800000#32)))
      (broadcastInDim S100000 ![] bcast_S_S100000 (constant S_ .f32 0x3F800000#32)))
    (broadcastInDim S100000 ![] bcast_S_S100000 (constant S_ .f32 0xBF000000#32))

/-- An index below zero counts from the end: `src + 100000` where `src < 0`, else `src`. -/
def wrapIdx (src : Vec F S1600000 .i32) : Vec F S1600000 .i32 :=
  select (cmpi .slt src (broadcastInDim S1600000 ![] bcast_S_S1600000 (constantI S_ 32 0#32)))
    (addi src (broadcastInDim S1600000 ![] bcast_S_S1600000 (constantI S_ 32 100000#32))) src

/-- Row `dst e` of the result adds up rows `src e` of `X` over the edges `e`. -/
def aggregate (X : Vec F S100000x128 .f32) (src dst : Vec F S1600000 .i32) : Vec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 X
      (broadcastInDim S1600000x1 ![0] bcast_S1600000_S1600000x1_0 (wrapIdx src)))

variable (m : (ℓ : Loc nD τ sig) → Buf (Elt F) ℓ) (ρ : Dev nD → PrngReg)

/-- A buffer that no operation of a host stretch writes holds after the stretch what it held before. -/
local macro "keeps " ops:ident : tactic => `(tactic| (
  refine after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Buffers that pass through a stretch or a region unchanged

An argument array is written by nothing; the two degree normalisations are computed by the first stretch and read
again by the later ones. Each lemma reads a boundary's contents at such a buffer back to the launch memory. -/

theorem W1_arg0 (c : Dev nD) : Gen.W1 m ρ c (Proc.devRef .tc main_arg0) = m ((c : Thread nD τ).loc main_arg0) :=
  (show Gen.W1 m ρ c (Proc.devRef .tc main_arg0) = Gen.W0 m ρ c (Proc.devRef .tc main_arg0) by keeps hostOps0).trans rfl
theorem W1_arg1 (c : Dev nD) : Gen.W1 m ρ c (Proc.devRef .tc main_arg1) = m ((c : Thread nD τ).loc main_arg1) :=
  (show Gen.W1 m ρ c (Proc.devRef .tc main_arg1) = Gen.W0 m ρ c (Proc.devRef .tc main_arg1) by keeps hostOps0).trans rfl
theorem W1_arg2 (c : Dev nD) : Gen.W1 m ρ c (Proc.devRef .tc main_arg2) = m ((c : Thread nD τ).loc main_arg2) :=
  (show Gen.W1 m ρ c (Proc.devRef .tc main_arg2) = Gen.W0 m ρ c (Proc.devRef .tc main_arg2) by keeps hostOps0).trans rfl
theorem W1_arg3 (c : Dev nD) : Gen.W1 m ρ c (Proc.devRef .tc main_arg3) = m ((c : Thread nD τ).loc main_arg3) :=
  (show Gen.W1 m ρ c (Proc.devRef .tc main_arg3) = Gen.W0 m ρ c (Proc.devRef .tc main_arg3) by keeps hostOps0).trans rfl
theorem W1_arg4 (c : Dev nD) : Gen.W1 m ρ c (Proc.devRef .tc main_arg4) = m ((c : Thread nD τ).loc main_arg4) :=
  (show Gen.W1 m ρ c (Proc.devRef .tc main_arg4) = Gen.W0 m ρ c (Proc.devRef .tc main_arg4) by keeps hostOps0).trans rfl
theorem W1_arg5 (c : Dev nD) : Gen.W1 m ρ c (Proc.devRef .tc main_arg5) = m ((c : Thread nD τ).loc main_arg5) :=
  (show Gen.W1 m ρ c (Proc.devRef .tc main_arg5) = Gen.W0 m ρ c (Proc.devRef .tc main_arg5) by keeps hostOps0).trans rfl
theorem W1_arg6 (c : Dev nD) : Gen.W1 m ρ c (Proc.devRef .tc main_arg6) = m ((c : Thread nD τ).loc main_arg6) :=
  (show Gen.W1 m ρ c (Proc.devRef .tc main_arg6) = Gen.W0 m ρ c (Proc.devRef .tc main_arg6) by keeps hostOps0).trans rfl
theorem W1_arg7 (c : Dev nD) : Gen.W1 m ρ c (Proc.devRef .tc main_arg7) = m ((c : Thread nD τ).loc main_arg7) :=
  (show Gen.W1 m ρ c (Proc.devRef .tc main_arg7) = Gen.W0 m ρ c (Proc.devRef .tc main_arg7) by keeps hostOps0).trans rfl
theorem W1_arg8 (c : Dev nD) : Gen.W1 m ρ c (Proc.devRef .tc main_arg8) = m ((c : Thread nD τ).loc main_arg8) :=
  (show Gen.W1 m ρ c (Proc.devRef .tc main_arg8) = Gen.W0 m ρ c (Proc.devRef .tc main_arg8) by keeps hostOps0).trans rfl
theorem W1_arg9 (c : Dev nD) : Gen.W1 m ρ c (Proc.devRef .tc main_arg9) = m ((c : Thread nD τ).loc main_arg9) :=
  (show Gen.W1 m ρ c (Proc.devRef .tc main_arg9) = Gen.W0 m ρ c (Proc.devRef .tc main_arg9) by keeps hostOps0).trans rfl
theorem W1_arg10 (c : Dev nD) : Gen.W1 m ρ c (Proc.devRef .tc main_arg10) = m ((c : Thread nD τ).loc main_arg10) :=
  (show Gen.W1 m ρ c (Proc.devRef .tc main_arg10) = Gen.W0 m ρ c (Proc.devRef .tc main_arg10) by keeps hostOps0).trans rfl
theorem W1_arg11 (c : Dev nD) : Gen.W1 m ρ c (Proc.devRef .tc main_arg11) = m ((c : Thread nD τ).loc main_arg11) :=
  (show Gen.W1 m ρ c (Proc.devRef .tc main_arg11) = Gen.W0 m ρ c (Proc.devRef .tc main_arg11) by keeps hostOps0).trans rfl
theorem W1_arg12 (c : Dev nD) : Gen.W1 m ρ c (Proc.devRef .tc main_arg12) = m ((c : Thread nD τ).loc main_arg12) :=
  (show Gen.W1 m ρ c (Proc.devRef .tc main_arg12) = Gen.W0 m ρ c (Proc.devRef .tc main_arg12) by keeps hostOps0).trans rfl

/-- The first stretch leaves `max(deg, 1)^(-1/2)` of the source indices' degrees in one buffer … -/
theorem W1_v10 (c : Dev nD) : Gen.W1 m ρ c (Proc.devRef .tc main_v10) = degNorm (m ((c : Thread nD τ).loc main_arg1)) := by
  show StableHlo.after hostOps0 (Gen.W0 m ρ c) (Proc.devRef .tc main_v10) = _
  after_results_simp
  unfold degNorm
  rfl
/-- … and of the destination indices' degrees in another. -/
theorem W1_v14 (c : Dev nD) : Gen.W1 m ρ c (Proc.devRef .tc main_v14) = degNorm (m ((c : Thread nD τ).loc main_arg2)) := by
  show StableHlo.after hostOps0 (Gen.W0 m ρ c) (Proc.devRef .tc main_v14) = _
  after_results_simp
  unfold degNorm
  rfl

theorem W2_arg1 (c : Dev nD) : Gen.W2 m ρ c (Proc.devRef .tc main_arg1) = m ((c : Thread nD τ).loc main_arg1) :=
  (Gen.W2_of_ne m ρ c main_arg1 (by decide)).trans (W1_arg1 m ρ c)
theorem W2_arg2 (c : Dev nD) : Gen.W2 m ρ c (Proc.devRef .tc main_arg2) = m ((c : Thread nD τ).loc main_arg2) :=
  (Gen.W2_of_ne m ρ c main_arg2 (by decide)).trans (W1_arg2 m ρ c)
theorem W2_arg3 (c : Dev nD) : Gen.W2 m ρ c (Proc.devRef .tc main_arg3) = m ((c : Thread nD τ).loc main_arg3) :=
  (Gen.W2_of_ne m ρ c main_arg3 (by decide)).trans (W1_arg3 m ρ c)
theorem W2_arg4 (c : Dev nD) : Gen.W2 m ρ c (Proc.devRef .tc main_arg4) = m ((c : Thread nD τ).loc main_arg4) :=
  (Gen.W2_of_ne m ρ c main_arg4 (by decide)).trans (W1_arg4 m ρ c)
theorem W2_arg5 (c : Dev nD) : Gen.W2 m ρ c (Proc.devRef .tc main_arg5) = m ((c : Thread nD τ).loc main_arg5) :=
  (Gen.W2_of_ne m ρ c main_arg5 (by decide)).trans (W1_arg5 m ρ c)
theorem W2_arg6 (c : Dev nD) : Gen.W2 m ρ c (Proc.devRef .tc main_arg6) = m ((c : Thread nD τ).loc main_arg6) :=
  (Gen.W2_of_ne m ρ c main_arg6 (by decide)).trans (W1_arg6 m ρ c)
theorem W2_arg7 (c : Dev nD) : Gen.W2 m ρ c (Proc.devRef .tc main_arg7) = m ((c : Thread nD τ).loc main_arg7) :=
  (Gen.W2_of_ne m ρ c main_arg7 (by decide)).trans (W1_arg7 m ρ c)
theorem W2_arg8 (c : Dev nD) : Gen.W2 m ρ c (Proc.devRef .tc main_arg8) = m ((c : Thread nD τ).loc main_arg8) :=
  (Gen.W2_of_ne m ρ c main_arg8 (by decide)).trans (W1_arg8 m ρ c)
theorem W2_arg9 (c : Dev nD) : Gen.W2 m ρ c (Proc.devRef .tc main_arg9) = m ((c : Thread nD τ).loc main_arg9) :=
  (Gen.W2_of_ne m ρ c main_arg9 (by decide)).trans (W1_arg9 m ρ c)
theorem W2_arg10 (c : Dev nD) : Gen.W2 m ρ c (Proc.devRef .tc main_arg10) = m ((c : Thread nD τ).loc main_arg10) :=
  (Gen.W2_of_ne m ρ c main_arg10 (by decide)).trans (W1_arg10 m ρ c)
theorem W2_arg11 (c : Dev nD) : Gen.W2 m ρ c (Proc.devRef .tc main_arg11) = m ((c : Thread nD τ).loc main_arg11) :=
  (Gen.W2_of_ne m ρ c main_arg11 (by decide)).trans (W1_arg11 m ρ c)
theorem W2_arg12 (c : Dev nD) : Gen.W2 m ρ c (Proc.devRef .tc main_arg12) = m ((c : Thread nD τ).loc main_arg12) :=
  (Gen.W2_of_ne m ρ c main_arg12 (by decide)).trans (W1_arg12 m ρ c)
theorem W2_v10 (c : Dev nD) : Gen.W2 m ρ c (Proc.devRef .tc main_v10) = degNorm (m ((c : Thread nD τ).loc main_arg1)) :=
  (Gen.W2_of_ne m ρ c main_v10 (by decide)).trans (W1_v10 m ρ c)
theorem W2_v14 (c : Dev nD) : Gen.W2 m ρ c (Proc.devRef .tc main_v14) = degNorm (m ((c : Thread nD τ).loc main_arg2)) :=
  (Gen.W2_of_ne m ρ c main_v14 (by decide)).trans (W1_v14 m ρ c)

theorem W3_arg1 (c : Dev nD) : Gen.W3 m ρ c (Proc.devRef .tc main_arg1) = m ((c : Thread nD τ).loc main_arg1) :=
  (show Gen.W3 m ρ c (Proc.devRef .tc main_arg1) = Gen.W2 m ρ c (Proc.devRef .tc main_arg1) by keeps hostOps1).trans (W2_arg1 m ρ c)
theorem W3_arg2 (c : Dev nD) : Gen.W3 m ρ c (Proc.devRef .tc main_arg2) = m ((c : Thread nD τ).loc main_arg2) :=
  (show Gen.W3 m ρ c (Proc.devRef .tc main_arg2) = Gen.W2 m ρ c (Proc.devRef .tc main_arg2) by keeps hostOps1).trans (W2_arg2 m ρ c)
theorem W3_arg3 (c : Dev nD) : Gen.W3 m ρ c (Proc.devRef .tc main_arg3) = m ((c : Thread nD τ).loc main_arg3) :=
  (show Gen.W3 m ρ c (Proc.devRef .tc main_arg3) = Gen.W2 m ρ c (Proc.devRef .tc main_arg3) by keeps hostOps1).trans (W2_arg3 m ρ c)
theorem W3_arg7 (c : Dev nD) : Gen.W3 m ρ c (Proc.devRef .tc main_arg7) = m ((c : Thread nD τ).loc main_arg7) :=
  (show Gen.W3 m ρ c (Proc.devRef .tc main_arg7) = Gen.W2 m ρ c (Proc.devRef .tc main_arg7) by keeps hostOps1).trans (W2_arg7 m ρ c)
theorem W3_arg8 (c : Dev nD) : Gen.W3 m ρ c (Proc.devRef .tc main_arg8) = m ((c : Thread nD τ).loc main_arg8) :=
  (show Gen.W3 m ρ c (Proc.devRef .tc main_arg8) = Gen.W2 m ρ c (Proc.devRef .tc main_arg8) by keeps hostOps1).trans (W2_arg8 m ρ c)
theorem W3_arg9 (c : Dev nD) : Gen.W3 m ρ c (Proc.devRef .tc main_arg9) = m ((c : Thread nD τ).loc main_arg9) :=
  (show Gen.W3 m ρ c (Proc.devRef .tc main_arg9) = Gen.W2 m ρ c (Proc.devRef .tc main_arg9) by keeps hostOps1).trans (W2_arg9 m ρ c)
theorem W3_arg10 (c : Dev nD) : Gen.W3 m ρ c (Proc.devRef .tc main_arg10) = m ((c : Thread nD τ).loc main_arg10) :=
  (show Gen.W3 m ρ c (Proc.devRef .tc main_arg10) = Gen.W2 m ρ c (Proc.devRef .tc main_arg10) by keeps hostOps1).trans (W2_arg10 m ρ c)
theorem W3_arg11 (c : Dev nD) : Gen.W3 m ρ c (Proc.devRef .tc main_arg11) = m ((c : Thread nD τ).loc main_arg11) :=
  (show Gen.W3 m ρ c (Proc.devRef .tc main_arg11) = Gen.W2 m ρ c (Proc.devRef .tc main_arg11) by keeps hostOps1).trans (W2_arg11 m ρ c)
theorem W3_arg12 (c : Dev nD) : Gen.W3 m ρ c (Proc.devRef .tc main_arg12) = m ((c : Thread nD τ).loc main_arg12) :=
  (show Gen.W3 m ρ c (Proc.devRef .tc main_arg12) = Gen.W2 m ρ c (Proc.devRef .tc main_arg12) by keeps hostOps1).trans (W2_arg12 m ρ c)
theorem W3_v10 (c : Dev nD) : Gen.W3 m ρ c (Proc.devRef .tc main_v10) = degNorm (m ((c : Thread nD τ).loc main_arg1)) :=
  (show Gen.W3 m ρ c (Proc.devRef .tc main_v10) = Gen.W2 m ρ c (Proc.devRef .tc main_v10) by keeps hostOps1).trans (W2_v10 m ρ c)
theorem W3_v14 (c : Dev nD) : Gen.W3 m ρ c (Proc.devRef .tc main_v14) = degNorm (m ((c : Thread nD τ).loc main_arg2)) :=
  (show Gen.W3 m ρ c (Proc.devRef .tc main_v14) = Gen.W2 m ρ c (Proc.devRef .tc main_v14) by keeps hostOps1).trans (W2_v14 m ρ c)

theorem W4_arg1 (c : Dev nD) : Gen.W4 m ρ c (Proc.devRef .tc main_arg1) = m ((c : Thread nD τ).loc main_arg1) :=
  (Gen.W4_of_ne m ρ c main_arg1 (by decide)).trans (W3_arg1 m ρ c)
theorem W4_arg2 (c : Dev nD) : Gen.W4 m ρ c (Proc.devRef .tc main_arg2) = m ((c : Thread nD τ).loc main_arg2) :=
  (Gen.W4_of_ne m ρ c main_arg2 (by decide)).trans (W3_arg2 m ρ c)
theorem W4_arg7 (c : Dev nD) : Gen.W4 m ρ c (Proc.devRef .tc main_arg7) = m ((c : Thread nD τ).loc main_arg7) :=
  (Gen.W4_of_ne m ρ c main_arg7 (by decide)).trans (W3_arg7 m ρ c)
theorem W4_arg8 (c : Dev nD) : Gen.W4 m ρ c (Proc.devRef .tc main_arg8) = m ((c : Thread nD τ).loc main_arg8) :=
  (Gen.W4_of_ne m ρ c main_arg8 (by decide)).trans (W3_arg8 m ρ c)
theorem W4_arg9 (c : Dev nD) : Gen.W4 m ρ c (Proc.devRef .tc main_arg9) = m ((c : Thread nD τ).loc main_arg9) :=
  (Gen.W4_of_ne m ρ c main_arg9 (by decide)).trans (W3_arg9 m ρ c)
theorem W4_arg10 (c : Dev nD) : Gen.W4 m ρ c (Proc.devRef .tc main_arg10) = m ((c : Thread nD τ).loc main_arg10) :=
  (Gen.W4_of_ne m ρ c main_arg10 (by decide)).trans (W3_arg10 m ρ c)
theorem W4_arg11 (c : Dev nD) : Gen.W4 m ρ c (Proc.devRef .tc main_arg11) = m ((c : Thread nD τ).loc main_arg11) :=
  (Gen.W4_of_ne m ρ c main_arg11 (by decide)).trans (W3_arg11 m ρ c)
theorem W4_arg12 (c : Dev nD) : Gen.W4 m ρ c (Proc.devRef .tc main_arg12) = m ((c : Thread nD τ).loc main_arg12) :=
  (Gen.W4_of_ne m ρ c main_arg12 (by decide)).trans (W3_arg12 m ρ c)
theorem W4_v10 (c : Dev nD) : Gen.W4 m ρ c (Proc.devRef .tc main_v10) = degNorm (m ((c : Thread nD τ).loc main_arg1)) :=
  (Gen.W4_of_ne m ρ c main_v10 (by decide)).trans (W3_v10 m ρ c)
theorem W4_v14 (c : Dev nD) : Gen.W4 m ρ c (Proc.devRef .tc main_v14) = degNorm (m ((c : Thread nD τ).loc main_arg2)) :=
  (Gen.W4_of_ne m ρ c main_v14 (by decide)).trans (W3_v14 m ρ c)

theorem W5_arg1 (c : Dev nD) : Gen.W5 m ρ c (Proc.devRef .tc main_arg1) = m ((c : Thread nD τ).loc main_arg1) :=
  (show Gen.W5 m ρ c (Proc.devRef .tc main_arg1) = Gen.W4 m ρ c (Proc.devRef .tc main_arg1) by keeps hostOps2).trans (W4_arg1 m ρ c)
theorem W5_arg2 (c : Dev nD) : Gen.W5 m ρ c (Proc.devRef .tc main_arg2) = m ((c : Thread nD τ).loc main_arg2) :=
  (show Gen.W5 m ρ c (Proc.devRef .tc main_arg2) = Gen.W4 m ρ c (Proc.devRef .tc main_arg2) by keeps hostOps2).trans (W4_arg2 m ρ c)
theorem W5_arg7 (c : Dev nD) : Gen.W5 m ρ c (Proc.devRef .tc main_arg7) = m ((c : Thread nD τ).loc main_arg7) :=
  (show Gen.W5 m ρ c (Proc.devRef .tc main_arg7) = Gen.W4 m ρ c (Proc.devRef .tc main_arg7) by keeps hostOps2).trans (W4_arg7 m ρ c)
theorem W5_arg11 (c : Dev nD) : Gen.W5 m ρ c (Proc.devRef .tc main_arg11) = m ((c : Thread nD τ).loc main_arg11) :=
  (show Gen.W5 m ρ c (Proc.devRef .tc main_arg11) = Gen.W4 m ρ c (Proc.devRef .tc main_arg11) by keeps hostOps2).trans (W4_arg11 m ρ c)
theorem W5_arg12 (c : Dev nD) : Gen.W5 m ρ c (Proc.devRef .tc main_arg12) = m ((c : Thread nD τ).loc main_arg12) :=
  (show Gen.W5 m ρ c (Proc.devRef .tc main_arg12) = Gen.W4 m ρ c (Proc.devRef .tc main_arg12) by keeps hostOps2).trans (W4_arg12 m ρ c)
theorem W5_v14 (c : Dev nD) : Gen.W5 m ρ c (Proc.devRef .tc main_v14) = degNorm (m ((c : Thread nD τ).loc main_arg2)) :=
  (show Gen.W5 m ρ c (Proc.devRef .tc main_v14) = Gen.W4 m ρ c (Proc.devRef .tc main_v14) by keeps hostOps2).trans (W4_v14 m ρ c)

theorem W6_arg1 (c : Dev nD) : Gen.W6 m ρ c (Proc.devRef .tc main_arg1) = m ((c : Thread nD τ).loc main_arg1) :=
  (Gen.W6_of_ne m ρ c main_arg1 (by decide)).trans (W5_arg1 m ρ c)
theorem W6_arg2 (c : Dev nD) : Gen.W6 m ρ c (Proc.devRef .tc main_arg2) = m ((c : Thread nD τ).loc main_arg2) :=
  (Gen.W6_of_ne m ρ c main_arg2 (by decide)).trans (W5_arg2 m ρ c)
theorem W6_arg11 (c : Dev nD) : Gen.W6 m ρ c (Proc.devRef .tc main_arg11) = m ((c : Thread nD τ).loc main_arg11) :=
  (Gen.W6_of_ne m ρ c main_arg11 (by decide)).trans (W5_arg11 m ρ c)
theorem W6_arg12 (c : Dev nD) : Gen.W6 m ρ c (Proc.devRef .tc main_arg12) = m ((c : Thread nD τ).loc main_arg12) :=
  (Gen.W6_of_ne m ρ c main_arg12 (by decide)).trans (W5_arg12 m ρ c)
theorem W6_v14 (c : Dev nD) : Gen.W6 m ρ c (Proc.devRef .tc main_v14) = degNorm (m ((c : Thread nD τ).loc main_arg2)) :=
  (Gen.W6_of_ne m ρ c main_v14 (by decide)).trans (W5_v14 m ρ c)

theorem W7_arg11 (c : Dev nD) : Gen.W7 m ρ c (Proc.devRef .tc main_arg11) = m ((c : Thread nD τ).loc main_arg11) :=
  (show Gen.W7 m ρ c (Proc.devRef .tc main_arg11) = Gen.W6 m ρ c (Proc.devRef .tc main_arg11) by keeps hostOps3).trans (W6_arg11 m ρ c)

/-! ## What each region finds in its windows' arrays

Every input window's array at the region's entry, as a term of the launch memory and of the one array the region
before left for it (kept as the named boundary contents). -/

/-! ### The first region: the rows of the feature matrix, scaled by a column -/

/-- Window 0: the feature matrix, as launched. -/
theorem V1_w0 (c : Dev nD) : Gen.V1 m ρ c main_arg0 = m ((c : Thread nD τ).loc main_arg0) := W1_arg0 m ρ c

/-- Window 1: the source-degree normalisation, as a column. -/
theorem V1_w1 (c : Dev nD) :
    Gen.V1 m ρ c main_v15 = shapeCast S100000x1 (degNorm (m ((c : Thread nD τ).loc main_arg1))) shapeCasts_S100000_S100000x1 := by
  show StableHlo.after hostOps0 (Gen.W0 m ρ c) (Proc.devRef .tc main_v15) = _
  after_results_simp
  unfold degNorm
  rfl

/-! ### The second region: a dense layer with layer normalisation -/

/-- Window 0: the rows the region before left, aggregated along the edges. -/
theorem V3_w0 (c : Dev nD) :
    Gen.V3 m ρ c main_v26 = aggregate (Gen.W2 m ρ c (Proc.devRef .tc main_v16)) (m ((c : Thread nD τ).loc main_arg1)) (m ((c : Thread nD τ).loc main_arg2)) := by
  show StableHlo.after hostOps1 (Gen.W2 m ρ c) (Proc.devRef .tc main_v26) = _
  after_results_simp
  rw [W2_arg1, W2_arg2]
  unfold aggregate wrapIdx
  rfl

/-- Window 1: the destination-degree normalisation, as a column. -/
theorem V3_w1 (c : Dev nD) :
    Gen.V3 m ρ c main_v27 = shapeCast S100000x1 (degNorm (m ((c : Thread nD τ).loc main_arg2))) shapeCasts_S100000_S100000x1 := by
  show StableHlo.after hostOps1 (Gen.W2 m ρ c) (Proc.devRef .tc main_v27) = _
  after_results_simp
  rw [W2_v14]
  rfl

/-- Window 2: the weight matrix, as launched. -/
theorem V3_w2 (c : Dev nD) : Gen.V3 m ρ c main_arg3 = m ((c : Thread nD τ).loc main_arg3) := W3_arg3 m ρ c

/-- Windows 3, 4, 5: the bias and the normalisation's scale and shift, each as a row. -/
theorem V3_w3 (c : Dev nD) : Gen.V3 m ρ c main_v28 = shapeCast S1x128 (m ((c : Thread nD τ).loc main_arg4)) shapeCasts_S128_S1x128 := by
  show StableHlo.after hostOps1 (Gen.W2 m ρ c) (Proc.devRef .tc main_v28) = _
  after_results_simp
  rw [W2_arg4]
  rfl
theorem V3_w4 (c : Dev nD) : Gen.V3 m ρ c main_v29 = shapeCast S1x128 (m ((c : Thread nD τ).loc main_arg5)) shapeCasts_S128_S1x128 := by
  show StableHlo.after hostOps1 (Gen.W2 m ρ c) (Proc.devRef .tc main_v29) = _
  after_results_simp
  rw [W2_arg5]
  rfl
theorem V3_w5 (c : Dev nD) : Gen.V3 m ρ c main_v30 = shapeCast S1x128 (m ((c : Thread nD τ).loc main_arg6)) shapeCasts_S128_S1x128 := by
  show StableHlo.after hostOps1 (Gen.W2 m ρ c) (Proc.devRef .tc main_v30) = _
  after_results_simp
  rw [W2_arg6]
  rfl

/-- Window 6: the source-degree normalisation, as a column. -/
theorem V3_w6 (c : Dev nD) :
    Gen.V3 m ρ c main_v31 = shapeCast S100000x1 (degNorm (m ((c : Thread nD τ).loc main_arg1))) shapeCasts_S100000_S100000x1 := by
  show StableHlo.after hostOps1 (Gen.W2 m ρ c) (Proc.devRef .tc main_v31) = _
  after_results_simp
  rw [W2_v10]
  rfl

/-! ### The third region: a dense layer with layer normalisation -/

/-- Window 0: the rows the region before left, aggregated along the edges. -/
theorem V5_w0 (c : Dev nD) :
    Gen.V5 m ρ c main_v42 = aggregate (Gen.W4 m ρ c (Proc.devRef .tc main_v32_1)) (m ((c : Thread nD τ).loc main_arg1)) (m ((c : Thread nD τ).loc main_arg2)) := by
  show StableHlo.after hostOps2 (Gen.W4 m ρ c) (Proc.devRef .tc main_v42) = _
  after_results_simp
  rw [W4_arg1, W4_arg2]
  unfold aggregate wrapIdx
  rfl

/-- Window 1: the destination-degree normalisation, as a column. -/
theorem V5_w1 (c : Dev nD) :
    Gen.V5 m ρ c main_v43 = shapeCast S100000x1 (degNorm (m ((c : Thread nD τ).loc main_arg2))) shapeCasts_S100000_S100000x1 := by
  show StableHlo.after hostOps2 (Gen.W4 m ρ c) (Proc.devRef .tc main_v43) = _
  after_results_simp
  rw [W4_v14]
  rfl

/-- Window 2: the weight matrix, as launched. -/
theorem V5_w2 (c : Dev nD) : Gen.V5 m ρ c main_arg7 = m ((c : Thread nD τ).loc main_arg7) := W5_arg7 m ρ c

/-- Windows 3, 4, 5: the bias and the normalisation's scale and shift, each as a row. -/
theorem V5_w3 (c : Dev nD) : Gen.V5 m ρ c main_v44 = shapeCast S1x128 (m ((c : Thread nD τ).loc main_arg8)) shapeCasts_S128_S1x128 := by
  show StableHlo.after hostOps2 (Gen.W4 m ρ c) (Proc.devRef .tc main_v44) = _
  after_results_simp
  rw [W4_arg8]
  rfl
theorem V5_w4 (c : Dev nD) : Gen.V5 m ρ c main_v45 = shapeCast S1x128 (m ((c : Thread nD τ).loc main_arg9)) shapeCasts_S128_S1x128 := by
  show StableHlo.after hostOps2 (Gen.W4 m ρ c) (Proc.devRef .tc main_v45) = _
  after_results_simp
  rw [W4_arg9]
  rfl
theorem V5_w5 (c : Dev nD) : Gen.V5 m ρ c main_v46 = shapeCast S1x128 (m ((c : Thread nD τ).loc main_arg10)) shapeCasts_S128_S1x128 := by
  show StableHlo.after hostOps2 (Gen.W4 m ρ c) (Proc.devRef .tc main_v46) = _
  after_results_simp
  rw [W4_arg10]
  rfl

/-- Window 6: the source-degree normalisation, as a column. -/
theorem V5_w6 (c : Dev nD) :
    Gen.V5 m ρ c main_v47 = shapeCast S100000x1 (degNorm (m ((c : Thread nD τ).loc main_arg1))) shapeCasts_S100000_S100000x1 := by
  show StableHlo.after hostOps2 (Gen.W4 m ρ c) (Proc.devRef .tc main_v47) = _
  after_results_simp
  rw [W4_v10]
  rfl

/-! ### The last region: the output layer -/

/-- Window 0: the rows the region before left, aggregated along the edges. -/
theorem V7_w0 (c : Dev nD) :
    Gen.V7 m ρ c main_v58 = aggregate (Gen.W6 m ρ c (Proc.devRef .tc main_v48_1)) (m ((c : Thread nD τ).loc main_arg1)) (m ((c : Thread nD τ).loc main_arg2)) := by
  show StableHlo.after hostOps3 (Gen.W6 m ρ c) (Proc.devRef .tc main_v58) = _
  after_results_simp
  rw [W6_arg1, W6_arg2]
  unfold aggregate wrapIdx
  rfl

/-- Window 1: the destination-degree normalisation, as a column. -/
theorem V7_w1 (c : Dev nD) :
    Gen.V7 m ρ c main_v59 = shapeCast S100000x1 (degNorm (m ((c : Thread nD τ).loc main_arg2))) shapeCasts_S100000_S100000x1 := by
  show StableHlo.after hostOps3 (Gen.W6 m ρ c) (Proc.devRef .tc main_v59) = _
  after_results_simp
  rw [W6_v14]
  rfl

/-- Window 2: the weight matrix, as launched. -/
theorem V7_w2 (c : Dev nD) : Gen.V7 m ρ c main_arg11 = m ((c : Thread nD τ).loc main_arg11) := W7_arg11 m ρ c

/-- Window 3: the bias, as a row. -/
theorem V7_w3 (c : Dev nD) : Gen.V7 m ρ c main_v60 = shapeCast S1x64 (m ((c : Thread nD τ).loc main_arg12)) shapeCasts_S64_S1x64 := by
  show StableHlo.after hostOps3 (Gen.W6 m ρ c) (Proc.devRef .tc main_v60) = _
  after_results_simp
  rw [W6_arg12]
  rfl

end Cert.KernelIdeal.KHost

end
-- ==== Proof.KernelRows.lean ====
import Idealize.ShloMosaic.Lib.ValueIdx

namespace Cert.KernelIdeal.KBlocks

/-- Twenty blocks of 5000 rows tile the 100000 rows: row `p` of block `t` is row `5000 t + p` of the array. -/
theorem row_lt {n : Nat} (hn : n = 20) (t : Fin n) (p : Fin 5000) : 5000 * t.val + p.val < 100000 := by
  have := t.isLt; have := p.isLt; omega

end Cert.KernelIdeal.KBlocks
-- ==== Proof.KernelBlocks0.lean ====
import proofs.«121135_j57578331570298_1_alg».proof.Proof.Gen.KernelIdeal.Frame
import proofs.«121135_j57578331570298_1_alg».proof.Proof.KernelRows
import Idealize.ShloMosaic.Lib.Pipeline.Value
import Idealize.ShloMosaic.Lib.ValueIdx

set_option maxRecDepth 16384

noncomputable section

namespace Cert.KernelIdeal.KBlocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
-- the TensorCore's buffer contents when the region is entered: every lemma is stated at any such contents
variable (V : (c : Dev nD) → (b : Ref sig .tc) → Buf (Elt F) ((c : Thread nD τ).loc b))

/-- The first region's index maps over its twenty grid points: a row-blocked window sits at block `(t, 0)`,
    a window that is its whole array at block `(0, 0)`. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Input window 0's block at point `t` is rows `5000 t … 5000 t + 4999` of its array. -/
theorem iblk0_0_apply (c : Dev nD) (t : Fin cfg0.N) (p : Fin 5000) (q : Fin 128) :
    Gen.iblk0 V c 0 t (ix2 p q)
      = (V c main_arg0 : S100000x128.Idx → Elt F .f32) (ix2 ⟨5000 * t.val + p.val, row_lt N_0 t p⟩ q) := by
  obtain ⟨e0, e1, -⟩ := idx0 t
  show (V c main_arg0 : S100000x128.Idx → Elt F .f32) (((cfg0.win 0).blk t).view.emb (ix2 p q)) = _
  congr 1
  funext a; apply Fin.ext
  match a with
  | ⟨0, _⟩ => show win0_0.index t (0 : Fin 2) * 5000 + 1 * p.val = 5000 * t.val + p.val; omega
  | ⟨1, _⟩ => show win0_0.index t (1 : Fin 2) * 128 + 1 * q.val = q.val; omega

/-- Input window 1's block at point `t` is rows `5000 t … 5000 t + 4999` of its array. -/
theorem iblk0_1_apply (c : Dev nD) (t : Fin cfg0.N) (p : Fin 5000) (q : Fin 1) :
    Gen.iblk0 V c 1 t (ix2 p q)
      = (V c main_v15 : S100000x1.Idx → Elt F .f32) (ix2 ⟨5000 * t.val + p.val, row_lt N_0 t p⟩ q) := by
  obtain ⟨-, -, e0, e1, -⟩ := idx0 t
  show (V c main_v15 : S100000x1.Idx → Elt F .f32) (((cfg0.win 1).blk t).view.emb (ix2 p q)) = _
  congr 1
  funext a; apply Fin.ext
  match a with
  | ⟨0, _⟩ => show win0_1.index t (0 : Fin 2) * 5000 + 1 * p.val = 5000 * t.val + p.val; omega
  | ⟨1, _⟩ => show win0_1.index t (1 : Fin 2) * 1 + 1 * q.val = q.val; omega

/-- The array of output window 2 after the first region is ANY function `G` that every grid point's body
    result agrees with on that point's rows: point `t` writes rows `5000 t … 5000 t + 4999`, and the twenty
    points' row blocks cover the 100000 rows (row `r` lies in block `r / 5000`). -/
theorem final0_2 (c : Dev nD) (G : S100000x128.Idx → Elt F .f32)
    (hG : ∀ (t : Fin cfg0.N) (p : Fin 5000) (q : Fin 128),
      Gen.out0_2 (Gen.iblk0 V c 0 t) (Gen.iblk0 V c 1 t) (ix2 p q)
        = G (ix2 ⟨5000 * t.val + p.val, row_lt N_0 t p⟩ q)) :
    (Gen.dat0 V c).arrAt 2 cfg0.N = G := by
  refine (Gen.dat0 V c).arrAt_eq_of_cover 2 G (fun t _ => ?_) (fun i => ?_)
  · show (cfg0.win 2).cut (grid0.coords t) ((Gen.dat0 V c).after 2 t) = _
    rw [Gen.after0_2]
    obtain ⟨-, -, -, -, e0, e1⟩ := idx0 t
    funext j
    obtain ⟨p, q, rfl⟩ : ∃ (p : Fin 5000) (q : Fin 128), j = ix2 p q := ⟨j 0, j 1, eq_ix2 j⟩
    show Gen.out0_2 (Gen.iblk0 V c 0 t) (Gen.iblk0 V c 1 t) (ix2 p q) = G (((cfg0.win 2).blk t).view.emb (ix2 p q))
    rw [hG t p q]
    congr 1
    funext a; apply Fin.ext
    match a with
    | ⟨0, _⟩ => show 5000 * t.val + p.val = win0_2.index t (0 : Fin 2) * 5000 + 1 * p.val; omega
    | ⟨1, _⟩ => show q.val = win0_2.index t (1 : Fin 2) * 128 + 1 * q.val; omega
  · have hN : cfg0.N = 20 := N_0
    have hi0 : (i 0).val < 100000 := (i 0).isLt
    have hi1 : (i 1).val < 128 := (i 1).isLt
    obtain ⟨tt, htt⟩ : ∃ tt : Fin cfg0.N, tt.val = (i 0).val / 5000 :=
      ⟨⟨(i 0).val / 5000, lt_of_lt_of_eq (by omega) hN.symm⟩, rfl⟩
    obtain ⟨-, -, -, -, e0, e1⟩ := idx0 tt
    refine ⟨tt, flush0_2 tt, ?_⟩
    show i ∈ ((View.whole main_v16).slice (win0_2.rect tt)).set
    rw [View.set_slice_whole, Rect.mem_set_unit]
    intro a
    match a with
    | ⟨0, _⟩ => show win0_2.index tt (0 : Fin 2) * 5000 ≤ (i 0).val ∧ (i 0).val < win0_2.index tt (0 : Fin 2) * 5000 + 5000; omega
    | ⟨1, _⟩ => show win0_2.index tt (1 : Fin 2) * 128 ≤ (i 1).val ∧ (i 1).val < win0_2.index tt (1 : Fin 2) * 128 + 128; omega

end Cert.KernelIdeal.KBlocks

end
-- ==== Proof.KernelBlocks1.lean ====
import proofs.«121135_j57578331570298_1_alg».proof.Proof.Gen.KernelIdeal.Frame
import proofs.«121135_j57578331570298_1_alg».proof.Proof.KernelRows
import Idealize.ShloMosaic.Lib.Pipeline.Value
import Idealize.ShloMosaic.Lib.ValueIdx

set_option maxRecDepth 16384

noncomputable section

namespace Cert.KernelIdeal.KBlocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
-- the TensorCore's buffer contents when the region is entered: every lemma is stated at any such contents
variable (V : (c : Dev nD) → (b : Ref sig .tc) → Buf (Elt F) ((c : Thread nD τ).loc b))

/-- The second region's index maps over its twenty grid points: a row-blocked window sits at block `(t, 0)`,
    a window that is its whole array at block `(0, 0)`. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_8.index t (0 : Fin 2) = t.val ∧ win1_8.index t (1 : Fin 2) = 0 :=
  (by decide +kernel : ∀ t : Fin grid1.N, _)

/-- Input window 0's block at point `t` is rows `5000 t … 5000 t + 4999` of its array. -/
theorem iblk1_0_apply (c : Dev nD) (t : Fin cfg1.N) (p : Fin 5000) (q : Fin 128) :
    Gen.iblk1 V c 0 t (ix2 p q)
      = (V c main_v26 : S100000x128.Idx → Elt F .f32) (ix2 ⟨5000 * t.val + p.val, row_lt N_1 t p⟩ q) := by
  obtain ⟨e0, e1, -⟩ := idx1 t
  show (V c main_v26 : S100000x128.Idx → Elt F .f32) (((cfg1.win 0).blk t).view.emb (ix2 p q)) = _
  congr 1
  funext a; apply Fin.ext
  match a with
  | ⟨0, _⟩ => show win1_0.index t (0 : Fin 2) * 5000 + 1 * p.val = 5000 * t.val + p.val; omega
  | ⟨1, _⟩ => show win1_0.index t (1 : Fin 2) * 128 + 1 * q.val = q.val; omega

/-- Input window 1's block at point `t` is rows `5000 t … 5000 t + 4999` of its array. -/
theorem iblk1_1_apply (c : Dev nD) (t : Fin cfg1.N) (p : Fin 5000) (q : Fin 1) :
    Gen.iblk1 V c 1 t (ix2 p q)
      = (V c main_v27 : S100000x1.Idx → Elt F .f32) (ix2 ⟨5000 * t.val + p.val, row_lt N_1 t p⟩ q) := by
  obtain ⟨-, -, e0, e1, -⟩ := idx1 t
  show (V c main_v27 : S100000x1.Idx → Elt F .f32) (((cfg1.win 1).blk t).view.emb (ix2 p q)) = _
  congr 1
  funext a; apply Fin.ext
  match a with
  | ⟨0, _⟩ => show win1_1.index t (0 : Fin 2) * 5000 + 1 * p.val = 5000 * t.val + p.val; omega
  | ⟨1, _⟩ => show win1_1.index t (1 : Fin 2) * 1 + 1 * q.val = q.val; omega

/-- Input window 2's block at every point is its whole array. -/
theorem iblk1_2_eq (c : Dev nD) (t : Fin cfg1.N) :
    Gen.iblk1 V c 2 t = (V c main_arg3 : S128x128.Idx → Elt F .f32) := by
  obtain ⟨-, -, -, -, e0, e1, -⟩ := idx1 t
  funext y
  show (V c main_arg3 : S128x128.Idx → Elt F .f32) (((cfg1.win 2).blk t).view.emb y) = _
  congr 1
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem iblk1_2_apply (c : Dev nD) (t : Fin cfg1.N) (y : S128x128.Idx) :
    Gen.iblk1 V c 2 t y = (V c main_arg3 : S128x128.Idx → Elt F .f32) y :=
  congrFun (iblk1_2_eq V c t) y

/-- Input window 3's block at every point is its whole array. -/
theorem iblk1_3_eq (c : Dev nD) (t : Fin cfg1.N) :
    Gen.iblk1 V c 3 t = (V c main_v28 : S1x128.Idx → Elt F .f32) := by
  obtain ⟨-, -, -, -, -, -, e0, e1, -⟩ := idx1 t
  funext y
  show (V c main_v28 : S1x128.Idx → Elt F .f32) (((cfg1.win 3).blk t).view.emb y) = _
  congr 1
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem iblk1_3_apply (c : Dev nD) (t : Fin cfg1.N) (y : S1x128.Idx) :
    Gen.iblk1 V c 3 t y = (V c main_v28 : S1x128.Idx → Elt F .f32) y :=
  congrFun (iblk1_3_eq V c t) y

/-- Input window 4's block at every point is its whole array. -/
theorem iblk1_4_eq (c : Dev nD) (t : Fin cfg1.N) :
    Gen.iblk1 V c 4 t = (V c main_v29 : S1x128.Idx → Elt F .f32) := by
  obtain ⟨-, -, -, -, -, -, -, -, e0, e1, -⟩ := idx1 t
  funext y
  show (V c main_v29 : S1x128.Idx → Elt F .f32) (((cfg1.win 4).blk t).view.emb y) = _
  congr 1
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem iblk1_4_apply (c : Dev nD) (t : Fin cfg1.N) (y : S1x128.Idx) :
    Gen.iblk1 V c 4 t y = (V c main_v29 : S1x128.Idx → Elt F .f32) y :=
  congrFun (iblk1_4_eq V c t) y

/-- Input window 5's block at every point is its whole array. -/
theorem iblk1_5_eq (c : Dev nD) (t : Fin cfg1.N) :
    Gen.iblk1 V c 5 t = (V c main_v30 : S1x128.Idx → Elt F .f32) := by
  obtain ⟨-, -, -, -, -, -, -, -, -, -, e0, e1, -⟩ := idx1 t
  funext y
  show (V c main_v30 : S1x128.Idx → Elt F .f32) (((cfg1.win 5).blk t).view.emb y) = _
  congr 1
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

theorem iblk1_5_apply (c : Dev nD) (t : Fin cfg1.N) (y : S1x128.Idx) :
    Gen.iblk1 V c 5 t y = (V c main_v30 : S1x128.Idx → Elt F .f32) y :=
  congrFun (iblk1_5_eq V c t) y

/-- Input window 6's block at point `t` is rows `5000 t … 5000 t + 4999` of its array. -/
theorem iblk1_6_apply (c : Dev nD) (t : Fin cfg1.N) (p : Fin 5000) (q : Fin 1) :
    Gen.iblk1 V c 6 t (ix2 p q)
      = (V c main_v31 : S100000x1.Idx → Elt F .f32) (ix2 ⟨5000 * t.val + p.val, row_lt N_1 t p⟩ q) := by
  obtain ⟨-, -, -, -, -, -, -, -, -, -, -, -, e0, e1, -⟩ := idx1 t
  show (V c main_v31 : S100000x1.Idx → Elt F .f32) (((cfg1.win 6).blk t).view.emb (ix2 p q)) = _
  congr 1
  funext a; apply Fin.ext
  match a with
  | ⟨0, _⟩ => show win1_6.index t (0 : Fin 2) * 5000 + 1 * p.val = 5000 * t.val + p.val; omega
  | ⟨1, _⟩ => show win1_6.index t (1 : Fin 2) * 1 + 1 * q.val = q.val; omega

/-- The array of output window 8 after the second region is ANY function `G` that every grid point's body
    result agrees with on that point's rows: point `t` writes rows `5000 t … 5000 t + 4999`, and the twenty
    points' row blocks cover the 100000 rows (row `r` lies in block `r / 5000`). -/
theorem final1_8 (c : Dev nD) (G : S100000x128.Idx → Elt F .f32)
    (hG : ∀ (t : Fin cfg1.N) (p : Fin 5000) (q : Fin 128),
      Gen.out1_8 (Gen.iblk1 V c 0 t) (Gen.iblk1 V c 1 t) (Gen.iblk1 V c 2 t) (Gen.iblk1 V c 3 t) (Gen.iblk1 V c 4 t) (Gen.iblk1 V c 5 t) (Gen.iblk1 V c 6 t) (ix2 p q)
        = G (ix2 ⟨5000 * t.val + p.val, row_lt N_1 t p⟩ q)) :
    (Gen.dat1 V c).arrAt 8 cfg1.N = G := by
  refine (Gen.dat1 V c).arrAt_eq_of_cover 8 G (fun t _ => ?_) (fun i => ?_)
  · show (cfg1.win 8).cut (grid1.coords t) ((Gen.dat1 V c).after 8 t) = _
    rw [Gen.after1_8]
    obtain ⟨-, -, -, -, -, -, -, -, -, -, -, -, -, -, e0, e1⟩ := idx1 t
    funext j
    obtain ⟨p, q, rfl⟩ : ∃ (p : Fin 5000) (q : Fin 128), j = ix2 p q := ⟨j 0, j 1, eq_ix2 j⟩
    show Gen.out1_8 (Gen.iblk1 V c 0 t) (Gen.iblk1 V c 1 t) (Gen.iblk1 V c 2 t) (Gen.iblk1 V c 3 t) (Gen.iblk1 V c 4 t) (Gen.iblk1 V c 5 t) (Gen.iblk1 V c 6 t) (ix2 p q) = G (((cfg1.win 8).blk t).view.emb (ix2 p q))
    rw [hG t p q]
    congr 1
    funext a; apply Fin.ext
    match a with
    | ⟨0, _⟩ => show 5000 * t.val + p.val = win1_8.index t (0 : Fin 2) * 5000 + 1 * p.val; omega
    | ⟨1, _⟩ => show q.val = win1_8.index t (1 : Fin 2) * 128 + 1 * q.val; omega
  · have hN : cfg1.N = 20 := N_1
    have hi0 : (i 0).val < 100000 := (i 0).isLt
    have hi1 : (i 1).val < 128 := (i 1).isLt
    obtain ⟨tt, htt⟩ : ∃ tt : Fin cfg1.N, tt.val = (i 0).val / 5000 :=
      ⟨⟨(i 0).val / 5000, lt_of_lt_of_eq (by omega) hN.symm⟩, rfl⟩
    obtain ⟨-, -, -, -, -, -, -, -, -, -, -, -, -, -, e0, e1⟩ := idx1 tt
    refine ⟨tt, flush1_8 tt, ?_⟩
    show i ∈ ((View.whole main_v32_1).slice (win1_8.rect tt)).set
    rw [View.set_slice_whole, Rect.mem_set_unit]
    intro a
    match a with
    | ⟨0, _⟩ => show win1_8.index tt (0 : Fin 2) * 5000 ≤ (i 0).val ∧ (i 0).val < win1_8.index tt (0 : Fin 2) * 5000 + 5000; omega
    | ⟨1, _⟩ => show win1_8.index tt (1 : Fin 2) * 128 ≤ (i 1).val ∧ (i 1).val < win1_8.index tt (1 : Fin 2) * 128 + 128; omega

end Cert.KernelIdeal.KBlocks

end
-- ==== Proof.KernelBlocks2.lean ====
import proofs.«121135_j57578331570298_1_alg».proof.Proof.Gen.KernelIdeal.Frame
import proofs.«121135_j57578331570298_1_alg».proof.Proof.KernelRows
import Idealize.ShloMosaic.Lib.Pipeline.Value
import Idealize.ShloMosaic.Lib.ValueIdx

set_option maxRecDepth 16384

noncomputable section

namespace Cert.KernelIdeal.KBlocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
-- the TensorCore's buffer contents when the region is entered: every lemma is stated at any such contents
variable (V : (c : Dev nD) → (b : Ref sig .tc) → Buf (Elt F) ((c : Thread nD τ).loc b))

/-- The third region's index maps over its twenty grid points: a row-blocked window sits at block `(t, 0)`,
    a window that is its whole array at block `(0, 0)`. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_8.index t (0 : Fin 2) = t.val ∧ win2_8.index t (1 : Fin 2) = 0 :=
  (by decide +kernel : ∀ t : Fin grid2.N, _)

/-- Input window 0's block at point `t` is rows `5000 t … 5000 t + 4999` of its array. -/
theorem iblk2_0_apply (c : Dev nD) (t : Fin cfg2.N) (p : Fin 5000) (q : Fin 128) :
    Gen.iblk2 V c 0 t (ix2 p q)
      = (V c main_v42 : S100000x128.Idx → Elt F .f32) (ix2 ⟨5000 * t.val + p.val, row_lt N_2 t p⟩ q) := by
  obtain ⟨e0, e1, -⟩ := idx2 t
  show (V c main_v42 : S100000x128.Idx → Elt F .f32) (((cfg2.win 0).blk t).view.emb (ix2 p q)) = _
  congr 1
  funext a; apply Fin.ext
  match a with
  | ⟨0, _⟩ => show win2_0.index t (0 : Fin 2) * 5000 + 1 * p.val = 5000 * t.val + p.val; omega
  | ⟨1, _⟩ => show win2_0.index t (1 : Fin 2) * 128 + 1 * q.val = q.val; omega

/-- Input window 1's block at point `t` is rows `5000 t … 5000 t + 4999` of its array. -/
theorem iblk2_1_apply (c : Dev nD) (t : Fin cfg2.N) (p : Fin 5000) (q : Fin 1) :
    Gen.iblk2 V c 1 t (ix2 p q)
      = (V c main_v43 : S100000x1.Idx → Elt F .f32) (ix2 ⟨5000 * t.val + p.val, row_lt N_2 t p⟩ q) := by
  obtain ⟨-, -, e0, e1, -⟩ := idx2 t
  show (V c main_v43 : S100000x1.Idx → Elt F .f32) (((cfg2.win 1).blk t).view.emb (ix2 p q)) = _
  congr 1
  funext a; apply Fin.ext
  match a with
  | ⟨0, _⟩ => show win2_1.index t (0 : Fin 2) * 5000 + 1 * p.val = 5000 * t.val + p.val; omega
  | ⟨1, _⟩ => show win2_1.index t (1 : Fin 2) * 1 + 1 * q.val = q.val; omega

/-- Input window 2's block at every point is its whole array. -/
theorem iblk2_2_eq (c : Dev nD) (t : Fin cfg2.N) :
    Gen.iblk2 V c 2 t = (V c main_arg7 : S128x128.Idx → Elt F .f32) := by
  obtain ⟨-, -, -, -, e0, e1, -⟩ := idx2 t
  funext y
  show (V c main_arg7 : S128x128.Idx → Elt F .f32) (((cfg2.win 2).blk t).view.emb y) = _
  congr 1
  funext a; apply Fin.ext
  match a with
  | ⟨0, _⟩ => show win2_2.index t (0 : Fin 2) * 128 + 1 * (y 0).val = (y 0).val; omega
  | ⟨1, _⟩ => show win2_2.index t (1 : Fin 2) * 128 + 1 * (y 1).val = (y 1).val; omega

theorem iblk2_2_apply (c : Dev nD) (t : Fin cfg2.N) (y : S128x128.Idx) :
    Gen.iblk2 V c 2 t y = (V c main_arg7 : S128x128.Idx → Elt F .f32) y :=
  congrFun (iblk2_2_eq V c t) y

/-- Input window 3's block at every point is its whole array. -/
theorem iblk2_3_eq (c : Dev nD) (t : Fin cfg2.N) :
    Gen.iblk2 V c 3 t = (V c main_v44 : S1x128.Idx → Elt F .f32) := by
  obtain ⟨-, -, -, -, -, -, e0, e1, -⟩ := idx2 t
  funext y
  show (V c main_v44 : S1x128.Idx → Elt F .f32) (((cfg2.win 3).blk t).view.emb y) = _
  congr 1
  funext a; apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega

theorem iblk2_3_apply (c : Dev nD) (t : Fin cfg2.N) (y : S1x128.Idx) :
    Gen.iblk2 V c 3 t y = (V c main_v44 : S1x128.Idx → Elt F .f32) y :=
  congrFun (iblk2_3_eq V c t) y

/-- Input window 4's block at every point is its whole array. -/
theorem iblk2_4_eq (c : Dev nD) (t : Fin cfg2.N) :
    Gen.iblk2 V c 4 t = (V c main_v45 : S1x128.Idx → Elt F .f32) := by
  obtain ⟨-, -, -, -, -, -, -, -, e0, e1, -⟩ := idx2 t
  funext y
  show (V c main_v45 : S1x128.Idx → Elt F .f32) (((cfg2.win 4).blk t).view.emb y) = _
  congr 1
  funext a; apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

theorem iblk2_4_apply (c : Dev nD) (t : Fin cfg2.N) (y : S1x128.Idx) :
    Gen.iblk2 V c 4 t y = (V c main_v45 : S1x128.Idx → Elt F .f32) y :=
  congrFun (iblk2_4_eq V c t) y

/-- Input window 5's block at every point is its whole array. -/
theorem iblk2_5_eq (c : Dev nD) (t : Fin cfg2.N) :
    Gen.iblk2 V c 5 t = (V c main_v46 : S1x128.Idx → Elt F .f32) := by
  obtain ⟨-, -, -, -, -, -, -, -, -, -, e0, e1, -⟩ := idx2 t
  funext y
  show (V c main_v46 : S1x128.Idx → Elt F .f32) (((cfg2.win 5).blk t).view.emb y) = _
  congr 1
  funext a; apply Fin.ext
  match a with
  | ⟨0, _⟩ => show win2_5.index t (0 : Fin 2) * 1 + 1 * (y 0).val = (y 0).val; omega
  | ⟨1, _⟩ => show win2_5.index t (1 : Fin 2) * 128 + 1 * (y 1).val = (y 1).val; omega

theorem iblk2_5_apply (c : Dev nD) (t : Fin cfg2.N) (y : S1x128.Idx) :
    Gen.iblk2 V c 5 t y = (V c main_v46 : S1x128.Idx → Elt F .f32) y :=
  congrFun (iblk2_5_eq V c t) y

/-- Input window 6's block at point `t` is rows `5000 t … 5000 t + 4999` of its array. -/
theorem iblk2_6_apply (c : Dev nD) (t : Fin cfg2.N) (p : Fin 5000) (q : Fin 1) :
    Gen.iblk2 V c 6 t (ix2 p q)
      = (V c main_v47 : S100000x1.Idx → Elt F .f32) (ix2 ⟨5000 * t.val + p.val, row_lt N_2 t p⟩ q) := by
  obtain ⟨-, -, -, -, -, -, -, -, -, -, -, -, e0, e1, -⟩ := idx2 t
  show (V c main_v47 : S100000x1.Idx → Elt F .f32) (((cfg2.win 6).blk t).view.emb (ix2 p q)) = _
  congr 1
  funext a; apply Fin.ext
  match a with
  | ⟨0, _⟩ => show win2_6.index t (0 : Fin 2) * 5000 + 1 * p.val = 5000 * t.val + p.val; omega
  | ⟨1, _⟩ => show win2_6.index t (1 : Fin 2) * 1 + 1 * q.val = q.val; omega

/-- The array of output window 8 after the third region is ANY function `G` that every grid point's body
    result agrees with on that point's rows: point `t` writes rows `5000 t … 5000 t + 4999`, and the twenty
    points' row blocks cover the 100000 rows (row `r` lies in block `r / 5000`). -/
theorem final2_8 (c : Dev nD) (G : S100000x128.Idx → Elt F .f32)
    (hG : ∀ (t : Fin cfg2.N) (p : Fin 5000) (q : Fin 128),
      Gen.out2_8 (Gen.iblk2 V c 0 t) (Gen.iblk2 V c 1 t) (Gen.iblk2 V c 2 t) (Gen.iblk2 V c 3 t) (Gen.iblk2 V c 4 t) (Gen.iblk2 V c 5 t) (Gen.iblk2 V c 6 t) (ix2 p q)
        = G (ix2 ⟨5000 * t.val + p.val, row_lt N_2 t p⟩ q)) :
    (Gen.dat2 V c).arrAt 8 cfg2.N = G := by
  refine (Gen.dat2 V c).arrAt_eq_of_cover 8 G (fun t _ => ?_) (fun i => ?_)
  · show (cfg2.win 8).cut (grid2.coords t) ((Gen.dat2 V c).after 8 t) = _
    rw [Gen.after2_8]
    obtain ⟨-, -, -, -, -, -, -, -, -, -, -, -, -, -, e0, e1⟩ := idx2 t
    funext j
    obtain ⟨p, q, rfl⟩ : ∃ (p : Fin 5000) (q : Fin 128), j = ix2 p q := ⟨j 0, j 1, eq_ix2 j⟩
    show Gen.out2_8 (Gen.iblk2 V c 0 t) (Gen.iblk2 V c 1 t) (Gen.iblk2 V c 2 t) (Gen.iblk2 V c 3 t) (Gen.iblk2 V c 4 t) (Gen.iblk2 V c 5 t) (Gen.iblk2 V c 6 t) (ix2 p q) = G (((cfg2.win 8).blk t).view.emb (ix2 p q))
    rw [hG t p q]
    congr 1
    funext a; apply Fin.ext
    match a with
    | ⟨0, _⟩ => show 5000 * t.val + p.val = win2_8.index t (0 : Fin 2) * 5000 + 1 * p.val; omega
    | ⟨1, _⟩ => show q.val = win2_8.index t (1 : Fin 2) * 128 + 1 * q.val; omega
  · have hN : cfg2.N = 20 := N_2
    have hi0 : (i 0).val < 100000 := (i 0).isLt
    have hi1 : (i 1).val < 128 := (i 1).isLt
    obtain ⟨tt, htt⟩ : ∃ tt : Fin cfg2.N, tt.val = (i 0).val / 5000 :=
      ⟨⟨(i 0).val / 5000, lt_of_lt_of_eq (by omega) hN.symm⟩, rfl⟩
    obtain ⟨-, -, -, -, -, -, -, -, -, -, -, -, -, -, e0, e1⟩ := idx2 tt
    refine ⟨tt, flush2_8 tt, ?_⟩
    show i ∈ ((View.whole main_v48_1).slice (win2_8.rect tt)).set
    rw [View.set_slice_whole, Rect.mem_set_unit]
    intro a
    match a with
    | ⟨0, _⟩ => show win2_8.index tt (0 : Fin 2) * 5000 ≤ (i 0).val ∧ (i 0).val < win2_8.index tt (0 : Fin 2) * 5000 + 5000; omega
    | ⟨1, _⟩ => show win2_8.index tt (1 : Fin 2) * 128 ≤ (i 1).val ∧ (i 1).val < win2_8.index tt (1 : Fin 2) * 128 + 128; omega

end Cert.KernelIdeal.KBlocks

end
-- ==== Proof.KernelBlocks3.lean ====
import proofs.«121135_j57578331570298_1_alg».proof.Proof.Gen.KernelIdeal.Frame
import proofs.«121135_j57578331570298_1_alg».proof.Proof.KernelRows
import Idealize.ShloMosaic.Lib.Pipeline.Value
import Idealize.ShloMosaic.Lib.ValueIdx

set_option maxRecDepth 16384

noncomputable section

namespace Cert.KernelIdeal.KBlocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
-- the TensorCore's buffer contents when the region is entered: every lemma is stated at any such contents
variable (V : (c : Dev nD) → (b : Ref sig .tc) → Buf (Elt F) ((c : Thread nD τ).loc b))

/-- The last region's index maps over its twenty grid points: a row-blocked window sits at block `(t, 0)`,
    a window that is its whole array at block `(0, 0)`. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Input window 0's block at point `t` is rows `5000 t … 5000 t + 4999` of its array. -/
theorem iblk3_0_apply (c : Dev nD) (t : Fin cfg3.N) (p : Fin 5000) (q : Fin 128) :
    Gen.iblk3 V c 0 t (ix2 p q)
      = (V c main_v58 : S100000x128.Idx → Elt F .f32) (ix2 ⟨5000 * t.val + p.val, row_lt N_3 t p⟩ q) := by
  obtain ⟨e0, e1, -⟩ := idx3 t
  show (V c main_v58 : S100000x128.Idx → Elt F .f32) (((cfg3.win 0).blk t).view.emb (ix2 p q)) = _
  congr 1
  funext a; apply Fin.ext
  match a with
  | ⟨0, _⟩ => show win3_0.index t (0 : Fin 2) * 5000 + 1 * p.val = 5000 * t.val + p.val; omega
  | ⟨1, _⟩ => show win3_0.index t (1 : Fin 2) * 128 + 1 * q.val = q.val; omega

/-- Input window 1's block at point `t` is rows `5000 t … 5000 t + 4999` of its array. -/
theorem iblk3_1_apply (c : Dev nD) (t : Fin cfg3.N) (p : Fin 5000) (q : Fin 1) :
    Gen.iblk3 V c 1 t (ix2 p q)
      = (V c main_v59 : S100000x1.Idx → Elt F .f32) (ix2 ⟨5000 * t.val + p.val, row_lt N_3 t p⟩ q) := by
  obtain ⟨-, -, e0, e1, -⟩ := idx3 t
  show (V c main_v59 : S100000x1.Idx → Elt F .f32) (((cfg3.win 1).blk t).view.emb (ix2 p q)) = _
  congr 1
  funext a; apply Fin.ext
  match a with
  | ⟨0, _⟩ => show win3_1.index t (0 : Fin 2) * 5000 + 1 * p.val = 5000 * t.val + p.val; omega
  | ⟨1, _⟩ => show win3_1.index t (1 : Fin 2) * 1 + 1 * q.val = q.val; omega

/-- Input window 2's block at every point is its whole array. -/
theorem iblk3_2_eq (c : Dev nD) (t : Fin cfg3.N) :
    Gen.iblk3 V c 2 t = (V c main_arg11 : S128x64.Idx → Elt F .f32) := by
  obtain ⟨-, -, -, -, e0, e1, -⟩ := idx3 t
  funext y
  show (V c main_arg11 : S128x64.Idx → Elt F .f32) (((cfg3.win 2).blk t).view.emb y) = _
  congr 1
  funext a; apply Fin.ext
  match a with
  | ⟨0, _⟩ => show win3_2.index t (0 : Fin 2) * 128 + 1 * (y 0).val = (y 0).val; omega
  | ⟨1, _⟩ => show win3_2.index t (1 : Fin 2) * 64 + 1 * (y 1).val = (y 1).val; omega

theorem iblk3_2_apply (c : Dev nD) (t : Fin cfg3.N) (y : S128x64.Idx) :
    Gen.iblk3 V c 2 t y = (V c main_arg11 : S128x64.Idx → Elt F .f32) y :=
  congrFun (iblk3_2_eq V c t) y

/-- Input window 3's block at every point is its whole array. -/
theorem iblk3_3_eq (c : Dev nD) (t : Fin cfg3.N) :
    Gen.iblk3 V c 3 t = (V c main_v60 : S1x64.Idx → Elt F .f32) := by
  obtain ⟨-, -, -, -, -, -, e0, e1, -⟩ := idx3 t
  funext y
  show (V c main_v60 : S1x64.Idx → Elt F .f32) (((cfg3.win 3).blk t).view.emb y) = _
  congr 1
  funext a; apply Fin.ext
  match a with
  | ⟨0, _⟩ => show win3_3.index t (0 : Fin 2) * 1 + 1 * (y 0).val = (y 0).val; omega
  | ⟨1, _⟩ => show win3_3.index t (1 : Fin 2) * 64 + 1 * (y 1).val = (y 1).val; omega

theorem iblk3_3_apply (c : Dev nD) (t : Fin cfg3.N) (y : S1x64.Idx) :
    Gen.iblk3 V c 3 t y = (V c main_v60 : S1x64.Idx → Elt F .f32) y :=
  congrFun (iblk3_3_eq V c t) y

/-- The array of output window 4 after the last region is ANY function `G` that every grid point's body
    result agrees with on that point's rows: point `t` writes rows `5000 t … 5000 t + 4999`, and the twenty
    points' row blocks cover the 100000 rows (row `r` lies in block `r / 5000`). -/
theorem final3_4 (c : Dev nD) (G : S100000x64.Idx → Elt F .f32)
    (hG : ∀ (t : Fin cfg3.N) (p : Fin 5000) (q : Fin 64),
      Gen.out3_4 (Gen.iblk3 V c 0 t) (Gen.iblk3 V c 1 t) (Gen.iblk3 V c 2 t) (Gen.iblk3 V c 3 t) (ix2 p q)
        = G (ix2 ⟨5000 * t.val + p.val, row_lt N_3 t p⟩ q)) :
    (Gen.dat3 V c).arrAt 4 cfg3.N = G := by
  refine (Gen.dat3 V c).arrAt_eq_of_cover 4 G (fun t _ => ?_) (fun i => ?_)
  · show (cfg3.win 4).cut (grid3.coords t) ((Gen.dat3 V c).after 4 t) = _
    rw [Gen.after3_4]
    obtain ⟨-, -, -, -, -, -, -, -, e0, e1⟩ := idx3 t
    funext j
    obtain ⟨p, q, rfl⟩ : ∃ (p : Fin 5000) (q : Fin 64), j = ix2 p q := ⟨j 0, j 1, eq_ix2 j⟩
    show Gen.out3_4 (Gen.iblk3 V c 0 t) (Gen.iblk3 V c 1 t) (Gen.iblk3 V c 2 t) (Gen.iblk3 V c 3 t) (ix2 p q) = G (((cfg3.win 4).blk t).view.emb (ix2 p q))
    rw [hG t p q]
    congr 1
    funext a; apply Fin.ext
    match a with
    | ⟨0, _⟩ => show 5000 * t.val + p.val = win3_4.index t (0 : Fin 2) * 5000 + 1 * p.val; omega
    | ⟨1, _⟩ => show q.val = win3_4.index t (1 : Fin 2) * 64 + 1 * q.val; omega
  · have hN : cfg3.N = 20 := N_3
    have hi0 : (i 0).val < 100000 := (i 0).isLt
    have hi1 : (i 1).val < 64 := (i 1).isLt
    obtain ⟨tt, htt⟩ : ∃ tt : Fin cfg3.N, tt.val = (i 0).val / 5000 :=
      ⟨⟨(i 0).val / 5000, lt_of_lt_of_eq (by omega) hN.symm⟩, rfl⟩
    obtain ⟨-, -, -, -, -, -, -, -, e0, e1⟩ := idx3 tt
    refine ⟨tt, flush3_4 tt, ?_⟩
    show i ∈ ((View.whole main_v61).slice (win3_4.rect tt)).set
    rw [View.set_slice_whole, Rect.mem_set_unit]
    intro a
    match a with
    | ⟨0, _⟩ => show win3_4.index tt (0 : Fin 2) * 5000 ≤ (i 0).val ∧ (i 0).val < win3_4.index tt (0 : Fin 2) * 5000 + 5000; omega
    | ⟨1, _⟩ => show win3_4.index tt (1 : Fin 2) * 64 ≤ (i 1).val ∧ (i 1).val < win3_4.index tt (1 : Fin 2) * 64 + 64; omega

end Cert.KernelIdeal.KBlocks

end
-- ==== Proof.KernelBlocks.lean ====
import proofs.«121135_j57578331570298_1_alg».proof.Proof.KernelBlocks0
import proofs.«121135_j57578331570298_1_alg».proof.Proof.KernelBlocks1
import proofs.«121135_j57578331570298_1_alg».proof.Proof.KernelBlocks2
import proofs.«121135_j57578331570298_1_alg».proof.Proof.KernelBlocks3
-- ==== Proof.LibFactorSum.lean ====
/-
  Three general facts for kernels that scale rows by a per-row factor.

  On the extended reals a factor distributes over a finite sum as soon as it is a non-negative real: scaling by such
  a factor fixes the two infinities (or sends everything to zero), so it commutes with addition, the convention
  ⊤ + ⊥ = ⊥ included; no summand has to be finite.  The factor max(d, 1) ^ (-1/2) (a degree norm clamped at one) is
  such a factor whatever the extended real d is: for real d it is a positive real power, and for d = ⊤ it is 0.
  Last, a one-column array spread over b columns reads the column's entry p at every (p, c).
-/
import Idealize.ShloMosaic.PureOps.Ideal
import Idealize.ShloMosaic.Lib.ValueIdx
import Idealize.ShloMosaic.Lib.Pipeline.Value

noncomputable section

namespace Cert.FactorSum

open Idealize.ShloMosaic Idealize.ShloMosaic.ValueIdx

/-- A non-negative real factor distributes over a finite sum of extended reals. -/
theorem sum_mul_of_nonneg_real {ι : Type} (S : Finset ι) (f : ι → EReal) {d : EReal} (h0 : 0 ≤ d) (ht : d ≠ ⊤) :
    (∑ c ∈ S, f c) * d = ∑ c ∈ S, f c * d := by
  classical
  induction S using Finset.induction_on with
  | empty => simp
  | insert a S ha ih =>
    rw [Finset.sum_insert ha, Finset.sum_insert ha, ← ih, mul_comm, mul_comm (f a), mul_comm (∑ c ∈ S, f c)]
    exact EReal.left_distrib_of_nonneg_of_ne_top h0 ht _ _

/-- The f32 word of 1.0 denotes 1. -/
theorem ofBits_one : Ideal.ofBits .f32 0x3F800000#32 = 1 := by
  simp [Ideal.ofBits, Ideal.ieee, -EReal.coe_mul]; norm_num

/-- The f32 word of -0.5 denotes the real -1/2. -/
theorem ofBits_neg_half : Ideal.ofBits .f32 0xBF000000#32 = ((-(1 / 2) : ℝ) : EReal) := by
  simp [Ideal.ofBits, Ideal.ieee, -EReal.coe_mul]; norm_num

/-- max(d, 1) ^ (-1/2) is a non-negative real, whatever the extended real d. -/
theorem pow_max_one_neg_half (d : EReal) :
    0 ≤ Ideal.pow (max d (Ideal.ofBits .f32 0x3F800000#32)) (Ideal.ofBits .f32 0xBF000000#32)
      ∧ Ideal.pow (max d (Ideal.ofBits .f32 0x3F800000#32)) (Ideal.ofBits .f32 0xBF000000#32) ≠ ⊤ := by
  rw [ofBits_one, ofBits_neg_half]
  have h1 : (1 : EReal) ≤ max d 1 := le_max_right _ _
  induction h : max d 1 using EReal.rec with
  | bot => rw [h] at h1; exact absurd (le_bot_iff.mp h1) (by decide)
  | top =>
    have hneg : ¬ (0 : EReal) < ((-(1 / 2) : ℝ) : EReal) := by
      rw [not_lt]; exact_mod_cast (by norm_num : (-(1 / 2) : ℝ) ≤ 0)
    have hne : ((-(1 / 2) : ℝ) : EReal) ≠ 0 := by
      intro e; have : (-(1 / 2) : ℝ) = 0 := by exact_mod_cast e
      norm_num at this
    rw [Ideal.pow_top, if_neg hneg, if_neg hne]
    exact ⟨le_refl _, EReal.zero_ne_top⟩
  | coe x =>
    rw [h] at h1
    have hx : (1 : ℝ) ≤ x := by exact_mod_cast h1
    rw [Ideal.pow_coe_coe]
    refine ⟨?_, EReal.coe_ne_top _⟩
    have : (0 : ℝ) ≤ Real.rpow x (-(1 / 2)) := Real.rpow_nonneg (by linarith) _
    exact_mod_cast this

/-- A one-column array spread over b columns reads the column's entry p at every (p, c). -/
theorem spreadCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.FactorSum

end
-- ==== Proof.Spec.lean ====
/-
  A graph-convolution network written row by row over the extended reals.

  A node's row of aggregated features s (128 entries) is mapped by a weight matrix W, scaled by the node's
  degree norm d and shifted by a bias b.  The scaling may be applied after the product,
  (∑ c, s c * W c j) * d + b j, or to the row before it, (∑ c, (s c * d) * W c j) + b j.  On the extended reals
  a factor distributes over a sum when it is a non-negative real (the infinities of the summands are then scaled
  to themselves, and the convention ⊤ + ⊥ = ⊥ is kept), so the two agree for every row and every matrix, finite
  or not, as soon as 0 ≤ d < ⊤.  The degree norm is max(deg, 1) ^ (-1/2): a non-negative real whatever deg is.

  Between layers a row y is layer-normalised over its 128 entries (centred at its mean, divided by the root of
  its mean square deviation plus a small constant), scaled and shifted entry by entry and clamped at zero.
-/
import Idealize.ShloMosaic.PureOps.Ideal
import Idealize.ShloMosaic.PureOps.Ideal.Laws
import proofs.«121135_j57578331570298_1_alg».proof.Proof.LibFactorSum

noncomputable section

namespace Cert.GraphSpec

open Idealize.ShloMosaic

/-! ## The constants the two programs spell -/

/-- The row length 128.0 both programs divide a row's sum by. -/
abbrev c128 : EReal := Ideal.ofBits .f32 0x43000000#32
/-- The small constant added to the variance. -/
abbrev eps : EReal := Ideal.ofBits .f32 0x3727C5AC#32
/-- 1.0, the floor of a degree. -/
abbrev cOne : EReal := Ideal.ofBits .f32 0x3F800000#32
/-- -0.5, the exponent of the degree norm. -/
abbrev cMinusHalf : EReal := Ideal.ofBits .f32 0xBF000000#32

theorem cOne_eq : cOne = 1 := Cert.FactorSum.ofBits_one

theorem cMinusHalf_eq : cMinusHalf = ((-(1 / 2) : ℝ) : EReal) := Cert.FactorSum.ofBits_neg_half

theorem c128_eq : c128 = ((128 : ℝ) : EReal) := by
  simp [c128, Ideal.ofBits, Ideal.ieee, -EReal.coe_mul]; norm_num

/-! ## The degree norm -/

/-- The degree norm of a node of degree deg: max(deg, 1) ^ (-1/2). -/
def norm (deg : EReal) : EReal := Ideal.pow (max deg cOne) cMinusHalf

/-- The degree norm is a non-negative real, whatever the degree. -/
theorem norm_nonneg_ne_top (deg : EReal) : 0 ≤ norm deg ∧ norm deg ≠ ⊤ :=
  Cert.FactorSum.pow_max_one_neg_half deg

/-! ## The dense map, two ways -/

/-- The dense map with the degree norm applied to the product. -/
def denseAfter {n : ℕ} (s : Fin 128 → EReal) (d : EReal) (W : Fin 128 → Fin n → EReal) (b : Fin n → EReal)
    (j : Fin n) : EReal := (∑ c : Fin 128, s c * W c j) * d + b j

/-- The dense map with the degree norm applied to the row first. -/
def denseBefore {n : ℕ} (s : Fin 128 → EReal) (d : EReal) (W : Fin 128 → Fin n → EReal) (b : Fin n → EReal)
    (j : Fin n) : EReal := (∑ c : Fin 128, (s c * d) * W c j) + b j

/-- The two dense maps agree when the degree norm is a non-negative real: the factor moves across the sum. -/
theorem denseAfter_eq_denseBefore {n : ℕ} (s : Fin 128 → EReal) {d : EReal} (h0 : 0 ≤ d) (ht : d ≠ ⊤)
    (W : Fin 128 → Fin n → EReal) (b : Fin n → EReal) : denseAfter s d W b = denseBefore s d W b := by
  funext j
  unfold denseAfter denseBefore
  rw [Cert.FactorSum.sum_mul_of_nonneg_real _ _ h0 ht]
  exact congrArg (· + b j) (Finset.sum_congr rfl fun c _ => by rw [mul_assoc, mul_assoc, mul_comm d])

/-! ## Layer normalisation and the clamp -/

/-- The mean of a row. -/
def mean (y : Fin 128 → EReal) : EReal := Ideal.div (∑ j : Fin 128, y j) c128

/-- The mean square deviation of a row from its mean. -/
def var (y : Fin 128 → EReal) : EReal := Ideal.div (∑ j : Fin 128, (y j - mean y) * (y j - mean y)) c128

/-- A row layer-normalised, scaled by g, shifted by be and clamped at zero. -/
def normRelu (y g be : Fin 128 → EReal) (j : Fin 128) : EReal :=
  max ((y j - mean y) * Ideal.rsqrt (var y + eps) * g j + be j) 0

end Cert.GraphSpec

end
-- ==== Proof.LibDense.lean ====
/-
  The operations of a dense layer read at one entry, at the ideal values, each stated at an index written by its
  coordinates and generic in the extents:
  a plain matrix product (the kernel's product into the zero splat, whatever the operands' storage formats, and the
  host's dot product) as the sum over the contracted coordinate; a block of rows sliced out of a matrix; two or
  three matrices joined side by side along the columns; a vector laid out as a one-row matrix and that row repeated
  down the rows; a scalar repeated over a whole array; and a finite sum over `Fin r` cut into consecutive blocks.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-! ## Plain matrix products -/

section Products
variable {m k n : ℕ} (w : DotDims.WF ⟨2, ![m, k]⟩ ⟨2, ![k, n]⟩ ⟨2, ![m, n]⟩ [1] [0] [0] [1] [] [])

/-- The left operand's index of a plain product at output entry (a, b) and contracted coordinate c is (a, c). -/
theorem plain_lhsIdx (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index of a plain product at output entry (a, b) and contracted coordinate c is (c, b). -/
theorem plain_rhsIdx (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A product of an m×k by a k×n matrix accumulated into the zero splat, whatever formats the operands are stored
    in, read at entry (a, b): the sum over the contracted coordinate. -/
theorem matmul_plain_apply {φ₁ φ₂ : FTy} (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

/-- The host's dot product of an m×k by a k×n matrix read at entry (a, b): the same sum. -/
theorem hostDot_plain_apply {φ₁ φ₂ : FTy} (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

end Products

/-! ## Layout -/

section Layout
variable {α : Type}

/-- Rows o … o + c - 1 of an a×b matrix, read at (i, j): the matrix at (o + i, j). -/
theorem sliceRows_apply {a b c : ℕ} (o : ℕ) (x : (⟨2, ![a, b]⟩ : Shape).Idx → α)
    (h : (⟨2, ![a, b]⟩ : Shape).Slices ![o, 0] ⟨2, ![c, b]⟩) (i : Fin c) (j : Fin b) (ho : o + i.val < a) :
    extractStridedSlice ⟨2, ![c, b]⟩ ![o, 0] x h (ix2 i j) = x (ix2 ⟨o + i.val, ho⟩ j) :=
  extractStridedSlice_apply _ x h _ _ fun ax => match ax with
    | ⟨0, _⟩ => rfl
    | ⟨1, _⟩ => (Nat.zero_add _).symm

/-- Two matrices side by side: a column of the first. -/
theorem concatCols2_left {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin p) (hc : c.val < r) :
    concatenate ⟨2, ![n, r]⟩ 1 [⟨⟨2, ![n, p]⟩, x₁⟩, ⟨⟨2, ![n, q]⟩, x₂⟩] h (ix2 e ⟨c.val, hc⟩) = x₁ (ix2 e c) :=
  concatenate_pair_apply_left 1 x₁ x₂ h _ rfl _ fun b => match b with
    | ⟨0, _⟩ => rfl
    | ⟨1, _⟩ => rfl

/-- Two matrices side by side: a column of the second sits p columns to the right. -/
theorem concatCols2_right {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin q) (hc : p + c.val < r) :
    concatenate ⟨2, ![n, r]⟩ 1 [⟨⟨2, ![n, p]⟩, x₁⟩, ⟨⟨2, ![n, q]⟩, x₂⟩] h (ix2 e ⟨p + c.val, hc⟩) = x₂ (ix2 e c) :=
  concatenate_pair_apply_right 1 x₁ x₂ h _ rfl rfl _
    (fun b hb => match b with
      | ⟨0, _⟩ => rfl
      | ⟨1, _⟩ => absurd rfl hb)
    (Nat.add_comm _ _)

/-- A vector laid out as a one-row matrix. -/
theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) :=
  broadcastInDim_apply _ h v _ _ fun ax => match ax with
    | ⟨0, _⟩ => by
      show j.val = if b = 1 then 0 else j.val
      split
      · have := j.isLt; omega
      · rfl

/-- A one-row matrix repeated down the rows. -/
theorem bcastRows_apply {a b : ℕ} (v : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h v (ix2 p j) = v (ix2 (0 : Fin 1) j) :=
  broadcastInDim_apply _ h v _ _ fun ax => match ax with
    | ⟨0, _⟩ => rfl
    | ⟨1, _⟩ => by
      show j.val = if b = 1 then 0 else j.val
      split
      · have := j.isLt; omega
      · rfl

/-- A scalar repeated over a whole array. -/
theorem bcastScalar_apply {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

end Layout

/-! ## A finite sum cut into consecutive blocks -/

section Sums
variable {M : Type} [AddCommMonoid M]

/-- A sum over r = p + q indices is the sum over the first p plus the sum over the last q. -/
theorem sum_split2 {p q r : ℕ} (hr : p + q = r) (f : Fin r → M) :
    ∑ c : Fin r, f c
      = ∑ c : Fin p, f ⟨c.val, by have := c.isLt; omega⟩ + ∑ c : Fin q, f ⟨p + c.val, by have := c.isLt; omega⟩ := by
  subst hr
  rw [Fin.sum_univ_add]
  rfl

/-- A sum over r = p + q + s indices in three consecutive blocks. -/
theorem sum_split3 {p q s r : ℕ} (hr : p + q + s = r) (f : Fin r → M) :
    ∑ c : Fin r, f c
      = (∑ c : Fin p, f ⟨c.val, by have := c.isLt; omega⟩ + ∑ c : Fin q, f ⟨p + c.val, by have := c.isLt; omega⟩)
        + ∑ c : Fin s, f ⟨p + q + c.val, by have := c.isLt; omega⟩ := by
  subst hr
  rw [Fin.sum_univ_add, Fin.sum_univ_add]
  rfl

end Sums

end Cert.Dense

end
-- ==== Proof.LibColumns.lean ====
/-
  One-column and one-row arrays read at an entry.  A vector of length n viewed as an n×1 column — by a shape cast
  or by a broadcast along a new last axis — reads its entry r at (r, 0), so the two views are one array; viewed
  as a 1×n row by a broadcast along a new first axis it reads its entry q at (0, q).  A column spread over k
  columns reads the column's entry r at every (r, q); a row spread over n rows reads the row's entry q at every
  (r, q).
-/
import Idealize.ShloMosaic.Lib.ValueIdx
import Idealize.ShloMosaic.Lib.ValueLayout
import Idealize.ShloMosaic.Lib.Pipeline.Value

noncomputable section

namespace Cert.Columns

open Idealize.ShloMosaic Idealize.ShloMosaic.ValueIdx

variable {α : Type}

/-- A vector cast to a column reads entry r at (r, 0). -/
theorem shapeCast_col_apply {n : ℕ} (v : (⟨1, ![n]⟩ : Shape).Idx → α) (h : (⟨1, ![n]⟩ : Shape).ShapeCasts ⟨2, ![n, 1]⟩)
    (r : Fin n) (u : Fin 1) : shapeCast ⟨2, ![n, 1]⟩ v h (ix2 r u) = v (ix1 r) :=
  shapeCast_apply v h _ _ (by
    have hu : u.val = 0 := by omega
    rw [Shape.rowMajor_val_two, Shape.rowMajor_val_one]
    show r.val = r.val * 1 + u.val
    omega)

/-- A vector broadcast to a column (its axis the column's first) reads entry r at (r, 0). -/
theorem bcast_col_apply {n : ℕ} (v : (⟨1, ![n]⟩ : Shape).Idx → α)
    (h : (⟨1, ![n]⟩ : Shape).BroadcastsInDim ⟨2, ![n, 1]⟩ (![0] : Fin 1 → Fin 2)) (r : Fin n) (u : Fin 1) :
    broadcastInDim ⟨2, ![n, 1]⟩ (![0] : Fin 1 → Fin 2) h v (ix2 r u) = v (ix1 r) := by
  refine broadcastInDim_apply (![0] : Fin 1 → Fin 2) h v (ix2 r u) (ix1 r) fun a => ?_
  match a with
  | ⟨0, _⟩ =>
    show r.val = if n = 1 then 0 else r.val
    split
    · have := r.isLt; omega
    · rfl

/-- The two column views of a vector are one array. -/
theorem shapeCast_col_eq_bcast {n : ℕ} (v : (⟨1, ![n]⟩ : Shape).Idx → α) (h : (⟨1, ![n]⟩ : Shape).ShapeCasts ⟨2, ![n, 1]⟩)
    (h' : (⟨1, ![n]⟩ : Shape).BroadcastsInDim ⟨2, ![n, 1]⟩ (![0] : Fin 1 → Fin 2)) :
    shapeCast ⟨2, ![n, 1]⟩ v h = broadcastInDim ⟨2, ![n, 1]⟩ (![0] : Fin 1 → Fin 2) h' v := by
  funext j
  obtain ⟨r, u, rfl⟩ : ∃ (r : Fin n) (u : Fin 1), j = ix2 r u := ⟨j 0, j 1, eq_ix2 j⟩
  rw [shapeCast_col_apply, bcast_col_apply]

/-- A vector broadcast to a row (its axis the row's second) reads entry q at (0, q). -/
theorem bcast_row_apply {n : ℕ} (v : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ (![1] : Fin 1 → Fin 2) h v (ix2 u q) = v (ix1 q) := by
  refine broadcastInDim_apply (![1] : Fin 1 → Fin 2) h v (ix2 u q) (ix1 q) fun a => ?_
  match a with
  | ⟨0, _⟩ =>
    show q.val = if n = 1 then 0 else q.val
    split
    · have := q.isLt; omega
    · rfl

/-- A column spread over k columns reads the column's entry r at (r, q). -/
theorem spread_col_apply {n k : ℕ} (v : (⟨2, ![n, 1]⟩ : Shape).Idx → α)
    (h : (⟨2, ![n, 1]⟩ : Shape).BroadcastsInDim ⟨2, ![n, k]⟩ (![0, 1] : Fin 2 → Fin 2)) (r : Fin n) (q : Fin k) :
    broadcastInDim ⟨2, ![n, k]⟩ (![0, 1] : Fin 2 → Fin 2) h v (ix2 r q) = v (ix2 r (0 : Fin 1)) := by
  refine broadcastInDim_apply (![0, 1] : Fin 2 → Fin 2) h v (ix2 r q) (ix2 r (0 : Fin 1)) fun a => ?_
  match a with
  | ⟨0, _⟩ =>
    show r.val = if n = 1 then 0 else r.val
    split
    · have := r.isLt; omega
    · rfl
  | ⟨1, _⟩ => rfl

/-- A row spread over n rows reads the row's entry q at (r, q). -/
theorem spread_row_apply {n k : ℕ} (v : (⟨2, ![1, k]⟩ : Shape).Idx → α)
    (h : (⟨2, ![1, k]⟩ : Shape).BroadcastsInDim ⟨2, ![n, k]⟩ (![0, 1] : Fin 2 → Fin 2)) (r : Fin n) (q : Fin k) :
    broadcastInDim ⟨2, ![n, k]⟩ (![0, 1] : Fin 2 → Fin 2) h v (ix2 r q) = v (ix2 (0 : Fin 1) q) := by
  refine broadcastInDim_apply (![0, 1] : Fin 2 → Fin 2) h v (ix2 r q) (ix2 (0 : Fin 1) q) fun a => ?_
  match a with
  | ⟨0, _⟩ => rfl
  | ⟨1, _⟩ =>
    show q.val = if k = 1 then 0 else q.val
    split
    · have := q.isLt; omega
    · rfl

end Cert.Columns

end
-- ==== Proof.KernelPay.lean ====
/-
  The kernel bodies' values read at one entry, at the ideal values.

  A body works on a block of 5000 rows.  Its first stage maps row p of the block by the weight matrix, scales the
  product by the row's degree norm (a one-column block) and adds the bias row; its second stage (in the two inner
  layers) normalises each row over its 128 entries, applies the scale and shift rows and clamps at zero, and the
  scaled copy multiplies row p by its other degree norm.  Entry (p, q) of every stage depends on row p only, so each
  stage at (p, q) is the row-level function of the specification applied to row p.
-/
import proofs.«121135_j57578331570298_1_alg».proof.Proof.Gen.KernelIdeal.Skeleton
import proofs.«121135_j57578331570298_1_alg».proof.Proof.Spec
import proofs.«121135_j57578331570298_1_alg».proof.Proof.LibFactorSum
import proofs.«121135_j57578331570298_1_alg».proof.Proof.LibDense
import proofs.«121135_j57578331570298_1_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.GraphSpec Cert.FactorSum

/-! ## Layout operations of a block read at an entry -/

/-- The sum over the 128 entries of row p of a block. -/
theorem rowSum_apply (y : FVec Ideal S5000x128 .f32) (p : Fin 5000) :
    multiReduction .add [1] S5000 y 0x00000000#32 reduces_S5000x128_S5000 (.inl rfl) rfl (ix1 p)
      = ∑ k : Fin 128, y (ix2 p k) := by
  refine (Ideal.multiReduction_add_single y _ reduces_S5000x128_S5000 _ _ (ix1 p)).trans ?_
  refine Finset.sum_congr rfl fun k _ => congrArg y (funext fun ax => Fin.ext ?_)
  match ax with
  | ⟨0, _⟩ => rfl
  | ⟨1, _⟩ => rfl

/-! ## The row-scaling body -/

/-- The first body: entry (p, q) of the block times the row's factor. -/
theorem scale_apply (x0 : Vec Ideal S5000x128 .f32) (x1 : Vec Ideal S5000x1 .f32) (p : Fin 5000) (q : Fin 128) :
    k0_pay1 (F := Ideal) x0 x1 (ix2 p q) = x0 (ix2 p q) * x1 (ix2 p (0 : Fin 1)) := by
  unfold k0_pay1
  show x0 (ix2 p q) * broadcastTo S5000x128 (shapeCast S5000x1 x1 shapeCasts_S5000x1_S5000x1) broadcasts_S5000x1_S5000x128 (ix2 p q) = _
  rw [shapeCast_self, spreadCol_apply]

/-! ## The affine stage of a dense body -/

/-- The affine stage as the body's operations spell it: the product into the zero splat, the row's degree norm
    spread over the columns, the bias row spread over the rows. -/
def affine128 (v0 : Vec Ideal S5000x128 .f32) (v3 : Vec Ideal S128x128 .f32) (v6 : Vec Ideal S5000x1 .f32)
    (v10 : Vec Ideal S1x128 .f32) : FVec Ideal S5000x128 .f32 :=
  addf (mulf (matmul dot_S5000x128_S128x128_S5000x128_1_0_0_1_n_n none
        (truncf .bf16 (shapeCast S5000x128 v0 shapeCasts_S5000x128_S5000x128) bitsLt_bf16_f32)
        (truncf .bf16 v3 bitsLt_bf16_f32) (constant S5000x128 .f32 0x00000000#32))
      (broadcastTo S5000x128 (shapeCast S5000x1 v6 shapeCasts_S5000x1_S5000x1) broadcasts_S5000x1_S5000x128))
    (broadcastTo S5000x128 (shapeCast S1x128 v10 shapeCasts_S1x128_S1x128) broadcasts_S1x128_S5000x128)

/-- Entry (p, q) of the affine stage is the dense map of row p with the degree norm applied after the product. -/
theorem affine128_apply (v0 : Vec Ideal S5000x128 .f32) (v3 : Vec Ideal S128x128 .f32) (v6 : Vec Ideal S5000x1 .f32)
    (v10 : Vec Ideal S1x128 .f32) (p : Fin 5000) (q : Fin 128) :
    affine128 v0 v3 v6 v10 (ix2 p q)
      = denseAfter (fun c => v0 (ix2 p c)) (v6 (ix2 p (0 : Fin 1))) (fun c j => v3 (ix2 c j))
          (fun j => v10 (ix2 (0 : Fin 1) j)) q := by
  unfold affine128 denseAfter
  rw [addf_apply, mulf_apply]
  simp only [shapeCast_self]
  rw [spreadCol_apply, broadcastTo_1b_ab_apply]
  refine congrArg (fun s => s * v6 (ix2 p (0 : Fin 1)) + v10 (ix2 (0 : Fin 1) q)) ?_
  exact Cert.Dense.matmul_plain_apply dot_S5000x128_S128x128_S5000x128_1_0_0_1_n_n_wf _ _ p q

/-- The last layer's affine stage, into 64 columns. -/
def affine64 (v0 : Vec Ideal S5000x128 .f32) (v3 : Vec Ideal S128x64 .f32) (v6 : Vec Ideal S5000x1 .f32)
    (v10 : Vec Ideal S1x64 .f32) : FVec Ideal S5000x64 .f32 :=
  addf (mulf (matmul dot_S5000x128_S128x64_S5000x64_1_0_0_1_n_n none
        (truncf .bf16 (shapeCast S5000x128 v0 shapeCasts_S5000x128_S5000x128) bitsLt_bf16_f32)
        (truncf .bf16 v3 bitsLt_bf16_f32) (constant S5000x64 .f32 0x00000000#32))
      (broadcastTo S5000x64 (shapeCast S5000x1 v6 shapeCasts_S5000x1_S5000x1) broadcasts_S5000x1_S5000x64))
    (broadcastTo S5000x64 (shapeCast S1x64 v10 shapeCasts_S1x64_S1x64) broadcasts_S1x64_S5000x64)

theorem affine64_apply (v0 : Vec Ideal S5000x128 .f32) (v3 : Vec Ideal S128x64 .f32) (v6 : Vec Ideal S5000x1 .f32)
    (v10 : Vec Ideal S1x64 .f32) (p : Fin 5000) (q : Fin 64) :
    affine64 v0 v3 v6 v10 (ix2 p q)
      = denseAfter (fun c => v0 (ix2 p c)) (v6 (ix2 p (0 : Fin 1))) (fun c j => v3 (ix2 c j))
          (fun j => v10 (ix2 (0 : Fin 1) j)) q := by
  unfold affine64 denseAfter
  rw [addf_apply, mulf_apply]
  simp only [shapeCast_self]
  rw [spreadCol_apply, broadcastTo_1b_ab_apply]
  refine congrArg (fun s => s * v6 (ix2 p (0 : Fin 1)) + v10 (ix2 (0 : Fin 1) q)) ?_
  exact Cert.Dense.matmul_plain_apply dot_S5000x128_S128x64_S5000x64_1_0_0_1_n_n_wf _ _ p q

/-- The last body is its affine stage. -/
theorem pay_last_eq (v0 : Vec Ideal S5000x128 .f32) (v3 : Vec Ideal S128x64 .f32) (v6 : Vec Ideal S5000x1 .f32)
    (v10 : Vec Ideal S1x64 .f32) : k3_pay1 (F := Ideal) v0 v3 v6 v10 = affine64 v0 v3 v6 v10 := rfl

/-! ## The normalising tail -/

/-- The column of row means of a block: each row's sum over 128. -/
def meanCol (z : FVec Ideal S5000x128 .f32) : FVec Ideal S5000x1 .f32 :=
  divf (shapeCast S5000x1 (multiReduction .add [1] S5000 z 0x00000000#32 reduces_S5000x128_S5000 (.inl rfl) rfl)
      shapeCasts_S5000_S5000x1)
    (broadcast S5000x1 (Scalar.ofBits .f32 0x43000000#32))

theorem meanCol_apply' (z : FVec Ideal S5000x128 .f32) (p : Fin 5000) :
    meanCol z (ix2 p (0 : Fin 1)) = Ideal.div (∑ k : Fin 128, z (ix2 p k)) c128 := by
  unfold meanCol
  show Ideal.div (shapeCast S5000x1 _ shapeCasts_S5000_S5000x1 (ix2 p (0 : Fin 1))) c128 = _
  rw [Cert.Columns.shapeCast_col_apply, rowSum_apply]

theorem meanCol_apply (z : FVec Ideal S5000x128 .f32) (p : Fin 5000) :
    meanCol z (ix2 p (0 : Fin 1)) = mean (fun j => z (ix2 p j)) := meanCol_apply' z p

/-- A block with each row's mean subtracted. -/
def centred (y : FVec Ideal S5000x128 .f32) : FVec Ideal S5000x128 .f32 :=
  subf y (broadcastTo S5000x128 (meanCol y) broadcasts_S5000x1_S5000x128)

theorem centred_apply (y : FVec Ideal S5000x128 .f32) (p : Fin 5000) (q : Fin 128) :
    centred y (ix2 p q) = y (ix2 p q) - mean (fun j => y (ix2 p j)) := by
  unfold centred
  rw [subf_apply, spreadCol_apply, meanCol_apply]

/-- The column of inverse roots of the rows' variances plus the small constant. -/
def invStdCol (y : FVec Ideal S5000x128 .f32) : FVec Ideal S5000x1 .f32 :=
  rsqrt (addf (meanCol (mulf (centred y) (centred y))) (broadcast S5000x1 (Scalar.ofBits .f32 0x3727C5AC#32)))

theorem invStdCol_apply (y : FVec Ideal S5000x128 .f32) (p : Fin 5000) :
    invStdCol y (ix2 p (0 : Fin 1)) = Ideal.rsqrt (var (fun j => y (ix2 p j)) + eps) := by
  unfold invStdCol var
  show Ideal.rsqrt (meanCol (mulf (centred y) (centred y)) (ix2 p (0 : Fin 1)) + eps) = _
  rw [meanCol_apply']
  refine congrArg (fun s => Ideal.rsqrt (Ideal.div s c128 + eps)) (Finset.sum_congr rfl fun j _ => ?_)
  show centred y (ix2 p j) * centred y (ix2 p j) = _
  rw [centred_apply]

/-- The tail of an inner layer's body: normalise, scale, shift. -/
def normTail (y : FVec Ideal S5000x128 .f32) (v32 v36 : Vec Ideal S1x128 .f32) : FVec Ideal S5000x128 .f32 :=
  addf (mulf (mulf (centred y) (broadcastTo S5000x128 (invStdCol y) broadcasts_S5000x1_S5000x128))
      (broadcastTo S5000x128 (shapeCast S1x128 v32 shapeCasts_S1x128_S1x128) broadcasts_S1x128_S5000x128))
    (broadcastTo S5000x128 (shapeCast S1x128 v36 shapeCasts_S1x128_S1x128) broadcasts_S1x128_S5000x128)

/-- An inner layer's body before the clamp is the tail of its affine stage. -/
theorem pay_inner_eq (v0 : Vec Ideal S5000x128 .f32) (v3 : Vec Ideal S128x128 .f32) (v6 : Vec Ideal S5000x1 .f32)
    (v10 v32 v36 : Vec Ideal S1x128 .f32) :
    k1_pay3 (F := Ideal) v0 v3 v6 v10 v32 v36 = normTail (affine128 v0 v3 v6 v10) v32 v36 := rfl

/-- The third region's body has the second's text. -/
theorem pay_inner_eq' (v0 : Vec Ideal S5000x128 .f32) (v3 : Vec Ideal S128x128 .f32) (v6 : Vec Ideal S5000x1 .f32)
    (v10 v32 v36 : Vec Ideal S1x128 .f32) :
    k2_pay3 (F := Ideal) v0 v3 v6 v10 v32 v36 = normTail (affine128 v0 v3 v6 v10) v32 v36 := rfl

/-- Entry (p, q) of the clamped, rescaled output of an inner layer: the normalised row p clamped at zero, times the
    row's outgoing degree norm. -/
theorem scaledOut_apply (y : FVec Ideal S5000x128 .f32) (v32 v36 : Vec Ideal S1x128 .f32) (v43 : Vec Ideal S5000x1 .f32)
    (p : Fin 5000) (q : Fin 128) :
    k1_pay2 (F := Ideal) (normTail y v32 v36) (Scalar.ofBits .f32 0x00000000#32) v43 (ix2 p q)
      = normRelu (fun j => y (ix2 p j)) (fun j => v32 (ix2 (0 : Fin 1) j)) (fun j => v36 (ix2 (0 : Fin 1) j)) q
          * v43 (ix2 p (0 : Fin 1)) := by
  unfold k1_pay2 k1_pay1 normRelu
  show max (normTail y v32 v36 (ix2 p q)) (Ideal.ofBits .f32 0x00000000#32)
      * broadcastTo S5000x128 (shapeCast S5000x1 v43 shapeCasts_S5000x1_S5000x1) broadcasts_S5000x1_S5000x128 (ix2 p q) = _
  rw [Ideal.ofBits_zero_f32, shapeCast_self, spreadCol_apply]
  unfold normTail
  rw [addf_apply, mulf_apply, mulf_apply, centred_apply, spreadCol_apply, invStdCol_apply]
  simp only [shapeCast_self]
  rw [broadcastTo_1b_ab_apply, broadcastTo_1b_ab_apply]

theorem scaledOut_apply' (y : FVec Ideal S5000x128 .f32) (v32 v36 : Vec Ideal S1x128 .f32) (v43 : Vec Ideal S5000x1 .f32)
    (p : Fin 5000) (q : Fin 128) :
    k2_pay2 (F := Ideal) (normTail y v32 v36) (Scalar.ofBits .f32 0x00000000#32) v43 (ix2 p q)
      = normRelu (fun j => y (ix2 p j)) (fun j => v32 (ix2 (0 : Fin 1) j)) (fun j => v36 (ix2 (0 : Fin 1) j)) q
          * v43 (ix2 p (0 : Fin 1)) :=
  scaledOut_apply y v32 v36 v43 p q

end Cert.KernelIdeal.Pay

end
-- ==== Proof.KernelOut.lean ====
/-
  What each body leaves in its output block, read at one entry.

  Every body stores its result once, through the whole block, and loads each input block whole; so the block left
  behind is the body's value of the input blocks.  Entry (p, q) is then: for the row-scaling body, the input entry
  times the row's factor; for an inner layer's rescaled output, the dense map of row p (degree norm applied after
  the product), layer-normalised, clamped at zero, times the row's outgoing factor; for the last layer, the dense
  map of row p into 64 columns.
-/
import proofs.«121135_j57578331570298_1_alg».proof.Proof.Gen.KernelIdeal.Frame
import proofs.«121135_j57578331570298_1_alg».proof.Proof.KernelPay

noncomputable section

namespace Cert.KernelIdeal.Pay

open Idealize.ShloMosaic Idealize.ShloMosaic.ValueIdx Cert.KernelIdeal Cert.KernelIdeal.Gen Cert.GraphSpec

/-- The origin of a rank-2 block. -/
theorem origin2 : (![0, 0] : Fin 2 → Nat) = fun _ => 0 := by
  funext a
  match a with
  | ⟨0, _⟩ => rfl
  | ⟨1, _⟩ => rfl

/-- The row-scaling body's output block at (p, q). -/
theorem out0_2_apply (x0 : Vec Ideal S5000x128 .f32) (x1 : Vec Ideal S5000x1 .f32) (p : Fin 5000) (q : Fin 128) :
    out0_2 (F := Ideal) x0 x1 (ix2 p q) = x0 (ix2 p q) * x1 (ix2 p (0 : Fin 1)) := by
  unfold out0_2
  rw [View.canon_unit_zero origin2]
  simp only [View.ld_unit_zero (S := S5000x128) origin2, View.ld_unit_zero (S := S5000x1) origin2]
  exact scale_apply x0 x1 p q

/-- An inner layer's rescaled output block at (p, q). -/
theorem out1_8_apply (x0 : Vec Ideal S5000x128 .f32) (x1 : Vec Ideal S5000x1 .f32) (x2 : Vec Ideal S128x128 .f32)
    (x3 x4 x5 : Vec Ideal S1x128 .f32) (x6 : Vec Ideal S5000x1 .f32) (p : Fin 5000) (q : Fin 128) :
    out1_8 (F := Ideal) x0 x1 x2 x3 x4 x5 x6 (ix2 p q)
      = normRelu (denseAfter (fun c => x0 (ix2 p c)) (x1 (ix2 p (0 : Fin 1))) (fun c j => x2 (ix2 c j))
            (fun j => x3 (ix2 (0 : Fin 1) j)))
          (fun j => x4 (ix2 (0 : Fin 1) j)) (fun j => x5 (ix2 (0 : Fin 1) j)) q * x6 (ix2 p (0 : Fin 1)) := by
  unfold out1_8
  rw [View.canon_unit_zero origin2]
  simp only [View.ld_unit_zero (S := S5000x128) origin2, View.ld_unit_zero (S := S5000x1) origin2,
    View.ld_unit_zero (S := S128x128) origin2, View.ld_unit_zero (S := S1x128) origin2]
  rw [pay_inner_eq, scaledOut_apply]
  refine congrArg (fun y => normRelu y _ _ q * x6 (ix2 p (0 : Fin 1))) (funext fun j => ?_)
  exact affine128_apply x0 x2 x1 x3 p j

/-- The same for the third region, whose body has the second's text. -/
theorem out2_8_apply (x0 : Vec Ideal S5000x128 .f32) (x1 : Vec Ideal S5000x1 .f32) (x2 : Vec Ideal S128x128 .f32)
    (x3 x4 x5 : Vec Ideal S1x128 .f32) (x6 : Vec Ideal S5000x1 .f32) (p : Fin 5000) (q : Fin 128) :
    out2_8 (F := Ideal) x0 x1 x2 x3 x4 x5 x6 (ix2 p q)
      = normRelu (denseAfter (fun c => x0 (ix2 p c)) (x1 (ix2 p (0 : Fin 1))) (fun c j => x2 (ix2 c j))
            (fun j => x3 (ix2 (0 : Fin 1) j)))
          (fun j => x4 (ix2 (0 : Fin 1) j)) (fun j => x5 (ix2 (0 : Fin 1) j)) q * x6 (ix2 p (0 : Fin 1)) := by
  unfold out2_8
  rw [View.canon_unit_zero origin2]
  simp only [View.ld_unit_zero (S := S5000x128) origin2, View.ld_unit_zero (S := S5000x1) origin2,
    View.ld_unit_zero (S := S128x128) origin2, View.ld_unit_zero (S := S1x128) origin2]
  rw [pay_inner_eq', scaledOut_apply']
  refine congrArg (fun y => normRelu y _ _ q * x6 (ix2 p (0 : Fin 1))) (funext fun j => ?_)
  exact affine128_apply x0 x2 x1 x3 p j

/-- The last layer's output block at (p, q). -/
theorem out3_4_apply (x0 : Vec Ideal S5000x128 .f32) (x1 : Vec Ideal S5000x1 .f32) (x2 : Vec Ideal S128x64 .f32)
    (x3 : Vec Ideal S1x64 .f32) (p : Fin 5000) (q : Fin 64) :
    out3_4 (F := Ideal) x0 x1 x2 x3 (ix2 p q)
      = denseAfter (fun c => x0 (ix2 p c)) (x1 (ix2 p (0 : Fin 1))) (fun c j => x2 (ix2 c j))
          (fun j => x3 (ix2 (0 : Fin 1) j)) q := by
  unfold out3_4
  rw [View.canon_unit_zero origin2]
  simp only [View.ld_unit_zero (S := S5000x128) origin2, View.ld_unit_zero (S := S5000x1) origin2,
    View.ld_unit_zero (S := S128x64) origin2, View.ld_unit_zero (S := S1x64) origin2]
  rw [pay_last_eq]
  exact affine64_apply x0 x2 x1 x3 p q

end Cert.KernelIdeal.Pay

end
-- ==== Proof.RefTerms.lean ====
/-
  The reference network's arrays as whole-array terms of its arguments.

  A graph convolution over 100000 nodes and 1600000 edges (src, dst).  The degree norm of a node is
  max(count, 1) ^ (-1/2), where count is the number of edges whose index entry is that node (a sum of ones
  scattered into zeros).  One layer scales the node features by the source norm row by row, gathers the rows at
  the edges' sources (a negative source index is first wrapped by adding the node count), sums the gathered rows
  into the edges' destinations, scales the sums by the destination norm, multiplies by a weight matrix and adds
  a bias row.  Between layers each row is layer-normalised over its 128 entries: the mean is the row sum over
  128; the variance is the sum of squared deviations from the mean over 128 - 0, kept where 128 - 0 > 0; the
  centred row is multiplied by the reciprocal root of the variance plus a small constant, scaled and shifted
  entry by entry, and clamped at zero.  Every term below is the composition of the program's operations in the
  order the program applies them.
-/
import proofs.«121135_j57578331570298_1_alg».proof.ReferenceIdeal
import Idealize.ShloMosaic.PureOps.Ideal

noncomputable section

namespace Cert.ReferenceIdeal.Terms

open Idealize.ShloMosaic
open Cert.ReferenceIdeal Cert.ReferenceIdeal.Facts₀

variable [Cert.ReferenceIdeal.Facts]

/-! ## The degree norm -/

/-- The number of edges whose index entry is each node: ones, one per edge, summed into zeros at the nodes the
    index array names. -/
def degCount (idx : IVec S1600000 32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 idx)
    (broadcastInDim S1600000 ![] bcast_S_S1600000 (constant (F := Ideal) S_ .f32 0x3F800000#32))

/-- The degree norm max(count, 1) ^ (-1/2) of every node. -/
def degNorm (idx : IVec S1600000 32) : FVec Ideal S100000 .f32 :=
  Host.powf
    (maximumf (degCount idx)
      (broadcastInDim S100000 ![] bcast_S_S100000 (constant (F := Ideal) S_ .f32 0x3F800000#32)))
    (broadcastInDim S100000 ![] bcast_S_S100000 (constant (F := Ideal) S_ .f32 0xBF000000#32))

/-! ## A per-node factor spread over a row -/

/-- A value per node as a one-column matrix, the column then repeated over 128 columns. -/
def col128 (v : FVec Ideal S100000 .f32) : FVec Ideal S100000x128 .f32 :=
  broadcastInDim S100000x128 ![0, 1] bcast_S100000x1_S100000x128_0_1
    (broadcastInDim S100000x1 ![0] bcast_S100000_S100000x1_0 v)

/-! ## Aggregation along the edges -/

/-- The source indices with the negative ones wrapped: src + 100000 where src < 0, src elsewhere. -/
def wrapIdx (src : IVec S1600000 32) : IVec S1600000 32 :=
  select
    (cmpi .slt src (broadcastInDim S1600000 ![] bcast_S_S1600000 (constantI S_ 32 0#32)))
    (addi src (broadcastInDim S1600000 ![] bcast_S_S1600000 (constantI S_ 32 100000#32)))
    src

/-- The rows of X at the edges' (wrapped) sources, summed into zeros at the edges' destinations. -/
def aggregate (X : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 X
      (broadcastInDim S1600000x1 ![0] bcast_S1600000_S1600000x1_0 (wrapIdx src)))

/-! ## The dense maps -/

/-- The aggregated rows scaled by the destination norm, times a 128 × 128 weight matrix, plus a bias row. -/
def dense128 (S : FVec Ideal S100000x128 .f32) (nd : FVec Ideal S100000 .f32) (W : FVec Ideal S128x128 .f32)
    (b : FVec Ideal S128 .f32) : FVec Ideal S100000x128 .f32 :=
  addf
    (Host.dotGeneral dot_S100000x128_S128x128_S100000x128_1_0_0_1_n_n none
      (mulf S
        (broadcastInDim S100000x128 ![0, 1] bcast_S100000x1_S100000x128_0_1
          (broadcastInDim S100000x1 ![0] bcast_S100000_S100000x1_0 nd)))
      W)
    (broadcastInDim S100000x128 ![0, 1] bcast_S1x128_S100000x128_0_1
      (broadcastInDim S1x128 ![1] bcast_S128_S1x128_1 b))

/-- The same with a 128 × 64 weight matrix and a bias row of 64. -/
def dense64 (S : FVec Ideal S100000x128 .f32) (nd : FVec Ideal S100000 .f32) (W : FVec Ideal S128x64 .f32)
    (b : FVec Ideal S64 .f32) : FVec Ideal S100000x64 .f32 :=
  addf
    (Host.dotGeneral dot_S100000x128_S128x64_S100000x64_1_0_0_1_n_n none
      (mulf S
        (broadcastInDim S100000x128 ![0, 1] bcast_S100000x1_S100000x128_0_1
          (broadcastInDim S100000x1 ![0] bcast_S100000_S100000x1_0 nd)))
      W)
    (broadcastInDim S100000x64 ![0, 1] bcast_S1x64_S100000x64_0_1
      (broadcastInDim S1x64 ![1] bcast_S64_S1x64_1 b))

/-! ## Layer normalisation and the clamp -/

/-- The mean of every row, as a one-column matrix: the row sum over 128. -/
def rowMean (y : FVec Ideal S100000x128 .f32) : FVec Ideal S100000x1 .f32 :=
  Host.divf (F := Ideal)
    (broadcastInDim S100000x1 ![0] bcast_S100000_S100000x1_0
      (Host.reduceAdd (F := Ideal) y (constant (F := Ideal) S_ .f32 0x00000000#32) reducesTo_S100000x128_S100000_d1 h_S_))
    (broadcastInDim S100000x1 ![] bcast_S_S100000x1 (constant (F := Ideal) S_ .f32 0x43000000#32))

/-- The divisor of the variance: 128 less the integer k read as a float. -/
def varDivisor (k : IVec S_ 32) : FVec Ideal S_ .f32 :=
  subf (constant (F := Ideal) S_ .f32 0x43000000#32) (sitofp (F := Ideal) .f32 k)

/-- The variance of every row, as a one-column matrix: the sum of the squared deviations from the row mean over
    the divisor 128 - k, kept where the divisor is positive (the not-a-number constant elsewhere). -/
def rowVar (y : FVec Ideal S100000x128 .f32) (k : IVec S_ 32) : FVec Ideal S100000x1 .f32 :=
  select
    (broadcastInDim S100000x1 ![] bcast_S_S100000x1
      (cmpf (F := Ideal) .ogt (varDivisor k) (constant (F := Ideal) S_ .f32 0x00000000#32)))
    (Host.divf (F := Ideal)
      (broadcastInDim S100000x1 ![0] bcast_S100000_S100000x1_0
        (Host.reduceAdd (F := Ideal)
          (mulf
            (subf y (broadcastInDim S100000x128 ![0, 1] bcast_S100000x1_S100000x128_0_1 (rowMean y)))
            (subf y (broadcastInDim S100000x128 ![0, 1] bcast_S100000x1_S100000x128_0_1 (rowMean y))))
          (constant (F := Ideal) S_ .f32 0x00000000#32) reducesTo_S100000x128_S100000_d1 h_S_))
      (broadcastInDim S100000x1 ![] bcast_S_S100000x1 (varDivisor k)))
    (broadcastInDim S100000x1 ![] bcast_S_S100000x1 (id (constant (F := Ideal) S_ .f32 0x7FC00000#32)))

/-- Every row layer-normalised, scaled by g, shifted by be and clamped at zero. -/
def lnRelu (y : FVec Ideal S100000x128 .f32) (g be : FVec Ideal S128 .f32) : FVec Ideal S100000x128 .f32 :=
  maximumf
    (addf
      (mulf
        (mulf
          (subf y (broadcastInDim S100000x128 ![0, 1] bcast_S100000x1_S100000x128_0_1 (rowMean y)))
          (broadcastInDim S100000x128 ![0, 1] bcast_S100000x1_S100000x128_0_1
            (Host.rsqrt (F := Ideal)
              (addf (rowVar y (constantI S_ 32 0#32))
                (broadcastInDim S100000x1 ![] bcast_S_S100000x1 (constant (F := Ideal) S_ .f32 0x3727C5AC#32))))))
        (broadcastInDim S100000x128 ![0, 1] bcast_S1x128_S100000x128_0_1
          (broadcastInDim S1x128 ![1] bcast_S128_S1x128_1 g)))
      (broadcastInDim S100000x128 ![0, 1] bcast_S1x128_S100000x128_0_1
        (broadcastInDim S1x128 ![1] bcast_S128_S1x128_1 be)))
    (broadcastInDim S100000x128 ![] bcast_S_S100000x128 (constant (F := Ideal) S_ .f32 0x00000000#32))

/-! ## The network -/

/-- The three layers: two with layer normalisation and the clamp, the last into 64 columns. -/
def out (h : FVec Ideal S100000x128 .f32) (src dst : IVec S1600000 32)
    (W1 : FVec Ideal S128x128 .f32) (b1 g1 be1 : FVec Ideal S128 .f32)
    (W2 : FVec Ideal S128x128 .f32) (b2 g2 be2 : FVec Ideal S128 .f32)
    (W3 : FVec Ideal S128x64 .f32) (b3 : FVec Ideal S64 .f32) : FVec Ideal S100000x64 .f32 :=
  dense64
    (aggregate
      (mulf
        (lnRelu
          (dense128
            (aggregate
              (mulf
                (lnRelu
                  (dense128 (aggregate (mulf h (col128 (degNorm src))) src dst) (degNorm dst) W1 b1)
                  g1 be1)
                (col128 (degNorm src)))
              src dst)
            (degNorm dst) W2 b2)
          g2 be2)
        (col128 (degNorm src)))
      src dst)
    (degNorm dst) W3 b3

end Cert.ReferenceIdeal.Terms

end
-- ==== Proof.RefRead.lean ====
/-
  The reference network's arrays read at one entry.

  Each whole-array term of the reference is read at a node r and a column j and comes out as the row-by-row
  form over the extended reals: a per-node factor spread over a row reads the factor at r; the degree norm at r
  is max(count r, 1) ^ (-1/2); a dense map at (r, j) is the sum over c of (S(r, c) * d(r)) * W(c, j) plus b(j),
  the factor applied to the row before the product; and a layer-normalised, scaled, shifted and clamped row at
  (r, j) is max(((y(r, j) - mean) * rsqrt(var + eps)) * g(j) + be(j), 0), where the mean is the row sum over 128
  and the variance the sum of the squared deviations over 128.  The variance's divisor is spelled 128 - 0 with
  the zero an integer read as a float, and its quotient is kept where that divisor is positive: 128 - 0 = 128
  and 0 < 128, so the quotient over 128 is what is read.  A row sum from the initial value 0 is the finite sum
  over the 128 columns.
-/
import proofs.«121135_j57578331570298_1_alg».proof.Proof.RefTerms
import proofs.«121135_j57578331570298_1_alg».proof.Proof.Spec
import proofs.«121135_j57578331570298_1_alg».proof.Proof.LibDense
import proofs.«121135_j57578331570298_1_alg».proof.Proof.LibColumns
import Idealize.ShloMosaic.Lib.IdealHost

set_option maxRecDepth 16384

noncomputable section

namespace Cert.ReferenceIdeal.Terms

open Idealize.ShloMosaic Idealize.ShloMosaic.ValueIdx
open Cert.ReferenceIdeal Cert.ReferenceIdeal.Facts₀

variable [Cert.ReferenceIdeal.Facts]

/-! ## Pointwise operations and scalars at an index -/

/-- The power of two arrays at an index is the power of their entries. -/
theorem powf_apply {s : Shape} {φ : FTy} (a b : FVec Ideal s φ) (i : s.Idx) :
    Host.powf a b i = Ideal.pow (a i) (b i) := rfl

/-- The reciprocal root of an array at an index is the reciprocal root of its entry. -/
theorem rsqrt_apply {s : Shape} {φ : FTy} (a : FVec Ideal s φ) (i : s.Idx) :
    Host.rsqrt a i = Ideal.rsqrt (a i) := rfl

/-- A scalar constant repeated over an array reads the constant's value everywhere. -/
theorem scalar_apply {s : Shape} (h : (⟨0, ![]⟩ : Shape).BroadcastsInDim s ![]) (w : BitVec 32) (i : s.Idx) :
    broadcastInDim s ![] h (constant (F := Ideal) S_ .f32 w) i = Ideal.ofBits .f32 w :=
  Cert.Dense.bcastScalar_apply _ h i

/-! ## A per-node factor and the degree norm -/

/-- A per-node value spread over the 128 columns reads the node's value at every column. -/
theorem col128_apply (v : FVec Ideal S100000 .f32) (r : Fin 100000) (j : Fin 128) :
    col128 v (ix2 r j) = v (ix1 r) :=
  (Cert.Columns.spread_col_apply _ _ r j).trans (Cert.Columns.bcast_col_apply v _ r 0)

/-- The degree norm of node r is max(count r, 1) ^ (-1/2). -/
theorem degNorm_apply (idx : IVec S1600000 32) (r : Fin 100000) :
    degNorm idx (ix1 r) = Cert.GraphSpec.norm (degCount idx (ix1 r)) := by
  unfold degNorm Cert.GraphSpec.norm
  rw [powf_apply, maximumf_apply, scalar_apply, scalar_apply]

/-! ## The dense maps -/

/-- A bias row of 128 repeated down the rows reads b(j) at (r, j). -/
theorem biasRow128_apply (b : FVec Ideal S128 .f32) (r : Fin 100000) (j : Fin 128) :
    broadcastInDim S100000x128 ![0, 1] bcast_S1x128_S100000x128_0_1
      (broadcastInDim S1x128 ![1] bcast_S128_S1x128_1 b) (ix2 r j) = b (ix1 j) :=
  (Cert.Columns.spread_row_apply _ _ r j).trans (Cert.Columns.bcast_row_apply b _ 0 j)

/-- A bias row of 64 repeated down the rows reads b(j) at (r, j). -/
theorem biasRow64_apply (b : FVec Ideal S64 .f32) (r : Fin 100000) (j : Fin 64) :
    broadcastInDim S100000x64 ![0, 1] bcast_S1x64_S100000x64_0_1
      (broadcastInDim S1x64 ![1] bcast_S64_S1x64_1 b) (ix2 r j) = b (ix1 j) :=
  (Cert.Columns.spread_row_apply _ _ r j).trans (Cert.Columns.bcast_row_apply b _ 0 j)

/-- The dense map into 128 columns at (r, j): the sum over c of (S(r, c) * d(r)) * W(c, j), plus b(j). -/
theorem dense128_apply (S : FVec Ideal S100000x128 .f32) (nd : FVec Ideal S100000 .f32) (W : FVec Ideal S128x128 .f32)
    (b : FVec Ideal S128 .f32) (r : Fin 100000) (j : Fin 128) :
    dense128 S nd W b (ix2 r j)
      = Cert.GraphSpec.denseBefore (fun c => S (ix2 r c)) (nd (ix1 r)) (fun c q => W (ix2 c q)) (fun q => b (ix1 q)) j := by
  unfold dense128 Cert.GraphSpec.denseBefore
  exact congrArg₂ (· + ·)
    ((Cert.Dense.hostDot_plain_apply dot_S100000x128_S128x128_S100000x128_1_0_0_1_n_n_wf _ W r j).trans
      (Finset.sum_congr rfl fun c _ => congrArg (S (ix2 r c) * · * W (ix2 c j)) (col128_apply nd r c)))
    (biasRow128_apply b r j)

/-- The dense map into 64 columns at (r, j): the same sum over the 128 entries of the row, plus b(j). -/
theorem dense64_apply (S : FVec Ideal S100000x128 .f32) (nd : FVec Ideal S100000 .f32) (W : FVec Ideal S128x64 .f32)
    (b : FVec Ideal S64 .f32) (r : Fin 100000) (j : Fin 64) :
    dense64 S nd W b (ix2 r j)
      = Cert.GraphSpec.denseBefore (fun c => S (ix2 r c)) (nd (ix1 r)) (fun c q => W (ix2 c q)) (fun q => b (ix1 q)) j := by
  unfold dense64 Cert.GraphSpec.denseBefore
  exact congrArg₂ (· + ·)
    ((Cert.Dense.hostDot_plain_apply dot_S100000x128_S128x64_S100000x64_1_0_0_1_n_n_wf _ W r j).trans
      (Finset.sum_congr rfl fun c _ => congrArg (S (ix2 r c) * · * W (ix2 c j)) (col128_apply nd r c)))
    (biasRow64_apply b r j)

/-! ## Row sums, the mean and the variance -/

/-- The sum of row r from the initial value 0 is the finite sum of its 128 entries. -/
theorem rowSum_apply (y : FVec Ideal S100000x128 .f32) (r : Fin 100000) :
    Host.reduceAdd (F := Ideal) y (constant (F := Ideal) S_ .f32 0x00000000#32) reducesTo_S100000x128_S100000_d1 h_S_ (ix1 r)
      = ∑ q : Fin 128, y (ix2 r q) := by
  rw [hostReduceAdd_apply, Ideal.hostReduceAdd_single reducesTo_S100000x128_S100000_d1 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-- The mean column at row r is the mean of row r. -/
theorem rowMean_apply (y : FVec Ideal S100000x128 .f32) (r : Fin 100000) (u : Fin 1) :
    rowMean y (ix2 r u) = Cert.GraphSpec.mean (fun q => y (ix2 r q)) :=
  (hostDivf_apply _ _ _).trans
    (congrArg₂ Ideal.div ((Cert.Columns.bcast_col_apply _ _ r u).trans (rowSum_apply y r)) (scalar_apply _ _ _))

/-- The array less its mean column spread over the row, at (r, j): y(r, j) less the mean of row r. -/
theorem centred_apply (y : FVec Ideal S100000x128 .f32) (r : Fin 100000) (j : Fin 128) :
    subf y (broadcastInDim S100000x128 ![0, 1] bcast_S100000x1_S100000x128_0_1 (rowMean y)) (ix2 r j)
      = y (ix2 r j) - Cert.GraphSpec.mean (fun q => y (ix2 r q)) :=
  (subf_apply _ _ _).trans
    (congrArg (y (ix2 r j) - ·) ((Cert.Columns.spread_col_apply _ _ r j).trans (rowMean_apply y r 0)))

/-- The variance's divisor at the integer zero: 128 - 0 = 128. -/
theorem varDivisor_zero (i : S_.Idx) : varDivisor (constantI S_ 32 0#32) i = Cert.GraphSpec.c128 := by
  show Ideal.ofBits .f32 0x43000000#32 - (((0#32 : BitVec 32).toInt : ℝ) : EReal) = _
  simp

/-- 128 is greater than 0. -/
theorem c128_pos : Ideal.cmp .ogt Cert.GraphSpec.c128 (Ideal.ofBits .f32 0x00000000#32) = 1#1 := by
  rw [Ideal.ofBits_zero_f32, Cert.GraphSpec.c128_eq]
  have h : (0 : EReal) < ((128 : ℝ) : EReal) := by exact_mod_cast (by norm_num : (0 : ℝ) < 128)
  simp [Ideal.cmp, h]

/-- The condition "the divisor is positive", repeated over the column, holds at every row. -/
theorem varMask_apply (i : S100000x1.Idx) :
    broadcastInDim S100000x1 ![] bcast_S_S100000x1
      (cmpf (F := Ideal) .ogt (varDivisor (constantI S_ 32 0#32)) (constant (F := Ideal) S_ .f32 0x00000000#32)) i = 1#1 := by
  rw [Cert.Dense.bcastScalar_apply, cmpf_apply, Ideal.cmpf_def, varDivisor_zero, constant_apply]
  exact c128_pos

/-- The variance column at row r is the mean square deviation of row r. -/
theorem rowVar_apply (y : FVec Ideal S100000x128 .f32) (r : Fin 100000) (u : Fin 1) :
    rowVar y (constantI S_ 32 0#32) (ix2 r u) = Cert.GraphSpec.var (fun q => y (ix2 r q)) := by
  unfold rowVar
  rw [select_apply, varMask_apply, select_one, hostDivf_apply]
  unfold Cert.GraphSpec.var
  refine congrArg₂ Ideal.div ?_ ?_
  · refine (Cert.Columns.bcast_col_apply _ _ r u).trans ((rowSum_apply _ r).trans ?_)
    refine Finset.sum_congr rfl fun q _ => ?_
    rw [mulf_apply, centred_apply]
  · exact (Cert.Dense.bcastScalar_apply _ _ _).trans (varDivisor_zero _)

/-! ## Layer normalisation and the clamp -/

/-- The layer-normalised, scaled, shifted and clamped array at (r, j) is that of row r at j. -/
theorem lnRelu_apply (y : FVec Ideal S100000x128 .f32) (g be : FVec Ideal S128 .f32) (r : Fin 100000) (j : Fin 128) :
    lnRelu y g be (ix2 r j)
      = Cert.GraphSpec.normRelu (fun q => y (ix2 r q)) (fun q => g (ix1 q)) (fun q => be (ix1 q)) j := by
  have hr : broadcastInDim S100000x128 ![0, 1] bcast_S100000x1_S100000x128_0_1
        (Host.rsqrt (F := Ideal)
          (addf (rowVar y (constantI S_ 32 0#32))
            (broadcastInDim S100000x1 ![] bcast_S_S100000x1 (constant (F := Ideal) S_ .f32 0x3727C5AC#32)))) (ix2 r j)
      = Ideal.rsqrt (Cert.GraphSpec.var (fun q => y (ix2 r q)) + Cert.GraphSpec.eps) :=
    (Cert.Columns.spread_col_apply _ _ r j).trans ((rsqrt_apply _ _).trans
      (congrArg Ideal.rsqrt ((addf_apply _ _ _).trans (congrArg₂ (· + ·) (rowVar_apply y r 0) (scalar_apply _ _ _)))))
  unfold lnRelu Cert.GraphSpec.normRelu
  rw [maximumf_apply, scalar_apply, Ideal.ofBits_zero_f32, addf_apply, mulf_apply, mulf_apply, centred_apply, hr,
    biasRow128_apply, biasRow128_apply]

end Cert.ReferenceIdeal.Terms

end
-- ==== Proof.Layers.lean ====
/-
  Each kernel region's output array is the reference network's whole-array term of the arrays the region reads.

  A region computes its output block by block, 5000 rows at a time; entry (p, q) of block t is entry
  (5000 t + p, q) of the array, and depends on row 5000 t + p of the inputs only.  Read at that entry the body gives
  the row-level dense map with the degree norm applied after the product, the reference's term the same map with the
  norm applied before it; the two agree because the norm is a non-negative real.  Everything after the dense map
  (normalisation, scale, shift, clamp, the outgoing factor) is the same row-level function on both sides.
-/
import proofs.«121135_j57578331570298_1_alg».proof.Proof.KernelBlocks
import proofs.«121135_j57578331570298_1_alg».proof.Proof.KernelOut
import proofs.«121135_j57578331570298_1_alg».proof.Proof.RefRead
import proofs.«121135_j57578331570298_1_alg».proof.Proof.Spec
import proofs.«121135_j57578331570298_1_alg».proof.Proof.Gen.ReferenceIdeal

set_option maxRecDepth 16384

noncomputable section

namespace Cert.Bridge

open Idealize.ShloMosaic Idealize.ShloMosaic.ValueIdx Idealize.ShloMosaic.TcCoe Idealize.SL.Sem
open Cert.KernelIdeal Cert.GraphSpec
open Cert.ReferenceIdeal.Terms

/-- A value per node. -/
abbrev RVec := FVec Ideal Cert.ReferenceIdeal.S100000 FTy.f32
/-- A row of 128 features per node. -/
abbrev RMat := FVec Ideal Cert.ReferenceIdeal.S100000x128 FTy.f32

-- the TensorCore's buffer contents when a region is entered
variable (V : (c : Dev nD) → (b : Ref sig .tc) → Buf (Elt Ideal) ((c : Thread nD τ).loc b))

/-- The first region: the node features, each row scaled by its outgoing degree norm. -/
theorem scaledRows (c : Dev nD) (ns : RVec)
    (hns : ∀ r : Fin 100000, (V c main_v15 : S100000x1.Idx → EReal) (ix2 r (0 : Fin 1)) = ns (ix1 r)) :
    (Gen.dat0 V c).arrAt 2 cfg0.N = mulf (V c main_arg0 : RMat) (col128 ns) := by
  refine KBlocks.final0_2 V c _ fun t p q => ?_
  refine (Pay.out0_2_apply (Gen.iblk0 V c 0 t) (Gen.iblk0 V c 1 t) p q).trans ?_
  rw [KBlocks.iblk0_0_apply, KBlocks.iblk0_1_apply, hns, mulf_apply, col128_apply]

/-- An inner layer as the second region computes it: the aggregated rows through the dense map (degree norm d applied
    after the product), normalised, clamped, rescaled by the outgoing norm — the reference's term of the same arrays,
    as the incoming norm is a non-negative real at every node. -/
theorem innerLayer1 (c : Dev nD) (nd ns : RVec) (b g be : FVec Ideal Cert.ReferenceIdeal.S128 FTy.f32)
    (hnd : ∀ r : Fin 100000, (V c main_v27 : S100000x1.Idx → EReal) (ix2 r (0 : Fin 1)) = nd (ix1 r))
    (hns : ∀ r : Fin 100000, (V c main_v31 : S100000x1.Idx → EReal) (ix2 r (0 : Fin 1)) = ns (ix1 r))
    (hb : ∀ j : Fin 128, (V c main_v28 : S1x128.Idx → EReal) (ix2 (0 : Fin 1) j) = b (ix1 j))
    (hg : ∀ j : Fin 128, (V c main_v29 : S1x128.Idx → EReal) (ix2 (0 : Fin 1) j) = g (ix1 j))
    (hbe : ∀ j : Fin 128, (V c main_v30 : S1x128.Idx → EReal) (ix2 (0 : Fin 1) j) = be (ix1 j))
    (hreal : ∀ r : Fin 100000, 0 ≤ nd (ix1 r) ∧ nd (ix1 r) ≠ ⊤) :
    (Gen.dat1 V c).arrAt 8 cfg1.N
      = mulf (lnRelu (dense128 (V c main_v26 : RMat) nd
          (V c main_arg3 : FVec Ideal Cert.ReferenceIdeal.S128x128 FTy.f32) b) g be) (col128 ns) := by
  refine KBlocks.final1_8 V c _ fun t p q => ?_
  refine (Pay.out1_8_apply (Gen.iblk1 V c 0 t) (Gen.iblk1 V c 1 t) (Gen.iblk1 V c 2 t) (Gen.iblk1 V c 3 t)
    (Gen.iblk1 V c 4 t) (Gen.iblk1 V c 5 t) (Gen.iblk1 V c 6 t) p q).trans ?_
  rw [mulf_apply, lnRelu_apply, col128_apply]
  simp only [dense128_apply]
  rw [← denseAfter_eq_denseBefore _ (hreal _).1 (hreal _).2]
  simp only [KBlocks.iblk1_0_apply, KBlocks.iblk1_1_apply, KBlocks.iblk1_2_apply, KBlocks.iblk1_3_apply,
    KBlocks.iblk1_4_apply, KBlocks.iblk1_5_apply, KBlocks.iblk1_6_apply, hnd, hns, hb, hg, hbe]

/-- The same for the third region. -/
theorem innerLayer2 (c : Dev nD) (nd ns : RVec) (b g be : FVec Ideal Cert.ReferenceIdeal.S128 FTy.f32)
    (hnd : ∀ r : Fin 100000, (V c main_v43 : S100000x1.Idx → EReal) (ix2 r (0 : Fin 1)) = nd (ix1 r))
    (hns : ∀ r : Fin 100000, (V c main_v47 : S100000x1.Idx → EReal) (ix2 r (0 : Fin 1)) = ns (ix1 r))
    (hb : ∀ j : Fin 128, (V c main_v44 : S1x128.Idx → EReal) (ix2 (0 : Fin 1) j) = b (ix1 j))
    (hg : ∀ j : Fin 128, (V c main_v45 : S1x128.Idx → EReal) (ix2 (0 : Fin 1) j) = g (ix1 j))
    (hbe : ∀ j : Fin 128, (V c main_v46 : S1x128.Idx → EReal) (ix2 (0 : Fin 1) j) = be (ix1 j))
    (hreal : ∀ r : Fin 100000, 0 ≤ nd (ix1 r) ∧ nd (ix1 r) ≠ ⊤) :
    (Gen.dat2 V c).arrAt 8 cfg2.N
      = mulf (lnRelu (dense128 (V c main_v42 : RMat) nd
          (V c main_arg7 : FVec Ideal Cert.ReferenceIdeal.S128x128 FTy.f32) b) g be) (col128 ns) := by
  refine KBlocks.final2_8 V c _ fun t p q => ?_
  refine (Pay.out2_8_apply (Gen.iblk2 V c 0 t) (Gen.iblk2 V c 1 t) (Gen.iblk2 V c 2 t) (Gen.iblk2 V c 3 t)
    (Gen.iblk2 V c 4 t) (Gen.iblk2 V c 5 t) (Gen.iblk2 V c 6 t) p q).trans ?_
  rw [mulf_apply, lnRelu_apply, col128_apply]
  simp only [dense128_apply]
  rw [← denseAfter_eq_denseBefore _ (hreal _).1 (hreal _).2]
  simp only [KBlocks.iblk2_0_apply, KBlocks.iblk2_1_apply, KBlocks.iblk2_2_apply, KBlocks.iblk2_3_apply,
    KBlocks.iblk2_4_apply, KBlocks.iblk2_5_apply, KBlocks.iblk2_6_apply, hnd, hns, hb, hg, hbe]

/-- The last layer as the fourth region computes it: the dense map into 64 columns. -/
theorem lastLayer (c : Dev nD) (nd : RVec) (b : FVec Ideal Cert.ReferenceIdeal.S64 FTy.f32)
    (hnd : ∀ r : Fin 100000, (V c main_v59 : S100000x1.Idx → EReal) (ix2 r (0 : Fin 1)) = nd (ix1 r))
    (hb : ∀ j : Fin 64, (V c main_v60 : S1x64.Idx → EReal) (ix2 (0 : Fin 1) j) = b (ix1 j))
    (hreal : ∀ r : Fin 100000, 0 ≤ nd (ix1 r) ∧ nd (ix1 r) ≠ ⊤) :
    (Gen.dat3 V c).arrAt 4 cfg3.N
      = dense64 (V c main_v58 : RMat) nd (V c main_arg11 : FVec Ideal Cert.ReferenceIdeal.S128x64 FTy.f32) b := by
  refine KBlocks.final3_4 V c _ fun t p q => ?_
  refine (Pay.out3_4_apply (Gen.iblk3 V c 0 t) (Gen.iblk3 V c 1 t) (Gen.iblk3 V c 2 t) (Gen.iblk3 V c 3 t) p q).trans ?_
  rw [dense64_apply, ← denseAfter_eq_denseBefore _ (hreal _).1 (hreal _).2]
  simp only [KBlocks.iblk3_0_apply, KBlocks.iblk3_1_apply, KBlocks.iblk3_2_apply, KBlocks.iblk3_3_apply, hnd, hb]

end Cert.Bridge

end
-- ==== Proof.KernelValue.lean ====
/-
  The kernel program's result array is the reference network's term of the argument arrays.

  The program alternates host operations and four kernel regions.  Host operations compute the two degree norms
  from the edge lists, lay them out as one-column arrays and the bias, scale and shift vectors as one-row arrays,
  and between regions gather the previous region's rows along the edges and sum them into their destinations.
  Region by region the array a region leaves is the reference's whole-array term of what it read: the features
  scaled by the outgoing norm; then twice an inner layer of the aggregated rows; then the last dense layer.  The
  host operations between regions are the reference's own aggregation, so the terms compose into the reference's
  three-layer network of the thirteen arguments.
-/
import proofs.«121135_j57578331570298_1_alg».proof.Proof.KernelRun
import proofs.«121135_j57578331570298_1_alg».proof.Proof.KernelHost
import proofs.«121135_j57578331570298_1_alg».proof.Proof.Layers
import proofs.«121135_j57578331570298_1_alg».proof.Proof.RefTerms
import proofs.«121135_j57578331570298_1_alg».proof.Proof.Gen.ReferenceIdeal
import Idealize.ShloMosaic.Lib.ValueLayout

set_option maxRecDepth 16384

noncomputable section

namespace Cert.Bridge

open Idealize.ShloMosaic Idealize.ShloMosaic.ValueIdx Idealize.ShloMosaic.TcCoe Idealize.SL.Sem
open Cert.KernelIdeal Cert.KernelIdeal.Facts₀ Cert.GraphSpec
open Cert.ReferenceIdeal.Terms

/-- The degree norm the kernel program's host operations compute is the reference's term. -/
theorem degNorm_eq (idx : Vec Ideal S1600000 .i32) : KHost.degNorm (F := Ideal) idx = degNorm idx := rfl

/-- The aggregation along the edges between two regions is the reference's term. -/
theorem aggregate_eq (X : Vec Ideal S100000x128 .f32) (src dst : Vec Ideal S1600000 .i32) :
    KHost.aggregate (F := Ideal) X src dst = aggregate X src dst := rfl

/-- The degree norms laid out as a column read the norm of node r at (r, 0). -/
theorem normCol_apply (idx : Vec Ideal S1600000 .i32) (r : Fin 100000) :
    (shapeCast S100000x1 (KHost.degNorm (F := Ideal) idx) shapeCasts_S100000_S100000x1 : S100000x1.Idx → EReal)
        (ix2 r (0 : Fin 1)) = degNorm idx (ix1 r) :=
  (Cert.Columns.shapeCast_col_apply _ _ r 0).trans (congrFun (degNorm_eq idx) (ix1 r))

/-- The degree norm of every node is a non-negative real. -/
theorem degNorm_real (idx : Vec Ideal S1600000 .i32) (r : Fin 100000) :
    0 ≤ degNorm idx (ix1 r) ∧ degNorm idx (ix1 r) ≠ ⊤ := by
  rw [degNorm_apply]
  exact norm_nonneg_ne_top _

variable (m : (ℓ : Loc nD τ sig) → Buf (Elt Ideal) ℓ) (ρ : Dev nD → PrngReg) (c : Dev nD)

/-- After the first region: the features, each row scaled by its outgoing degree norm. -/
theorem afterScale :
    Gen.W2 m ρ c (Proc.devRef .tc main_v16)
      = mulf ((m ((c.tc : Thread nD τ).loc main_arg0)) : RMat) (col128 (degNorm (m ((c.tc : Thread nD τ).loc main_arg1)))) := by
  rw [KRun.W2_out]
  refine (scaledRows (Gen.V1 m ρ) c (degNorm (m ((c.tc : Thread nD τ).loc main_arg1))) (fun r => ?_)).trans ?_
  · rw [KHost.V1_w1]; exact normCol_apply _ r
  · rw [KHost.V1_w0]

/-- After the second region: the first inner layer, rescaled for the next aggregation. -/
theorem afterLayer1 :
    Gen.W4 m ρ c (Proc.devRef .tc main_v32_1)
      = mulf (lnRelu (dense128
            (aggregate (mulf ((m ((c.tc : Thread nD τ).loc main_arg0)) : RMat) (col128 (degNorm (m ((c.tc : Thread nD τ).loc main_arg1)))))
              (m ((c.tc : Thread nD τ).loc main_arg1)) (m ((c.tc : Thread nD τ).loc main_arg2)))
            (degNorm (m ((c.tc : Thread nD τ).loc main_arg2))) (m ((c.tc : Thread nD τ).loc main_arg3)) (m ((c.tc : Thread nD τ).loc main_arg4)))
          (m ((c.tc : Thread nD τ).loc main_arg5)) (m ((c.tc : Thread nD τ).loc main_arg6)))
        (col128 (degNorm (m ((c.tc : Thread nD τ).loc main_arg1)))) := by
  rw [KRun.W4_out]
  refine (innerLayer1 (Gen.V3 m ρ) c (degNorm (m ((c.tc : Thread nD τ).loc main_arg2))) (degNorm (m ((c.tc : Thread nD τ).loc main_arg1)))
    (m ((c.tc : Thread nD τ).loc main_arg4)) (m ((c.tc : Thread nD τ).loc main_arg5)) (m ((c.tc : Thread nD τ).loc main_arg6))
    (fun r => ?_) (fun r => ?_) (fun j => ?_) (fun j => ?_) (fun j => ?_) (degNorm_real _)).trans ?_
  · rw [KHost.V3_w1]; exact normCol_apply _ r
  · rw [KHost.V3_w6]; exact normCol_apply _ r
  · rw [KHost.V3_w3]; exact shapeCast_a_1a_apply _ _ 0 j
  · rw [KHost.V3_w4]; exact shapeCast_a_1a_apply _ _ 0 j
  · rw [KHost.V3_w5]; exact shapeCast_a_1a_apply _ _ 0 j
  · rw [KHost.V3_w0, KHost.V3_w2, afterScale, aggregate_eq]

/-- After the third region: the second inner layer, rescaled for the last aggregation. -/
theorem afterLayer2 :
    Gen.W6 m ρ c (Proc.devRef .tc main_v48_1)
      = mulf (lnRelu (dense128
            (aggregate (Gen.W4 m ρ c (Proc.devRef .tc main_v32_1)) (m ((c.tc : Thread nD τ).loc main_arg1)) (m ((c.tc : Thread nD τ).loc main_arg2)))
            (degNorm (m ((c.tc : Thread nD τ).loc main_arg2))) (m ((c.tc : Thread nD τ).loc main_arg7)) (m ((c.tc : Thread nD τ).loc main_arg8)))
          (m ((c.tc : Thread nD τ).loc main_arg9)) (m ((c.tc : Thread nD τ).loc main_arg10)))
        (col128 (degNorm (m ((c.tc : Thread nD τ).loc main_arg1)))) := by
  rw [KRun.W6_out]
  refine (innerLayer2 (Gen.V5 m ρ) c (degNorm (m ((c.tc : Thread nD τ).loc main_arg2))) (degNorm (m ((c.tc : Thread nD τ).loc main_arg1)))
    (m ((c.tc : Thread nD τ).loc main_arg8)) (m ((c.tc : Thread nD τ).loc main_arg9)) (m ((c.tc : Thread nD τ).loc main_arg10))
    (fun r => ?_) (fun r => ?_) (fun j => ?_) (fun j => ?_) (fun j => ?_) (degNorm_real _)).trans ?_
  · rw [KHost.V5_w1]; exact normCol_apply _ r
  · rw [KHost.V5_w6]; exact normCol_apply _ r
  · rw [KHost.V5_w3]; exact shapeCast_a_1a_apply _ _ 0 j
  · rw [KHost.V5_w4]; exact shapeCast_a_1a_apply _ _ 0 j
  · rw [KHost.V5_w5]; exact shapeCast_a_1a_apply _ _ 0 j
  · rw [KHost.V5_w0, KHost.V5_w2, aggregate_eq]

/-- After the fourth region: the last dense layer of the aggregated rows. -/
theorem afterLayer3 :
    Gen.W8 m ρ c (Proc.devRef .tc main_v61)
      = dense64 (aggregate (Gen.W6 m ρ c (Proc.devRef .tc main_v48_1)) (m ((c.tc : Thread nD τ).loc main_arg1)) (m ((c.tc : Thread nD τ).loc main_arg2)))
          (degNorm (m ((c.tc : Thread nD τ).loc main_arg2))) (m ((c.tc : Thread nD τ).loc main_arg11)) (m ((c.tc : Thread nD τ).loc main_arg12)) := by
  rw [KRun.W8_out]
  refine (lastLayer (Gen.V7 m ρ) c (degNorm (m ((c.tc : Thread nD τ).loc main_arg2))) (m ((c.tc : Thread nD τ).loc main_arg12))
    (fun r => ?_) (fun j => ?_) (degNorm_real _)).trans ?_
  · rw [KHost.V7_w1]; exact normCol_apply _ r
  · rw [KHost.V7_w3]; exact shapeCast_a_1a_apply _ _ 0 j
  · rw [KHost.V7_w0, KHost.V7_w2, aggregate_eq]

/-- The last region's output array, read back through the four regions and the host operations between them, is
    the three-layer network of the thirteen argument arrays. -/
theorem kernel_value :
    Gen.W8 m ρ c (Proc.devRef .tc main_v61)
      = Cert.ReferenceIdeal.Terms.out
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) := by
  rw [afterLayer3, afterLayer2, afterLayer1]
  rfl

end Cert.Bridge

end
-- ==== Proof.RefRun.lean ====
/- The reference program's @main read as a list of its host operations, with the operations of the functions it
   calls put in the place of each call, and its run: every weakly fair execution terminates, the result buffer
   holds the operations' fold over the launch contents, and the thirteen argument buffers are unchanged. -/
import proofs.«121135_j57578331570298_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations

@main is three windows of statements; four of the statements are calls of a function (the row variance, twice,
which itself calls the selection of a value or a default; the maximum with zero, twice). A call runs the
function's body on the caller's buffers, so in the list below the body's operations stand where the call
stood, each written over the buffers the call's record names. The list is cut where the computation has a
natural stage, and where a window ends. -/

/-- Operations 1 … 22: the two degree vectors (ones scattered by `main_arg1`, by `main_arg2`), clamped below by one, to the power -1/2: `main_v10`, `main_v14`. -/
abbrev ops0 : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg1 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v4 (broadcastInDim S100000 ![] bcast_S_S100000 : (⟨S_, .f32⟩ : BufTy).Contents (Elt F) → (⟨S100000, .f32⟩ : BufTy).Contents (Elt F)),
    unary main_arg2 main_v5 (broadcastInDim S1600000x1 ![0] bcast_S1600000_S1600000x1_0 : (⟨S1600000, .i32⟩ : BufTy).Contents (Elt F) → (⟨S1600000x1, .i32⟩ : BufTy).Contents (Elt F)),
    ternary main_v4 main_v5 main_v0 main_v6 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_2 (constant S_ .f32 0x3F800000#32),
    unary main_cst_2 main_v7 (broadcastInDim S100000 ![] bcast_S_S100000 : (⟨S_, .f32⟩ : BufTy).Contents (Elt F) → (⟨S100000, .f32⟩ : BufTy).Contents (Elt F)),
    binary main_v3 main_v7 main_v8 (maximumf : (⟨S100000, .f32⟩ : BufTy).Contents (Elt F) → (⟨S100000, .f32⟩ : BufTy).Contents (Elt F) → (⟨S100000, .f32⟩ : BufTy).Contents (Elt F)),
    nullary main_cst_3 (constant S_ .f32 0xBF000000#32),
    unary main_cst_3 main_v9 (broadcastInDim S100000 ![] bcast_S_S100000 : (⟨S_, .f32⟩ : BufTy).Contents (Elt F) → (⟨S100000, .f32⟩ : BufTy).Contents (Elt F)),
    binary main_v8 main_v9 main_v10 (Host.powf : (⟨S100000, .f32⟩ : BufTy).Contents (Elt F) → (⟨S100000, .f32⟩ : BufTy).Contents (Elt F) → (⟨S100000, .f32⟩ : BufTy).Contents (Elt F)),
    nullary main_cst_4 (constant S_ .f32 0x3F800000#32),
    unary main_cst_4 main_v11 (broadcastInDim S100000 ![] bcast_S_S100000 : (⟨S_, .f32⟩ : BufTy).Contents (Elt F) → (⟨S100000, .f32⟩ : BufTy).Contents (Elt F)),
    binary main_v6 main_v11 main_v12 (maximumf : (⟨S100000, .f32⟩ : BufTy).Contents (Elt F) → (⟨S100000, .f32⟩ : BufTy).Contents (Elt F) → (⟨S100000, .f32⟩ : BufTy).Contents (Elt F)),
    nullary main_cst_5 (constant S_ .f32 0xBF000000#32),
    unary main_cst_5 main_v13 (broadcastInDim S100000 ![] bcast_S_S100000 : (⟨S_, .f32⟩ : BufTy).Contents (Elt F) → (⟨S100000, .f32⟩ : BufTy).Contents (Elt F)),
    binary main_v12 main_v13 main_v14 (Host.powf : (⟨S100000, .f32⟩ : BufTy).Contents (Elt F) → (⟨S100000, .f32⟩ : BufTy).Contents (Elt F) → (⟨S100000, .f32⟩ : BufTy).Contents (Elt F)) ]

/-- Operations 23 … 45: the first convolution, `main_v34` (rows scaled by `main_v10`, gathered along `main_arg1`, summed into the rows `main_arg2` names, scaled by `main_v14`, times `main_arg3`, plus `main_arg4`). -/
abbrev ops1 : List (HloOp τ sig (Elt F)) :=
  [ unary main_v10 main_v15 (broadcastInDim S100000x1 ![0] bcast_S100000_S100000x1_0 : (⟨S100000, .f32⟩ : BufTy).Contents (Elt F) → (⟨S100000x1, .f32⟩ : BufTy).Contents (Elt F)),
    unary main_v15 main_v16 (broadcastInDim S100000x128 ![0, 1] bcast_S100000x1_S100000x128_0_1 : (⟨S100000x1, .f32⟩ : BufTy).Contents (Elt F) → (⟨S100000x128, .f32⟩ : BufTy).Contents (Elt F)),
    binary main_arg0 main_v16 main_v17 (mulf : (⟨S100000x128, .f32⟩ : BufTy).Contents (Elt F) → (⟨S100000x128, .f32⟩ : BufTy).Contents (Elt F) → (⟨S100000x128, .f32⟩ : BufTy).Contents (Elt F)),
    nullary main_c (constantI S_ 32 0#32),
    unary main_c main_v18 (broadcastInDim S1600000 ![] bcast_S_S1600000 : (⟨S_, .i32⟩ : BufTy).Contents (Elt F) → (⟨S1600000, .i32⟩ : BufTy).Contents (Elt F)),
    binary main_arg1 main_v18 main_v19 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v20 (broadcastInDim S1600000 ![] bcast_S_S1600000 : (⟨S_, .i32⟩ : BufTy).Contents (Elt F) → (⟨S1600000, .i32⟩ : BufTy).Contents (Elt F)),
    binary main_arg1 main_v20 main_v21 (addi : (⟨S1600000, .i32⟩ : BufTy).Contents (Elt F) → (⟨S1600000, .i32⟩ : BufTy).Contents (Elt F) → (⟨S1600000, .i32⟩ : BufTy).Contents (Elt F)),
    ternary main_v19 main_v21 main_arg1 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v22 main_v23 (broadcastInDim S1600000x1 ![0] bcast_S1600000_S1600000x1_0 : (⟨S1600000, .i32⟩ : BufTy).Contents (Elt F) → (⟨S1600000x1, .i32⟩ : BufTy).Contents (Elt F)),
    binary main_v17 main_v23 main_v24 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v25 (broadcastInDim S100000x128 ![] bcast_S_S100000x128 : (⟨S_, .f32⟩ : BufTy).Contents (Elt F) → (⟨S100000x128, .f32⟩ : BufTy).Contents (Elt F)),
    unary main_arg2 main_v26 (broadcastInDim S1600000x1 ![0] bcast_S1600000_S1600000x1_0 : (⟨S1600000, .i32⟩ : BufTy).Contents (Elt F) → (⟨S1600000x1, .i32⟩ : BufTy).Contents (Elt F)),
    ternary main_v25 main_v26 main_v24 main_v27 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v14 main_v28 (broadcastInDim S100000x1 ![0] bcast_S100000_S100000x1_0 : (⟨S100000, .f32⟩ : BufTy).Contents (Elt F) → (⟨S100000x1, .f32⟩ : BufTy).Contents (Elt F)),
    unary main_v28 main_v29 (broadcastInDim S100000x128 ![0, 1] bcast_S100000x1_S100000x128_0_1 : (⟨S100000x1, .f32⟩ : BufTy).Contents (Elt F) → (⟨S100000x128, .f32⟩ : BufTy).Contents (Elt F)),
    binary main_v27 main_v29 main_v30 (mulf : (⟨S100000x128, .f32⟩ : BufTy).Contents (Elt F) → (⟨S100000x128, .f32⟩ : BufTy).Contents (Elt F) → (⟨S100000x128, .f32⟩ : BufTy).Contents (Elt F)),
    binary main_v30 main_arg3 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v31 main_v33 main_v34 (addf : (⟨S100000x128, .f32⟩ : BufTy).Contents (Elt F) → (⟨S100000x128, .f32⟩ : BufTy).Contents (Elt F) → (⟨S100000x128, .f32⟩ : BufTy).Contents (Elt F)) ]

/-- Operations 46 … 82: the first normalization up to the broadcast reciprocal root `main_v45` (the row mean `main_v38`; the row variance `main_v39`, the called function's twenty-three operations in the place of its call; the centred rows `main_v41`). -/
abbrev ops2 : List (HloOp τ sig (Elt F)) :=
  [ nullary main_cst_8 (constant S_ .f32 0x00000000#32),
    binary main_v34 main_cst_8 main_v35 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v35 main_v36 (broadcastInDim S100000x1 ![0] bcast_S100000_S100000x1_0 : (⟨S100000, .f32⟩ : BufTy).Contents (Elt F) → (⟨S100000x1, .f32⟩ : BufTy).Contents (Elt F)),
    nullary main_cst_9 (constant S_ .f32 0x43000000#32),
    unary main_cst_9 main_v37 (broadcastInDim S100000x1 ![] bcast_S_S100000x1 : (⟨S_, .f32⟩ : BufTy).Contents (Elt F) → (⟨S100000x1, .f32⟩ : BufTy).Contents (Elt F)),
    binary main_v36 main_v37 main_v38 (Host.divf : (⟨S100000x1, .f32⟩ : BufTy).Contents (Elt F) → (⟨S100000x1, .f32⟩ : BufTy).Contents (Elt F) → (⟨S100000x1, .f32⟩ : BufTy).Contents (Elt F)),
    nullary main_c_10 (constantI S_ 32 0#32),
    nullary main_call0_cst (constant S_ .f32 0x00000000#32),
    binary main_v34 main_call0_cst main_call0_v0 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_call0_v0 main_call0_v1 (broadcastInDim S100000x1 ![0] bcast_S100000_S100000x1_0 : (⟨S100000, .f32⟩ : BufTy).Contents (Elt F) → (⟨S100000x1, .f32⟩ : BufTy).Contents (Elt F)),
    nullary main_call0_cst_0 (constant S_ .f32 0x43000000#32),
    unary main_call0_cst_0 main_call0_v2 (broadcastInDim S100000x1 ![] bcast_S_S100000x1 : (⟨S_, .f32⟩ : BufTy).Contents (Elt F) → (⟨S100000x1, .f32⟩ : BufTy).Contents (Elt F)),
    binary main_call0_v1 main_call0_v2 main_call0_v3 (Host.divf : (⟨S100000x1, .f32⟩ : BufTy).Contents (Elt F) → (⟨S100000x1, .f32⟩ : BufTy).Contents (Elt F) → (⟨S100000x1, .f32⟩ : BufTy).Contents (Elt F)),
    unary main_call0_v3 main_call0_v4 (broadcastInDim S100000x128 ![0, 1] bcast_S100000x1_S100000x128_0_1 : (⟨S100000x1, .f32⟩ : BufTy).Contents (Elt F) → (⟨S100000x128, .f32⟩ : BufTy).Contents (Elt F)),
    binary main_v34 main_call0_v4 main_call0_v5 (subf : (⟨S100000x128, .f32⟩ : BufTy).Contents (Elt F) → (⟨S100000x128, .f32⟩ : BufTy).Contents (Elt F) → (⟨S100000x128, .f32⟩ : BufTy).Contents (Elt F)),
    binary main_call0_v5 main_call0_v5 main_call0_v6 (mulf : (⟨S100000x128, .f32⟩ : BufTy).Contents (Elt F) → (⟨S100000x128, .f32⟩ : BufTy).Contents (Elt F) → (⟨S100000x128, .f32⟩ : BufTy).Contents (Elt F)),
    unary main_c_10 main_call0_v7 (sitofp .f32 : (⟨S_, .i32⟩ : BufTy).Contents (Elt F) → (⟨S_, .f32⟩ : BufTy).Contents (Elt F)),
    nullary main_call0_cst_1 (constant S_ .f32 0x43000000#32),
    binary main_call0_cst_1 main_call0_v7 main_call0_v8 (subf : (⟨S_, .f32⟩ : BufTy).Contents (Elt F) → (⟨S_, .f32⟩ : BufTy).Contents (Elt F) → (⟨S_, .f32⟩ : BufTy).Contents (Elt F)),
    nullary main_call0_cst_2 (constant S_ .f32 0x00000000#32),
    binary main_call0_v6 main_call0_cst_2 main_call0_v9 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_call0_v9 main_call0_v10 (broadcastInDim S100000x1 ![0] bcast_S100000_S100000x1_0 : (⟨S100000, .f32⟩ : BufTy).Contents (Elt F) → (⟨S100000x1, .f32⟩ : BufTy).Contents (Elt F)),
    unary main_call0_v8 main_call0_v11 (broadcastInDim S100000x1 ![] bcast_S_S100000x1 : (⟨S_, .f32⟩ : BufTy).Contents (Elt F) → (⟨S100000x1, .f32⟩ : BufTy).Contents (Elt F)),
    binary main_call0_v10 main_call0_v11 main_call0_v12 (Host.divf : (⟨S100000x1, .f32⟩ : BufTy).Contents (Elt F) → (⟨S100000x1, .f32⟩ : BufTy).Contents (Elt F) → (⟨S100000x1, .f32⟩ : BufTy).Contents (Elt F)),
    nullary main_call0_cst_3 (constant S_ .f32 0x00000000#32),
    binary main_call0_v8 main_call0_cst_3 main_call0_v13 (cmpf .ogt : (⟨S_, .f32⟩ : BufTy).Contents (Elt F) → (⟨S_, .f32⟩ : BufTy).Contents (Elt F) → (⟨S_, .i1⟩ : BufTy).Contents (Elt F)),
    nullary main_call0_cst_4 (constant S_ .f32 0x7FC00000#32),
    unary main_call0_cst_4 main_call0_call0_v0 (id : (⟨S_, .f32⟩ : BufTy).Contents (Elt F) → (⟨S_, .f32⟩ : BufTy).Contents (Elt F)),
    unary main_call0_call0_v0 main_call0_call0_v1 (broadcastInDim S100000x1 ![] bcast_S_S100000x1 : (⟨S_, .f32⟩ : BufTy).Contents (Elt F) → (⟨S100000x1, .f32⟩ : BufTy).Contents (Elt F)),
    ternary main_call0_v13 main_call0_v12 main_call0_call0_v1 main_v39 ((fun p a b => select (broadcastInDim S100000x1 ![] bcast_S_S100000x1 p) a b) : (⟨S_, .i1⟩ : BufTy).Contents (Elt F) → (⟨S100000x1, .f32⟩ : BufTy).Contents (Elt F) → (⟨S100000x1, .f32⟩ : BufTy).Contents (Elt F) → (⟨S100000x1, .f32⟩ : BufTy).Contents (Elt F)),
    unary main_v38 main_v40 (broadcastInDim S100000x128 ![0, 1] bcast_S100000x1_S100000x128_0_1 : (⟨S100000x1, .f32⟩ : BufTy).Contents (Elt F) → (⟨S100000x128, .f32⟩ : BufTy).Contents (Elt F)),
    binary main_v34 main_v40 main_v41 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v42 (broadcastInDim S100000x1 ![] bcast_S_S100000x1 : (⟨S_, .f32⟩ : BufTy).Contents (Elt F) → (⟨S100000x1, .f32⟩ : BufTy).Contents (Elt F)),
    binary main_v39 main_v42 main_v43 (addf : (⟨S100000x1, .f32⟩ : BufTy).Contents (Elt F) → (⟨S100000x1, .f32⟩ : BufTy).Contents (Elt F) → (⟨S100000x1, .f32⟩ : BufTy).Contents (Elt F)),
    unary main_v43 main_v44 (Host.rsqrt : (⟨S100000x1, .f32⟩ : BufTy).Contents (Elt F) → (⟨S100000x1, .f32⟩ : BufTy).Contents (Elt F)),
    unary main_v44 main_v45 (broadcastInDim S100000x128 ![0, 1] bcast_S100000x1_S100000x128_0_1 : (⟨S100000x1, .f32⟩ : BufTy).Contents (Elt F) → (⟨S100000x128, .f32⟩ : BufTy).Contents (Elt F)) ]

/-- Operations 83 … 92: the first normalization's scale `main_arg5` and shift `main_arg6`, then the maximum with zero: `main_v53`. -/
abbrev ops3 : List (HloOp τ sig (Elt F)) :=
  [ binary main_v41 main_v45 main_v46 (mulf : (⟨S100000x128, .f32⟩ : BufTy).Contents (Elt F) → (⟨S100000x128, .f32⟩ : BufTy).Contents (Elt F) → (⟨S100000x128, .f32⟩ : BufTy).Contents (Elt F)),
    unary main_arg5 main_v47 (broadcastInDim S1x128 ![1] bcast_S128_S1x128_1 : (⟨S128, .f32⟩ : BufTy).Contents (Elt F) → (⟨S1x128, .f32⟩ : BufTy).Contents (Elt F)),
    unary main_v47 main_v48 (broadcastInDim S100000x128 ![0, 1] bcast_S1x128_S100000x128_0_1 : (⟨S1x128, .f32⟩ : BufTy).Contents (Elt F) → (⟨S100000x128, .f32⟩ : BufTy).Contents (Elt F)),
    binary main_v46 main_v48 main_v49 (mulf : (⟨S100000x128, .f32⟩ : BufTy).Contents (Elt F) → (⟨S100000x128, .f32⟩ : BufTy).Contents (Elt F) → (⟨S100000x128, .f32⟩ : BufTy).Contents (Elt F)),
    unary main_arg6 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v49 main_v51 main_v52 (addf : (⟨S100000x128, .f32⟩ : BufTy).Contents (Elt F) → (⟨S100000x128, .f32⟩ : BufTy).Contents (Elt F) → (⟨S100000x128, .f32⟩ : BufTy).Contents (Elt F)),
    nullary main_call1_cst (constant S_ .f32 0x00000000#32),
    unary main_call1_cst main_call1_v0 (broadcastInDim S100000x128 ![] bcast_S_S100000x128 : (⟨S_, .f32⟩ : BufTy).Contents (Elt F) → (⟨S100000x128, .f32⟩ : BufTy).Contents (Elt F)),
    binary main_v52 main_call1_v0 main_v53 (maximumf : (⟨S100000x128, .f32⟩ : BufTy).Contents (Elt F) → (⟨S100000x128, .f32⟩ : BufTy).Contents (Elt F) → (⟨S100000x128, .f32⟩ : BufTy).Contents (Elt F)) ]

/-- Operations 93 … 115: the second convolution, `main_v73` (weights `main_arg7`, bias `main_arg8`). -/
abbrev ops4 : List (HloOp τ sig (Elt F)) :=
  [ unary main_v10 main_v54 (broadcastInDim S100000x1 ![0] bcast_S100000_S100000x1_0 : (⟨S100000, .f32⟩ : BufTy).Contents (Elt F) → (⟨S100000x1, .f32⟩ : BufTy).Contents (Elt F)),
    unary main_v54 main_v55 (broadcastInDim S100000x128 ![0, 1] bcast_S100000x1_S100000x128_0_1 : (⟨S100000x1, .f32⟩ : BufTy).Contents (Elt F) → (⟨S100000x128, .f32⟩ : BufTy).Contents (Elt F)),
    binary main_v53 main_v55 main_v56 (mulf : (⟨S100000x128, .f32⟩ : BufTy).Contents (Elt F) → (⟨S100000x128, .f32⟩ : BufTy).Contents (Elt F) → (⟨S100000x128, .f32⟩ : BufTy).Contents (Elt F)),
    nullary main_c_12 (constantI S_ 32 0#32),
    unary main_c_12 main_v57 (broadcastInDim S1600000 ![] bcast_S_S1600000 : (⟨S_, .i32⟩ : BufTy).Contents (Elt F) → (⟨S1600000, .i32⟩ : BufTy).Contents (Elt F)),
    binary main_arg1 main_v57 main_v58 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v59 (broadcastInDim S1600000 ![] bcast_S_S1600000 : (⟨S_, .i32⟩ : BufTy).Contents (Elt F) → (⟨S1600000, .i32⟩ : BufTy).Contents (Elt F)),
    binary main_arg1 main_v59 main_v60 (addi : (⟨S1600000, .i32⟩ : BufTy).Contents (Elt F) → (⟨S1600000, .i32⟩ : BufTy).Contents (Elt F) → (⟨S1600000, .i32⟩ : BufTy).Contents (Elt F)),
    ternary main_v58 main_v60 main_arg1 main_v61 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v61 main_v62 (broadcastInDim S1600000x1 ![0] bcast_S1600000_S1600000x1_0 : (⟨S1600000, .i32⟩ : BufTy).Contents (Elt F) → (⟨S1600000x1, .i32⟩ : BufTy).Contents (Elt F)),
    binary main_v56 main_v62 main_v63 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_14 (constant S_ .f32 0x00000000#32),
    unary main_cst_14 main_v64 (broadcastInDim S100000x128 ![] bcast_S_S100000x128 : (⟨S_, .f32⟩ : BufTy).Contents (Elt F) → (⟨S100000x128, .f32⟩ : BufTy).Contents (Elt F)),
    unary main_arg2 main_v65 (broadcastInDim S1600000x1 ![0] bcast_S1600000_S1600000x1_0 : (⟨S1600000, .i32⟩ : BufTy).Contents (Elt F) → (⟨S1600000x1, .i32⟩ : BufTy).Contents (Elt F)),
    ternary main_v64 main_v65 main_v63 main_v66 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v14 main_v67 (broadcastInDim S100000x1 ![0] bcast_S100000_S100000x1_0 : (⟨S100000, .f32⟩ : BufTy).Contents (Elt F) → (⟨S100000x1, .f32⟩ : BufTy).Contents (Elt F)),
    unary main_v67 main_v68 (broadcastInDim S100000x128 ![0, 1] bcast_S100000x1_S100000x128_0_1 : (⟨S100000x1, .f32⟩ : BufTy).Contents (Elt F) → (⟨S100000x128, .f32⟩ : BufTy).Contents (Elt F)),
    binary main_v66 main_v68 main_v69 (mulf : (⟨S100000x128, .f32⟩ : BufTy).Contents (Elt F) → (⟨S100000x128, .f32⟩ : BufTy).Contents (Elt F) → (⟨S100000x128, .f32⟩ : BufTy).Contents (Elt F)),
    binary main_v69 main_arg7 main_v70 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v70 main_v72 main_v73 (addf : (⟨S100000x128, .f32⟩ : BufTy).Contents (Elt F) → (⟨S100000x128, .f32⟩ : BufTy).Contents (Elt F) → (⟨S100000x128, .f32⟩ : BufTy).Contents (Elt F)) ]

/-- Operations 116 … 162: the second normalization (scale `main_arg9`, shift `main_arg10`) and the maximum with zero: `main_v92`. -/
abbrev ops5 : List (HloOp τ sig (Elt F)) :=
  [ nullary main_cst_15 (constant S_ .f32 0x00000000#32),
    binary main_v73 main_cst_15 main_v74 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v74 main_v75 (broadcastInDim S100000x1 ![0] bcast_S100000_S100000x1_0 : (⟨S100000, .f32⟩ : BufTy).Contents (Elt F) → (⟨S100000x1, .f32⟩ : BufTy).Contents (Elt F)),
    nullary main_cst_16 (constant S_ .f32 0x43000000#32),
    unary main_cst_16 main_v76 (broadcastInDim S100000x1 ![] bcast_S_S100000x1 : (⟨S_, .f32⟩ : BufTy).Contents (Elt F) → (⟨S100000x1, .f32⟩ : BufTy).Contents (Elt F)),
    binary main_v75 main_v76 main_v77 (Host.divf : (⟨S100000x1, .f32⟩ : BufTy).Contents (Elt F) → (⟨S100000x1, .f32⟩ : BufTy).Contents (Elt F) → (⟨S100000x1, .f32⟩ : BufTy).Contents (Elt F)),
    nullary main_c_17 (constantI S_ 32 0#32),
    nullary main_call2_cst (constant S_ .f32 0x00000000#32),
    binary main_v73 main_call2_cst main_call2_v0 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_call2_v0 main_call2_v1 (broadcastInDim S100000x1 ![0] bcast_S100000_S100000x1_0 : (⟨S100000, .f32⟩ : BufTy).Contents (Elt F) → (⟨S100000x1, .f32⟩ : BufTy).Contents (Elt F)),
    nullary main_call2_cst_0 (constant S_ .f32 0x43000000#32),
    unary main_call2_cst_0 main_call2_v2 (broadcastInDim S100000x1 ![] bcast_S_S100000x1 : (⟨S_, .f32⟩ : BufTy).Contents (Elt F) → (⟨S100000x1, .f32⟩ : BufTy).Contents (Elt F)),
    binary main_call2_v1 main_call2_v2 main_call2_v3 (Host.divf : (⟨S100000x1, .f32⟩ : BufTy).Contents (Elt F) → (⟨S100000x1, .f32⟩ : BufTy).Contents (Elt F) → (⟨S100000x1, .f32⟩ : BufTy).Contents (Elt F)),
    unary main_call2_v3 main_call2_v4 (broadcastInDim S100000x128 ![0, 1] bcast_S100000x1_S100000x128_0_1 : (⟨S100000x1, .f32⟩ : BufTy).Contents (Elt F) → (⟨S100000x128, .f32⟩ : BufTy).Contents (Elt F)),
    binary main_v73 main_call2_v4 main_call2_v5 (subf : (⟨S100000x128, .f32⟩ : BufTy).Contents (Elt F) → (⟨S100000x128, .f32⟩ : BufTy).Contents (Elt F) → (⟨S100000x128, .f32⟩ : BufTy).Contents (Elt F)),
    binary main_call2_v5 main_call2_v5 main_call2_v6 (mulf : (⟨S100000x128, .f32⟩ : BufTy).Contents (Elt F) → (⟨S100000x128, .f32⟩ : BufTy).Contents (Elt F) → (⟨S100000x128, .f32⟩ : BufTy).Contents (Elt F)),
    unary main_c_17 main_call2_v7 (sitofp .f32 : (⟨S_, .i32⟩ : BufTy).Contents (Elt F) → (⟨S_, .f32⟩ : BufTy).Contents (Elt F)),
    nullary main_call2_cst_1 (constant S_ .f32 0x43000000#32),
    binary main_call2_cst_1 main_call2_v7 main_call2_v8 (subf : (⟨S_, .f32⟩ : BufTy).Contents (Elt F) → (⟨S_, .f32⟩ : BufTy).Contents (Elt F) → (⟨S_, .f32⟩ : BufTy).Contents (Elt F)),
    nullary main_call2_cst_2 (constant S_ .f32 0x00000000#32),
    binary main_call2_v6 main_call2_cst_2 main_call2_v9 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_call2_v9 main_call2_v10 (broadcastInDim S100000x1 ![0] bcast_S100000_S100000x1_0 : (⟨S100000, .f32⟩ : BufTy).Contents (Elt F) → (⟨S100000x1, .f32⟩ : BufTy).Contents (Elt F)),
    unary main_call2_v8 main_call2_v11 (broadcastInDim S100000x1 ![] bcast_S_S100000x1 : (⟨S_, .f32⟩ : BufTy).Contents (Elt F) → (⟨S100000x1, .f32⟩ : BufTy).Contents (Elt F)),
    binary main_call2_v10 main_call2_v11 main_call2_v12 (Host.divf : (⟨S100000x1, .f32⟩ : BufTy).Contents (Elt F) → (⟨S100000x1, .f32⟩ : BufTy).Contents (Elt F) → (⟨S100000x1, .f32⟩ : BufTy).Contents (Elt F)),
    nullary main_call2_cst_3 (constant S_ .f32 0x00000000#32),
    binary main_call2_v8 main_call2_cst_3 main_call2_v13 (cmpf .ogt : (⟨S_, .f32⟩ : BufTy).Contents (Elt F) → (⟨S_, .f32⟩ : BufTy).Contents (Elt F) → (⟨S_, .i1⟩ : BufTy).Contents (Elt F)),
    nullary main_call2_cst_4 (constant S_ .f32 0x7FC00000#32),
    unary main_call2_cst_4 main_call2_call0_v0 (id : (⟨S_, .f32⟩ : BufTy).Contents (Elt F) → (⟨S_, .f32⟩ : BufTy).Contents (Elt F)),
    unary main_call2_call0_v0 main_call2_call0_v1 (broadcastInDim S100000x1 ![] bcast_S_S100000x1 : (⟨S_, .f32⟩ : BufTy).Contents (Elt F) → (⟨S100000x1, .f32⟩ : BufTy).Contents (Elt F)),
    ternary main_call2_v13 main_call2_v12 main_call2_call0_v1 main_v78 ((fun p a b => select (broadcastInDim S100000x1 ![] bcast_S_S100000x1 p) a b) : (⟨S_, .i1⟩ : BufTy).Contents (Elt F) → (⟨S100000x1, .f32⟩ : BufTy).Contents (Elt F) → (⟨S100000x1, .f32⟩ : BufTy).Contents (Elt F) → (⟨S100000x1, .f32⟩ : BufTy).Contents (Elt F)),
    unary main_v77 main_v79 (broadcastInDim S100000x128 ![0, 1] bcast_S100000x1_S100000x128_0_1 : (⟨S100000x1, .f32⟩ : BufTy).Contents (Elt F) → (⟨S100000x128, .f32⟩ : BufTy).Contents (Elt F)),
    binary main_v73 main_v79 main_v80 (subf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x3727C5AC#32),
    unary main_cst_18 main_v81 (broadcastInDim S100000x1 ![] bcast_S_S100000x1 : (⟨S_, .f32⟩ : BufTy).Contents (Elt F) → (⟨S100000x1, .f32⟩ : BufTy).Contents (Elt F)),
    binary main_v78 main_v81 main_v82 (addf : (⟨S100000x1, .f32⟩ : BufTy).Contents (Elt F) → (⟨S100000x1, .f32⟩ : BufTy).Contents (Elt F) → (⟨S100000x1, .f32⟩ : BufTy).Contents (Elt F)),
    unary main_v82 main_v83 (Host.rsqrt : (⟨S100000x1, .f32⟩ : BufTy).Contents (Elt F) → (⟨S100000x1, .f32⟩ : BufTy).Contents (Elt F)),
    unary main_v83 main_v84 (broadcastInDim S100000x128 ![0, 1] bcast_S100000x1_S100000x128_0_1 : (⟨S100000x1, .f32⟩ : BufTy).Contents (Elt F) → (⟨S100000x128, .f32⟩ : BufTy).Contents (Elt F)),
    binary main_v80 main_v84 main_v85 (mulf : (⟨S100000x128, .f32⟩ : BufTy).Contents (Elt F) → (⟨S100000x128, .f32⟩ : BufTy).Contents (Elt F) → (⟨S100000x128, .f32⟩ : BufTy).Contents (Elt F)),
    unary main_arg9 main_v86 (broadcastInDim S1x128 ![1] bcast_S128_S1x128_1 : (⟨S128, .f32⟩ : BufTy).Contents (Elt F) → (⟨S1x128, .f32⟩ : BufTy).Contents (Elt F)),
    unary main_v86 main_v87 (broadcastInDim S100000x128 ![0, 1] bcast_S1x128_S100000x128_0_1 : (⟨S1x128, .f32⟩ : BufTy).Contents (Elt F) → (⟨S100000x128, .f32⟩ : BufTy).Contents (Elt F)),
    binary main_v85 main_v87 main_v88 (mulf : (⟨S100000x128, .f32⟩ : BufTy).Contents (Elt F) → (⟨S100000x128, .f32⟩ : BufTy).Contents (Elt F) → (⟨S100000x128, .f32⟩ : BufTy).Contents (Elt F)),
    unary main_arg10 main_v89 (broadcastInDim S1x128 ![1] bcast_S128_S1x128_1 : (⟨S128, .f32⟩ : BufTy).Contents (Elt F) → (⟨S1x128, .f32⟩ : BufTy).Contents (Elt F)),
    unary main_v89 main_v90 (broadcastInDim S100000x128 ![0, 1] bcast_S1x128_S100000x128_0_1 : (⟨S1x128, .f32⟩ : BufTy).Contents (Elt F) → (⟨S100000x128, .f32⟩ : BufTy).Contents (Elt F)),
    binary main_v88 main_v90 main_v91 (addf : (⟨S100000x128, .f32⟩ : BufTy).Contents (Elt F) → (⟨S100000x128, .f32⟩ : BufTy).Contents (Elt F) → (⟨S100000x128, .f32⟩ : BufTy).Contents (Elt F)),
    nullary main_call3_cst (constant S_ .f32 0x00000000#32),
    unary main_call3_cst main_call3_v0 (broadcastInDim S100000x128 ![] bcast_S_S100000x128 : (⟨S_, .f32⟩ : BufTy).Contents (Elt F) → (⟨S100000x128, .f32⟩ : BufTy).Contents (Elt F)),
    binary main_v91 main_call3_v0 main_v92 (maximumf : (⟨S100000x128, .f32⟩ : BufTy).Contents (Elt F) → (⟨S100000x128, .f32⟩ : BufTy).Contents (Elt F) → (⟨S100000x128, .f32⟩ : BufTy).Contents (Elt F)) ]

/-- Operations 163 … 168: the third convolution's scaled rows `main_v95` and the sign test of the gather indices. -/
abbrev ops6 : List (HloOp τ sig (Elt F)) :=
  [ unary main_v10 main_v93 (broadcastInDim S100000x1 ![0] bcast_S100000_S100000x1_0 : (⟨S100000, .f32⟩ : BufTy).Contents (Elt F) → (⟨S100000x1, .f32⟩ : BufTy).Contents (Elt F)),
    unary main_v93 main_v94 (broadcastInDim S100000x128 ![0, 1] bcast_S100000x1_S100000x128_0_1 : (⟨S100000x1, .f32⟩ : BufTy).Contents (Elt F) → (⟨S100000x128, .f32⟩ : BufTy).Contents (Elt F)),
    binary main_v92 main_v94 main_v95 (mulf : (⟨S100000x128, .f32⟩ : BufTy).Contents (Elt F) → (⟨S100000x128, .f32⟩ : BufTy).Contents (Elt F) → (⟨S100000x128, .f32⟩ : BufTy).Contents (Elt F)),
    nullary main_c_19 (constantI S_ 32 0#32),
    unary main_c_19 main_v96 (broadcastInDim S1600000 ![] bcast_S_S1600000 : (⟨S_, .i32⟩ : BufTy).Contents (Elt F) → (⟨S1600000, .i32⟩ : BufTy).Contents (Elt F)),
    binary main_arg1 main_v96 main_v97 (cmpi .slt : (⟨S1600000, .i32⟩ : BufTy).Contents (Elt F) → (⟨S1600000, .i32⟩ : BufTy).Contents (Elt F) → (⟨S1600000, .i1⟩ : BufTy).Contents (Elt F)) ]

/-- Operations 169 … 185: the rest of the third convolution, `main_v112` (weights `main_arg11`, bias `main_arg12`). -/
abbrev ops7 : List (HloOp τ sig (Elt F)) :=
  [ nullary main_c_20 (constantI S_ 32 100000#32),
    unary main_c_20 main_v98 (broadcastInDim S1600000 ![] bcast_S_S1600000 : (⟨S_, .i32⟩ : BufTy).Contents (Elt F) → (⟨S1600000, .i32⟩ : BufTy).Contents (Elt F)),
    binary main_arg1 main_v98 main_v99 (addi : (⟨S1600000, .i32⟩ : BufTy).Contents (Elt F) → (⟨S1600000, .i32⟩ : BufTy).Contents (Elt F) → (⟨S1600000, .i32⟩ : BufTy).Contents (Elt F)),
    ternary main_v97 main_v99 main_arg1 main_v100 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v100 main_v101 (broadcastInDim S1600000x1 ![0] bcast_S1600000_S1600000x1_0 : (⟨S1600000, .i32⟩ : BufTy).Contents (Elt F) → (⟨S1600000x1, .i32⟩ : BufTy).Contents (Elt F)),
    binary main_v95 main_v101 main_v102 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_21 (constant S_ .f32 0x00000000#32),
    unary main_cst_21 main_v103 (broadcastInDim S100000x128 ![] bcast_S_S100000x128 : (⟨S_, .f32⟩ : BufTy).Contents (Elt F) → (⟨S100000x128, .f32⟩ : BufTy).Contents (Elt F)),
    unary main_arg2 main_v104 (broadcastInDim S1600000x1 ![0] bcast_S1600000_S1600000x1_0 : (⟨S1600000, .i32⟩ : BufTy).Contents (Elt F) → (⟨S1600000x1, .i32⟩ : BufTy).Contents (Elt F)),
    ternary main_v103 main_v104 main_v102 main_v105 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v14 main_v106 (broadcastInDim S100000x1 ![0] bcast_S100000_S100000x1_0 : (⟨S100000, .f32⟩ : BufTy).Contents (Elt F) → (⟨S100000x1, .f32⟩ : BufTy).Contents (Elt F)),
    unary main_v106 main_v107 (broadcastInDim S100000x128 ![0, 1] bcast_S100000x1_S100000x128_0_1 : (⟨S100000x1, .f32⟩ : BufTy).Contents (Elt F) → (⟨S100000x128, .f32⟩ : BufTy).Contents (Elt F)),
    binary main_v105 main_v107 main_v108 (mulf : (⟨S100000x128, .f32⟩ : BufTy).Contents (Elt F) → (⟨S100000x128, .f32⟩ : BufTy).Contents (Elt F) → (⟨S100000x128, .f32⟩ : BufTy).Contents (Elt F)),
    binary main_v108 main_arg11 main_v109 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg12 main_v110 (broadcastInDim S1x64 ![1] bcast_S64_S1x64_1 : (⟨S64, .f32⟩ : BufTy).Contents (Elt F) → (⟨S1x64, .f32⟩ : BufTy).Contents (Elt F)),
    unary main_v110 main_v111 (broadcastInDim S100000x64 ![0, 1] bcast_S1x64_S100000x64_0_1 : (⟨S1x64, .f32⟩ : BufTy).Contents (Elt F) → (⟨S100000x64, .f32⟩ : BufTy).Contents (Elt F)),
    binary main_v109 main_v111 main_v112 (addf : (⟨S100000x64, .f32⟩ : BufTy).Contents (Elt F) → (⟨S100000x64, .f32⟩ : BufTy).Contents (Elt F) → (⟨S100000x64, .f32⟩ : BufTy).Contents (Elt F)) ]

/-- The first window of @main: operations 1 … 82. -/
def part0 : List (HloOp τ sig (Elt F)) := ops0 ++ (ops1 ++ ops2)
/-- The second window of @main: operations 83 … 168. -/
def part1 : List (HloOp τ sig (Elt F)) := ops3 ++ (ops4 ++ (ops5 ++ ops6))
/-- The third window of @main: operations 169 … 185. -/
def part2 : List (HloOp τ sig (Elt F)) := ops7

/-- @main's 185 operations, in order (a called function's operations stand in its call's place). -/
abbrev ops : List (HloOp τ sig (Elt F)) := part0 ++ (part1 ++ part2)

/-! ## @main is the list -/

set_option maxRecDepth 8192 in
set_option maxHeartbeats 4000000 in
/-- The first window is its operations in order: the called function's body unfolds at its call. -/
theorem main_part0_eq (c : Dev nD) : main_part0 (F := F) c = seq part0 := rfl
set_option maxRecDepth 8192 in
set_option maxHeartbeats 4000000 in
/-- The second window is its operations in order. -/
theorem main_part1_eq (c : Dev nD) : main_part1 (F := F) c = seq part1 := rfl
set_option maxRecDepth 8192 in
/-- The third window is its operations in order, then the return. -/
theorem main_part2_eq (c : Dev nD) : main_part2 (F := F) c = seq part2 := rfl

/-- @main is the sequence of its operations: the three windows one after the other (`seq_append`). -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines what it writes -/

theorem ops0_sub : (ops0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩
theorem ops1_sub : (ops1 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩
theorem ops2_sub : (ops2 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub ..⟩
theorem ops3_sub : (ops3 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., nullary_bufs_sub .., unary_bufs_sub .., binary_bufs_sub ..⟩
theorem ops4_sub : (ops4 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩
theorem ops5_sub : (ops5 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem ops6_sub : (ops6 : List (HloOp τ sig (Elt F))).Forall fun op => op.bufs ⊆ tcRefs τ sig :=
  ⟨unary_bufs_sub .., unary_bufs_sub .., binary_bufs_sub .., nullary_bufs_sub .., unary_bufs_sub .., binary_bufs_sub ..⟩
theorem ops7_sub : (ops7 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, part0, part1, part2, List.mem_append] at h
    rcases h with (h | h | h) | (h | h | h | h) | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h, List.forall_iff_forall_mem.mp ops5_sub op h,
      List.forall_iff_forall_mem.mp ops6_sub op h, List.forall_iff_forall_mem.mp ops7_sub op h]

theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h
theorem ops4_fresh : ∀ op ∈ (ops4 : List (HloOp τ sig (Elt F))), op.fresh = ∅ := by
  intro _ h; (repeat (cases h with | head => rfl | tail _ h => ?_)); exact nomatch h
theorem ops5_fresh : ∀ op ∈ (ops5 : List (HloOp τ sig (Elt F))), op.fresh = ∅ := by
  intro _ h; (repeat (cases h with | head => rfl | tail _ h => ?_)); exact nomatch h
theorem ops6_fresh : ∀ op ∈ (ops6 : List (HloOp τ sig (Elt F))), op.fresh = ∅ := by
  intro _ h; (repeat (cases h with | head => rfl | tail _ h => ?_)); exact nomatch h
theorem ops7_fresh : ∀ op ∈ (ops7 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, part0, part1, part2, List.mem_append] at h
  rcases h with (h | h | h) | (h | h | h | h) | h
  exacts [ops0_fresh op h, ops1_fresh op h, ops2_fresh op h, ops3_fresh op h, ops4_fresh op h, ops5_fresh op h,
    ops6_fresh op h, ops7_fresh op h]

/-! ## What the operations leave alone

Each stage writes the buffers of its own results and no other; a buffer outside every stage's list — an argument's —
holds at the end what it held at launch. -/

/-- The fold over two lists in a row. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The fold over the whole list is the stages' folds, one after the other. -/
theorem after_ops (V : Valuation τ sig (Elt F)) :
    after ops V = after ops7 (after ops6 (after ops5 (after ops4 (after ops3 (after ops2 (after ops1 (after ops0 V))))))) := by
  simp only [ops, part0, part1, part2, after_app]

/-- The buffers stage 0 writes. -/
abbrev ops0_W : List (Ref sig .tc) := [main_cst, main_v0, main_cst_0, main_v1, main_v2, main_v3, main_cst_1, main_v4, main_v5, main_v6, main_cst_2, main_v7, main_v8, main_cst_3, main_v9, main_v10, main_cst_4, main_v11, main_v12, main_cst_5, main_v13, main_v14]
theorem ops0_writes : (ops0 : List (HloOp τ sig (Elt F))).Forall fun op => op.writes ⊆ (ops0_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stage 0 does not write keeps its contents through it. -/
theorem keep0 (V : Valuation τ sig (Elt F)) (r : Ref sig .tc) (h : r ∉ ops0_W) :
    after ops0 V (Proc.devRef .tc r) = V (Proc.devRef .tc r) :=
  after_of_writes_sub ops0 V ops0_writes h

/-- The buffers stage 1 writes. -/
abbrev ops1_W : List (Ref sig .tc) := [main_v15, main_v16, main_v17, main_c, main_v18, main_v19, main_c_6, main_v20, main_v21, main_v22, main_v23, main_v24, main_cst_7, main_v25, main_v26, main_v27, main_v28, main_v29, main_v30, main_v31, main_v32, main_v33, main_v34]
theorem ops1_writes : (ops1 : List (HloOp τ sig (Elt F))).Forall fun op => op.writes ⊆ (ops1_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stage 1 does not write keeps its contents through it. -/
theorem keep1 (V : Valuation τ sig (Elt F)) (r : Ref sig .tc) (h : r ∉ ops1_W) :
    after ops1 V (Proc.devRef .tc r) = V (Proc.devRef .tc r) :=
  after_of_writes_sub ops1 V ops1_writes h

/-- The buffers stage 2 writes. -/
abbrev ops2_W : List (Ref sig .tc) := [main_cst_8, main_v35, main_v36, main_cst_9, main_v37, main_v38, main_c_10, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v39, main_v40, main_v41, main_cst_11, main_v42, main_v43, main_v44, main_v45]
theorem ops2_writes : (ops2 : List (HloOp τ sig (Elt F))).Forall fun op => op.writes ⊆ (ops2_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stage 2 does not write keeps its contents through it. -/
theorem keep2 (V : Valuation τ sig (Elt F)) (r : Ref sig .tc) (h : r ∉ ops2_W) :
    after ops2 V (Proc.devRef .tc r) = V (Proc.devRef .tc r) :=
  after_of_writes_sub ops2 V ops2_writes h

/-- The buffers stage 3 writes. -/
abbrev ops3_W : List (Ref sig .tc) := [main_v46, main_v47, main_v48, main_v49, main_v50, main_v51, main_v52, main_call1_cst, main_call1_v0, main_v53]
theorem ops3_writes : (ops3 : List (HloOp τ sig (Elt F))).Forall fun op => op.writes ⊆ (ops3_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stage 3 does not write keeps its contents through it. -/
theorem keep3 (V : Valuation τ sig (Elt F)) (r : Ref sig .tc) (h : r ∉ ops3_W) :
    after ops3 V (Proc.devRef .tc r) = V (Proc.devRef .tc r) :=
  after_of_writes_sub ops3 V ops3_writes h

/-- The buffers stage 4 writes. -/
abbrev ops4_W : List (Ref sig .tc) := [main_v54, main_v55, main_v56, main_c_12, main_v57, main_v58, main_c_13, main_v59, main_v60, main_v61, main_v62, main_v63, main_cst_14, main_v64, main_v65, main_v66, main_v67, main_v68, main_v69, main_v70, main_v71, main_v72, main_v73]
theorem ops4_writes : (ops4 : List (HloOp τ sig (Elt F))).Forall fun op => op.writes ⊆ (ops4_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stage 4 does not write keeps its contents through it. -/
theorem keep4 (V : Valuation τ sig (Elt F)) (r : Ref sig .tc) (h : r ∉ ops4_W) :
    after ops4 V (Proc.devRef .tc r) = V (Proc.devRef .tc r) :=
  after_of_writes_sub ops4 V ops4_writes h

/-- The buffers stage 5 writes. -/
abbrev ops5_W : List (Ref sig .tc) := [main_cst_15, main_v74, main_v75, main_cst_16, main_v76, main_v77, main_c_17, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v78, main_v79, main_v80, main_cst_18, main_v81, main_v82, main_v83, main_v84, main_v85, main_v86, main_v87, main_v88, main_v89, main_v90, main_v91, main_call3_cst, main_call3_v0, main_v92]
theorem ops5_writes : (ops5 : List (HloOp τ sig (Elt F))).Forall fun op => op.writes ⊆ (ops5_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stage 5 does not write keeps its contents through it. -/
theorem keep5 (V : Valuation τ sig (Elt F)) (r : Ref sig .tc) (h : r ∉ ops5_W) :
    after ops5 V (Proc.devRef .tc r) = V (Proc.devRef .tc r) :=
  after_of_writes_sub ops5 V ops5_writes h

/-- The buffers stage 6 writes. -/
abbrev ops6_W : List (Ref sig .tc) := [main_v93, main_v94, main_v95, main_c_19, main_v96, main_v97]
theorem ops6_writes : (ops6 : List (HloOp τ sig (Elt F))).Forall fun op => op.writes ⊆ (ops6_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stage 6 does not write keeps its contents through it. -/
theorem keep6 (V : Valuation τ sig (Elt F)) (r : Ref sig .tc) (h : r ∉ ops6_W) :
    after ops6 V (Proc.devRef .tc r) = V (Proc.devRef .tc r) :=
  after_of_writes_sub ops6 V ops6_writes h

/-- The buffers stage 7 writes. -/
abbrev ops7_W : List (Ref sig .tc) := [main_c_20, main_v98, main_v99, main_v100, main_v101, main_v102, main_cst_21, main_v103, main_v104, main_v105, main_v106, main_v107, main_v108, main_v109, main_v110, main_v111, main_v112]
theorem ops7_writes : (ops7 : List (HloOp τ sig (Elt F))).Forall fun op => op.writes ⊆ (ops7_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stage 7 does not write keeps its contents through it. -/
theorem keep7 (V : Valuation τ sig (Elt F)) (r : Ref sig .tc) (h : r ∉ ops7_W) :
    after ops7 V (Proc.devRef .tc r) = V (Proc.devRef .tc r) :=
  after_of_writes_sub ops7 V ops7_writes h

/-- A buffer no stage writes holds after the whole list what it held before. -/
theorem kept (V : Valuation τ sig (Elt F)) (r : Ref sig .tc) (h0 : r ∉ ops0_W) (h1 : r ∉ ops1_W) (h2 : r ∉ ops2_W)
    (h3 : r ∉ ops3_W) (h4 : r ∉ ops4_W) (h5 : r ∉ ops5_W) (h6 : r ∉ ops6_W) (h7 : r ∉ ops7_W) :
    after ops V (Proc.devRef .tc r) = V (Proc.devRef .tc r) := by
  rw [after_ops, keep7 _ r h7, keep6 _ r h6, keep5 _ r h5, keep4 _ r h4, keep3 _ r h3, keep2 _ r h2, keep1 _ r h1, keep0 _ r h0]

/-! ## The run -/

/-- The reference's result buffer after the operations, from launch memory `m` on core `c`: the fold of the 185
    operations over the core's launch contents, read at `main_v112`. -/
def val (m : (ℓ : Loc nD τ sig) → Buf (Elt F) ℓ) (c : Dev nD) : Buf (Elt F) ((c.tc : Thread nD τ).loc main_v112) :=
  after ops (launchContents m c) (Proc.devRef .tc main_v112)

/-- On every device, for any float values, from any memory with zero counters: every weakly fair execution of
    @main terminates with the result buffer at `val` and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v112) = val m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨h c main_v112,
      (h c main_arg0).trans (kept (launchContents m c) main_arg0 (by decide) (by decide) (by decide) (by decide) (by decide) (by decide) (by decide) (by decide)),
      (h c main_arg1).trans (kept (launchContents m c) main_arg1 (by decide) (by decide) (by decide) (by decide) (by decide) (by decide) (by decide) (by decide)),
      (h c main_arg2).trans (kept (launchContents m c) main_arg2 (by decide) (by decide) (by decide) (by decide) (by decide) (by decide) (by decide) (by decide)),
      (h c main_arg3).trans (kept (launchContents m c) main_arg3 (by decide) (by decide) (by decide) (by decide) (by decide) (by decide) (by decide) (by decide)),
      (h c main_arg4).trans (kept (launchContents m c) main_arg4 (by decide) (by decide) (by decide) (by decide) (by decide) (by decide) (by decide) (by decide)),
      (h c main_arg5).trans (kept (launchContents m c) main_arg5 (by decide) (by decide) (by decide) (by decide) (by decide) (by decide) (by decide) (by decide)),
      (h c main_arg6).trans (kept (launchContents m c) main_arg6 (by decide) (by decide) (by decide) (by decide) (by decide) (by decide) (by decide) (by decide)),
      (h c main_arg7).trans (kept (launchContents m c) main_arg7 (by decide) (by decide) (by decide) (by decide) (by decide) (by decide) (by decide) (by decide)),
      (h c main_arg8).trans (kept (launchContents m c) main_arg8 (by decide) (by decide) (by decide) (by decide) (by decide) (by decide) (by decide) (by decide)),
      (h c main_arg9).trans (kept (launchContents m c) main_arg9 (by decide) (by decide) (by decide) (by decide) (by decide) (by decide) (by decide) (by decide)),
      (h c main_arg10).trans (kept (launchContents m c) main_arg10 (by decide) (by decide) (by decide) (by decide) (by decide) (by decide) (by decide) (by decide)),
      (h c main_arg11).trans (kept (launchContents m c) main_arg11 (by decide) (by decide) (by decide) (by decide) (by decide) (by decide) (by decide) (by decide)),
      (h c main_arg12).trans (kept (launchContents m c) main_arg12 (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.RefVal.lean ====
/- The reference's result as one whole-array term of its thirteen arguments.

   The run's result is the fold of the 185 operations over the launch contents, read at the result buffer. The fold
   is read off stage by stage: after each stage, the buffers that later stages still read hold a named term of the
   contents before the first stage — the two degree norms; each convolution's output; the centred rows and the
   broadcast reciprocal root of a normalization; each normalization's clamped output — and a buffer a stage does
   not write holds what it held. The last stage's result buffer then holds the network's term. -/
import proofs.«121135_j57578331570298_1_alg».proof.Proof.RefRun
import proofs.«121135_j57578331570298_1_alg».proof.Proof.RefTerms

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Terms

/-- Contents of a device's buffers, the floats extended reals. -/
local notation "𝕍" => Valuation τ sig (Elt Ideal)

/-! ## The contents after each stage -/

/-- After the degree norms. -/
def st1 (V : 𝕍) : 𝕍 := after ops0 V
/-- After the first convolution. -/
def st2 (V : 𝕍) : 𝕍 := after ops1 (st1 V)
/-- After the first normalization's centred rows and reciprocal root. -/
def st3 (V : 𝕍) : 𝕍 := after ops2 (st2 V)
/-- After the first normalization's scale, shift and clamp. -/
def st4 (V : 𝕍) : 𝕍 := after ops3 (st3 V)
/-- After the second convolution. -/
def st5 (V : 𝕍) : 𝕍 := after ops4 (st4 V)
/-- After the second normalization. -/
def st6 (V : 𝕍) : 𝕍 := after ops5 (st5 V)
/-- After the third convolution's scaled rows and index sign test. -/
def st7 (V : 𝕍) : 𝕍 := after ops6 (st6 V)
/-- After the third convolution. -/
def st8 (V : 𝕍) : 𝕍 := after ops7 (st7 V)

/-- The fold over the whole list is the last stage's contents. -/
theorem after_ops_st (V : 𝕍) : after ops V = st8 V := by rw [after_ops]; rfl

/-! ## A stage keeps what it does not write -/

theorem st1_keep (V : 𝕍) (r : Ref sig .tc) (h : r ∉ ops0_W) : st1 V (no_index (Proc.devRef .tc r)) = V (Proc.devRef .tc r) := keep0 V r h
theorem st2_keep (V : 𝕍) (r : Ref sig .tc) (h : r ∉ ops1_W) : st2 V (no_index (Proc.devRef .tc r)) = st1 V (Proc.devRef .tc r) := keep1 _ r h
theorem st3_keep (V : 𝕍) (r : Ref sig .tc) (h : r ∉ ops2_W) : st3 V (no_index (Proc.devRef .tc r)) = st2 V (Proc.devRef .tc r) := keep2 _ r h
theorem st4_keep (V : 𝕍) (r : Ref sig .tc) (h : r ∉ ops3_W) : st4 V (no_index (Proc.devRef .tc r)) = st3 V (Proc.devRef .tc r) := keep3 _ r h
theorem st5_keep (V : 𝕍) (r : Ref sig .tc) (h : r ∉ ops4_W) : st5 V (no_index (Proc.devRef .tc r)) = st4 V (Proc.devRef .tc r) := keep4 _ r h
theorem st6_keep (V : 𝕍) (r : Ref sig .tc) (h : r ∉ ops5_W) : st6 V (no_index (Proc.devRef .tc r)) = st5 V (Proc.devRef .tc r) := keep5 _ r h
theorem st7_keep (V : 𝕍) (r : Ref sig .tc) (h : r ∉ ops6_W) : st7 V (no_index (Proc.devRef .tc r)) = st6 V (Proc.devRef .tc r) := keep6 _ r h

/-! ## The layers' outputs as terms of the contents at launch -/

/-- The first convolution's output. -/
def X1 (V : 𝕍) : FVec Ideal S100000x128 .f32 :=
  dense128 (aggregate (mulf (V (Proc.devRef .tc main_arg0)) (col128 (degNorm (V (Proc.devRef .tc main_arg1))))) (V (Proc.devRef .tc main_arg1)) (V (Proc.devRef .tc main_arg2))) (degNorm (V (Proc.devRef .tc main_arg2))) (V (Proc.devRef .tc main_arg3)) (V (Proc.devRef .tc main_arg4))
/-- The first normalization's clamped output. -/
def Y1 (V : 𝕍) : FVec Ideal S100000x128 .f32 := lnRelu (X1 V) (V (Proc.devRef .tc main_arg5)) (V (Proc.devRef .tc main_arg6))
/-- The second convolution's output. -/
def X2 (V : 𝕍) : FVec Ideal S100000x128 .f32 :=
  dense128 (aggregate (mulf (Y1 V) (col128 (degNorm (V (Proc.devRef .tc main_arg1))))) (V (Proc.devRef .tc main_arg1)) (V (Proc.devRef .tc main_arg2))) (degNorm (V (Proc.devRef .tc main_arg2))) (V (Proc.devRef .tc main_arg7)) (V (Proc.devRef .tc main_arg8))
/-- The second normalization's clamped output. -/
def Y2 (V : 𝕍) : FVec Ideal S100000x128 .f32 := lnRelu (X2 V) (V (Proc.devRef .tc main_arg9)) (V (Proc.devRef .tc main_arg10))

/-! ## Stage by stage -/

set_option maxRecDepth 8192 in
set_option maxHeartbeats 2000000 in
/-- The degree norm of the first index array. -/
theorem st1_v10 (V : 𝕍) : st1 V (no_index (Proc.devRef .tc main_v10)) = degNorm (V (Proc.devRef .tc main_arg1)) := by
  unfold st1
  simp only [ops0]
  after_results_simp
  rfl

set_option maxRecDepth 8192 in
set_option maxHeartbeats 2000000 in
/-- The degree norm of the second index array. -/
theorem st1_v14 (V : 𝕍) : st1 V (no_index (Proc.devRef .tc main_v14)) = degNorm (V (Proc.devRef .tc main_arg2)) := by
  unfold st1
  simp only [ops0]
  after_results_simp
  rfl

set_option maxRecDepth 8192 in
set_option maxHeartbeats 2000000 in
/-- The first convolution: rows scaled by the first norm, gathered and summed along the edges, scaled by the second norm,
    times the weights, plus the bias. -/
theorem st2_v34 (V : 𝕍) : st2 V (no_index (Proc.devRef .tc main_v34)) = X1 V := by
  unfold st2
  simp only [ops1]
  after_results_simp
  simp (disch := decide) only [st1_v10, st1_v14, st1_keep]
  rfl

set_option maxRecDepth 8192 in
set_option maxHeartbeats 4000000 in
/-- The first normalization's centred rows. -/
theorem st3_v41 (V : 𝕍) : st3 V (no_index (Proc.devRef .tc main_v41))
    = subf (X1 V) (broadcastInDim S100000x128 ![0, 1] bcast_S100000x1_S100000x128_0_1 (rowMean (X1 V))) := by
  unfold st3
  simp only [ops2]
  after_results_simp
  simp (disch := decide) only [st2_v34, st2_keep, st1_v10, st1_v14, st1_keep]
  rfl

set_option maxRecDepth 8192 in
set_option maxHeartbeats 4000000 in
/-- The first normalization's reciprocal root of the row variance plus the small constant, over the columns. -/
theorem st3_v45 (V : 𝕍) : st3 V (no_index (Proc.devRef .tc main_v45))
    = broadcastInDim S100000x128 ![0, 1] bcast_S100000x1_S100000x128_0_1
        (Host.rsqrt (F := Ideal)
          (addf (rowVar (X1 V) (constantI S_ 32 0#32))
            (broadcastInDim S100000x1 ![] bcast_S_S100000x1 (constant (F := Ideal) S_ .f32 0x3727C5AC#32)))) := by
  unfold st3
  simp only [ops2]
  after_results_simp
  simp (disch := decide) only [st2_v34, st2_keep, st1_v10, st1_v14, st1_keep]
  rfl

set_option maxRecDepth 8192 in
set_option maxHeartbeats 2000000 in
/-- The first normalization, scaled, shifted and clamped at zero. -/
theorem st4_v53 (V : 𝕍) : st4 V (no_index (Proc.devRef .tc main_v53)) = Y1 V := by
  unfold st4
  simp only [ops3]
  after_results_simp
  simp (disch := decide) only [st3_v41, st3_v45, st3_keep, st2_keep, st1_keep]
  rfl

set_option maxRecDepth 8192 in
set_option maxHeartbeats 2000000 in
/-- The second convolution. -/
theorem st5_v73 (V : 𝕍) : st5 V (no_index (Proc.devRef .tc main_v73)) = X2 V := by
  unfold st5
  simp only [ops4]
  after_results_simp
  simp (disch := decide) only [st4_v53, st4_keep, st3_keep, st2_keep, st1_v10, st1_v14, st1_keep]
  rfl

set_option maxRecDepth 8192 in
set_option maxHeartbeats 4000000 in
/-- The second normalization, scaled, shifted and clamped at zero. -/
theorem st6_v92 (V : 𝕍) : st6 V (no_index (Proc.devRef .tc main_v92)) = Y2 V := by
  unfold st6
  simp only [ops5]
  after_results_simp
  simp (disch := decide) only [st5_v73, st5_keep, st4_keep, st3_keep, st2_keep, st1_keep]
  rfl

set_option maxRecDepth 8192 in
/-- The third convolution's rows scaled by the first norm. -/
theorem st7_v95 (V : 𝕍) : st7 V (no_index (Proc.devRef .tc main_v95)) = mulf (Y2 V) (col128 (degNorm (V (Proc.devRef .tc main_arg1)))) := by
  unfold st7
  simp only [ops6]
  after_results_simp
  simp (disch := decide) only [st6_v92, st6_keep, st5_keep, st4_keep, st3_keep, st2_keep, st1_v10, st1_keep]
  rfl

set_option maxRecDepth 8192 in
/-- Where the gather index is negative. -/
theorem st7_v97 (V : 𝕍) : st7 V (no_index (Proc.devRef .tc main_v97))
    = cmpi .slt (V (Proc.devRef .tc main_arg1)) (broadcastInDim S1600000 ![] bcast_S_S1600000 (constantI S_ 32 0#32)) := by
  unfold st7
  simp only [ops6]
  after_results_simp
  simp (disch := decide) only [st6_keep, st5_keep, st4_keep, st3_keep, st2_keep, st1_keep]

set_option maxRecDepth 8192 in
set_option maxHeartbeats 4000000 in
/-- The result buffer after the last stage: the network's term of the thirteen arguments. -/
theorem st8_v112 (V : 𝕍) : st8 V (Proc.devRef .tc main_v112)
    = Terms.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
        (V (Proc.devRef .tc main_arg7)) (V (Proc.devRef .tc main_arg8)) (V (Proc.devRef .tc main_arg9)) (V (Proc.devRef .tc main_arg10)) (V (Proc.devRef .tc main_arg11)) (V (Proc.devRef .tc main_arg12)) := by
  unfold st8
  simp only [ops7]
  after_results_simp
  simp (disch := decide) only [st7_v95, st7_v97, st7_keep, st6_keep, st5_keep, st4_keep, st3_keep, st2_keep, st1_v14, st1_keep]
  rfl

/-! ## The result -/

/-- The reference's result buffer holds the network's whole-array term of the thirteen argument buffers at launch. -/
theorem val_eq (m : (ℓ : Loc nD τ sig) → Buf (Elt Ideal) ℓ) (c : Dev nD) :
    val (F := Ideal) m c
      = Terms.out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12)) := by
  unfold val
  rw [after_ops_st]
  exact st8_v112 (launchContents m c)

end Cert.ReferenceIdeal.RefRun

end
-- ==== Proof.lean ====
/-
  The certificate's five claims.  A frame says that every weakly fair execution of a program terminates without a
  fault and leaves its thirteen argument arrays as launched: the two kernel programs' frames are the generated frame
  theorems, and the reference's is its run with the result forgotten (RefRun.run).  The idealized kernel program
  is the kernel program's own text read over the extended reals, no operation rewritten, so the preservation
  claim is True.  For the algebraic claim the common result is the kernel program's last output array: the kernel
  program's run ends there (KRun.run_named); the reference's run ends at the three-layer network's term of its own
  arguments (RefRun.run, RefRun.val_eq), which are the kernel program's by hypothesis, and that term of the kernel
  program's arguments is the kernel program's output array (Bridge.kernel_value).
-/
import proofs.«121135_j57578331570298_1_alg».proof.Defs
import proofs.«121135_j57578331570298_1_alg».proof.Proof.Gen.Kernel
import proofs.«121135_j57578331570298_1_alg».proof.Proof.Gen.Kernel.Skeleton
import proofs.«121135_j57578331570298_1_alg».proof.Proof.Gen.Kernel.Launch
import proofs.«121135_j57578331570298_1_alg».proof.Proof.Gen.Kernel.Points
import proofs.«121135_j57578331570298_1_alg».proof.Proof.Gen.Kernel.Frame
import proofs.«121135_j57578331570298_1_alg».proof.Proof.Gen.KernelIdeal
import proofs.«121135_j57578331570298_1_alg».proof.Proof.Gen.KernelIdeal.Skeleton
import proofs.«121135_j57578331570298_1_alg».proof.Proof.Gen.KernelIdeal.Launch
import proofs.«121135_j57578331570298_1_alg».proof.Proof.Gen.KernelIdeal.Points
import proofs.«121135_j57578331570298_1_alg».proof.Proof.Gen.KernelIdeal.Frame
import proofs.«121135_j57578331570298_1_alg».proof.Proof.Gen.ReferenceIdeal
import proofs.«121135_j57578331570298_1_alg».proof.Proof.Gen.Pre_finite_inputs
import proofs.«121135_j57578331570298_1_alg».proof.Proof.KernelRun
import proofs.«121135_j57578331570298_1_alg».proof.Proof.KernelValue
import proofs.«121135_j57578331570298_1_alg».proof.Proof.RefRun
import proofs.«121135_j57578331570298_1_alg».proof.Proof.RefVal
import Idealize.ShloMosaic.Adequacy
import Idealize.ShloMosaic.Init

noncomputable section

namespace Cert.Proof

open Idealize.ShloMosaic Idealize.SL.Sem

/-! ## The claims -/

/-- The kernel program terminates, faults nowhere and keeps its arguments. -/
theorem frame_k : Cert.frame_Kernel := fun m ρ _ => Cert.Kernel.Gen.frame m ρ

/-- The idealized kernel program likewise. -/
theorem frame_ki : Cert.frame_KernelIdeal := fun m ρ _ => Cert.KernelIdeal.Gen.frame m ρ

/-- The reference likewise: its run, the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- No operation was rewritten: nothing to preserve. -/
theorem preserves : Cert.preserves_Kernel_KernelIdeal := trivial

/-- From memories agreeing on the thirteen arguments both programs end with one result: the kernel program's
    last output array, which is the three-layer network's term of the arguments, which is where the reference ends. -/
theorem algebraic : Cert.algebraic_KernelIdeal_ReferenceIdeal := by
  intro m ρ m' ρ' _ hagree
  refine ⟨fun c => Cert.KernelIdeal.Gen.W8 m ρ c (Proc.devRef .tc Cert.KernelIdeal.main_v61),
    Cert.KernelIdeal.KRun.run_named (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRun.val_eq m' c, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2.1,
    (hagree c).2.2.2.2.2.2.2.2.2.2.2.1, (hagree c).2.2.2.2.2.2.2.2.2.2.2.2]
  exact (Cert.Bridge.kernel_value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
